-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S1x1024 : Shape := ⟨2, ![1, 1024]⟩
abbrev S512x1024 : Shape := ⟨2, ![512, 1024]⟩
abbrev S512x3072 : Shape := ⟨2, ![512, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 24
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x3072, .f32⟩
  | .hbm, ⟨11, _⟩ => ⟨S1024x3072, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .bf16⟩
  | .hbm, ⟨21, _⟩ => ⟨S1024x1024, .bf16⟩
  | .hbm, ⟨22, _⟩ => ⟨S1x1024, .f32⟩
  | .hbm, ⟨23, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x1024_S8192x1024 : S4x2048x1024.ShapeCasts S8192x1024
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S4x2048x1024.size a
  hwx1_5 : ∀ i : grid1.Coords, EltTy.bits .f32 = 32 ∨ (Rect.block (s := S4x2048x1024) S1x1024x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KReg0.lean ====
/- Region 0 of @main — the fused projection  x ↦ (x·W_q + b_q, x·W_k + b_k, x·W_v + b_v)  on a grid of 16 row blocks —
   as a pipeline whose body reads nothing but its input windows: at ANY contents `V` of the TensorCore's buffers on
   entry, the block each window shows at a point, what the body leaves in each of the three output buffers as a
   function of the input blocks, the body's triple, and the proof data with its body obligation. -/
import proofs.«123817_j21947282882914_2_alg».proof.Proof.Gen.Kernel.Launch
import proofs.«123817_j21947282882914_2_alg».proof.Proof.Gen.Kernel.Skeleton
import proofs.«123817_j21947282882914_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! ## The windows' blocks -/

/-- The block window `w` shows at point `t`: its array, as found on entry, read through the window's block view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole staging buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x1024 := Rect.unit (s := S1x1024) ![0, 0] S1x1024.size inb_S1x1024_S1x1024_0_0

/-! ## What the body leaves in each output buffer -/

/-- The query block: the rows' product with the concatenated weight, its first 1024 columns, plus the query bias row,
    rounded to bf16 — one store over the whole buffer. -/
def out0_5 (x0 : Vec F S512x1024 .f32) (x1 : Vec F S1024x3072 .bf16) (x2 : Vec F S1x1024 .f32) : Vec F S512x1024 .bf16 :=
  View.canon [⟨rX, k0_pay2 (View.ld x0 rX) (View.ld x1 rW) (View.ld x2 rB)⟩]
/-- The key block: columns 1024..2047 of the same product plus the key bias row. -/
def out0_6 (x0 : Vec F S512x1024 .f32) (x1 : Vec F S1024x3072 .bf16) (x3 : Vec F S1x1024 .f32) : Vec F S512x1024 .bf16 :=
  View.canon [⟨rX, k0_pay3 (View.ld x0 rX) (View.ld x1 rW) (View.ld x3 rB)⟩]
/-- The value block: columns 2048..3071 of the same product plus the value bias row. -/
def out0_7 (x0 : Vec F S512x1024 .f32) (x1 : Vec F S1024x3072 .bf16) (x4 : Vec F S1x1024 .f32) : Vec F S512x1024 .bf16 :=
  View.canon [⟨rX, k0_pay4 (View.ld x0 rX) (View.ld x1 rW) (View.ld x4 rB)⟩]

/-- A single store of the whole 512 x 1024 rectangle covers the buffer, whatever it stores. -/
theorem cover0_out (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The body on whole staging memrefs — the five inputs' reading `x0 … x4`, the three outputs' holding anything — runs
    to a continuation that gets the inputs back unchanged and each output reading its `out0_k` of the inputs. The
    body also loads each output buffer before storing over the whole of it; what it loaded is not used. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole)
    (x0 : Vec F S512x1024 .f32) (x1 : Vec F S1024x3072 .bf16) (x2 x3 x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x3) ∗ owns (c : Thread nD τ) arg8 fullShare (out0_7 x0 x1 x4)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- Pipeline 0's proof data on core `c`: the arrays as found on entry; after the body at point `t` each input buffer
    still at its block, each output buffer at `out0_k` of the input blocks; the invariant is the constant one (the other
    scoped buffers and the generator register, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) (iblk0 V c 4 t) := by dsimp only [dat0]

/-- Each input's staging buffer reads its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the input memrefs read their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1Runs.lean ====
import proofs.«123817_j21947282882914_2_alg».proof.Proof.Gen.Kernel.Launch
import proofs.«123817_j21947282882914_2_alg».proof.Proof.Gen.Kernel.Skeleton
import proofs.«123817_j21947282882914_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1) at the contents `V` its arrays hold on entry

What the three runs of the body (first key tile of a query block, a middle tile, the last tile) are stated over. -/

section Region1
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds the window's block at every point, whether the point
    fetched it or the block index stood still since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds the window's block at every point, whether the point
    fetched it or the block index stood still since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds the window's block at every point, whether the point
    fetched it or the block index stood still since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds the window's block at every point, whether the point
    fetched it or the block index stood still since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds the window's block at every point, whether the point
    fetched it or the block index stood still since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two conditions of the body -/

/-- "This is the first key tile": the third grid coordinate is 0. -/
abbrev cond1_0 (i : grid1.Coords) : Prop := (Scalar.cmpi .ne (Scalar.extui (Scalar.cmpi .eq (BitVec.ofNat 32 (i 2).val) 0#32)) 0#32) = 1#1
/-- The grid runs the key tiles innermost, four of them: the condition holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the third grid coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- At a first tile the output block is not stored: the window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- Nor at a middle tile. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last tile the output block is stored: the window is live. -/
theorem liveAt1_5_C : ∀ t : Fin cfg1.N, ¬cond1_0 (grid1.coords t) → cond1_1 (grid1.coords t) → cfg1.idle 5 (grid1.coords t) = false := by decide +kernel

/-! ## The memrefs the body is called on -/

/-- One staging buffer of the output window, through which its contents are stated (the choice does not matter). -/
abbrev VO1_5 : View sig .tc .vmem S1x1024x1024 .f32 := (Memref.whole cc1_stg5_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
/-- The three scratch operands: running row maximum, running row sum, accumulator. Whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region invariant, opened -/

/-- The projection region's twelve staging buffers, each at some contents: carried through the attention region unopened. -/
def stgRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- Twelve conjuncts ahead of three are one conjunct ahead of three (separating conjunction is associative). -/
theorem regroup12 (a0 a1 a2 a3 a4 a5 a6 a7 a8 a9 a10 a11 s0 s1 s2 g : sProp 𝕄) :
    (iprop((a0 ∗ a1 ∗ a2 ∗ a3 ∗ a4 ∗ a5 ∗ a6 ∗ a7 ∗ a8 ∗ a9 ∗ a10 ∗ a11 ∗ s0 ∗ s1 ∗ s2) ∗ g) : sProp 𝕄) = iprop(((a0 ∗ a1 ∗ a2 ∗ a3 ∗ a4 ∗ a5 ∗ a6 ∗ a7 ∗ a8 ∗ a9 ∗ a10 ∗ a11) ∗ s0 ∗ s1 ∗ s2) ∗ g) := by
  have h₁ : (iprop((a0 ∗ a1 ∗ a2 ∗ a3 ∗ a4 ∗ a5 ∗ a6 ∗ a7 ∗ a8 ∗ a9 ∗ a10 ∗ a11 ∗ s0 ∗ s1 ∗ s2) ∗ g) : sProp 𝕄) ⊢ iprop(((a0 ∗ a1 ∗ a2 ∗ a3 ∗ a4 ∗ a5 ∗ a6 ∗ a7 ∗ a8 ∗ a9 ∗ a10 ∗ a11) ∗ s0 ∗ s1 ∗ s2) ∗ g) := by
    iintro ⟨⟨H0, H1, H2, H3, H4, H5, H6, H7, H8, H9, H10, H11, S0, S1, S2⟩, Hg⟩
    isplitr [Hg]
    swap; · iexact Hg
    isplitr [S0 S1 S2]
    swap
    · isplitl [S0]; · iexact S0
      isplitl [S1]; · iexact S1
      iexact S2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  have h₂ : (iprop(((a0 ∗ a1 ∗ a2 ∗ a3 ∗ a4 ∗ a5 ∗ a6 ∗ a7 ∗ a8 ∗ a9 ∗ a10 ∗ a11) ∗ s0 ∗ s1 ∗ s2) ∗ g) : sProp 𝕄) ⊢ iprop((a0 ∗ a1 ∗ a2 ∗ a3 ∗ a4 ∗ a5 ∗ a6 ∗ a7 ∗ a8 ∗ a9 ∗ a10 ∗ a11 ∗ s0 ∗ s1 ∗ s2) ∗ g) := by
    iintro ⟨⟨⟨H0, H1, H2, H3, H4, H5, H6, H7, H8, H9, H10, H11⟩, S0, S1, S2⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    iexact S2
  exact BI.equiv_iff.mp ⟨h₁, h₂⟩

/-- The region invariant is: the twelve staging buffers of the other region at anything, the three scratch operands
    owned at some contents, and the generator register at some state. -/
theorem PhiA1_eq (c : Dev nD) :
    (Pipeline.ΦA spec1 c : sProp 𝕄)
      = iprop(iprop(stgRest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; unfold stgRest1
  exact regroup12 _ _ _ _ _ _ _ _ _ _ _ _ _ _ _ _

end Cert.Kernel.Hand

end
-- ==== Proof.KReg1RunA.lean ====
import proofs.«123817_j21947282882914_2_alg».proof.Proof.KReg1Runs

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at the FIRST key tile of a query block (third coordinate 0, so not 3). The three scratch operands are
    taken at anything: the body overwrites each whole (maximum := -∞, sum := 0, accumulator := 0) before it reads
    them, then folds the tile in. The output block is not touched: its buffer is handed back as found. The lists
    are what the stores leave in each scratch operand, last store first; the run finds them. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_attn_outproj_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_attn_outproj_kernel_eq_skeleton]; unfold cc1__flash_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.KReg1RunB.lean ====
import proofs.«123817_j21947282882914_2_alg».proof.Proof.KReg1RunA

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a MIDDLE key tile (third coordinate neither 0 nor 3). The scratch operands are taken at what the
    tile before left (`xs·`: they are loaded before they are stored); the tile is folded in. The output block is
    not touched. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_attn_outproj_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_attn_outproj_kernel_eq_skeleton]; unfold cc1__flash_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.KReg1RunC.lean ====
import proofs.«123817_j21947282882914_2_alg».proof.Proof.KReg1RunB

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at the LAST key tile (third coordinate 3). The scratch operands are taken at what the tile before
    left; the tile is folded in, and then the output block is stored whole: the accumulator divided by the running
    sum, times the output projection, plus its bias. The output's buffer is taken at anything. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_attn_outproj_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_attn_outproj_kernel_eq_skeleton]; unfold cc1__flash_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.KReg1.lean ====
import proofs.«123817_j21947282882914_2_alg».proof.Proof.KReg1RunC

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's proof data and body obligation, at the entry contents `V` -/

/-! ## What each case leaves in the output block and in the three scratch operands -/

/-- Case A stores nothing into the output block: no pieces. A placeholder nothing consults — at these points the
    window is neither written back nor read at the next point. -/
def out1_A_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1x1024x1024 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)

/-- Case A's stores into the running maximum are each of the whole buffer: they cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What case A leaves in the running maximum: its pieces read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.1)

/-- Case A's stores into the running sum are each of the whole buffer: they cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What case A leaves in the running sum: its pieces read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.1)

/-- Case A's stores into the accumulator are each of the whole buffer: they cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (y : S1024x1024.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

/-- What case A leaves in the accumulator: its pieces read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3 x4).2.2.2.1)

/-- Case B stores nothing into the output block: no pieces. A placeholder nothing consults — at these points the
    window is neither written back nor read at the next point. -/
def out1_B_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1x1024x1024 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1 xs2).1)

/-- Case B's stores into the running maximum are each of the whole buffer: they cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What case B leaves in the running maximum: its pieces read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1 xs2).2.1)

/-- Case B's stores into the running sum are each of the whole buffer: they cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What case B leaves in the running sum: its pieces read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.1)

/-- Case B's stores into the accumulator are each of the whole buffer: they cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What case B leaves in the accumulator: its pieces read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1)

/-- Case C's one store into the output block is of the whole block: its pieces cover it. -/
theorem cover1_C_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).1 S1x1024x1024.size (by sl_kernel_rfl) y

/-- What case C leaves in the output window's staging buffer: its pieces read back. -/
def out1_C_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1x1024x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1 xs2).1)

/-- Case C's stores into the running maximum are each of the whole buffer: they cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What case C leaves in the running maximum: its pieces read back. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1 xs2).2.1)

/-- Case C's stores into the running sum are each of the whole buffer: they cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What case C leaves in the running sum: its pieces read back. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.1)

/-- Case C's stores into the accumulator are each of the whole buffer: they cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What case C leaves in the accumulator: its pieces read back. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1)

section Region1
variable (V : (c : Dev nD) → (b : Ref sig .tc) → Buf (Elt F) ((c : Thread nD τ).loc b))

/-! ## What the buffers hold after each point -/

/-- THE RECURRENCE. What the output window's staging buffer and the three scratch operands hold after the body at
    position `n` (output, maximum, sum, accumulator): the case the position is in (first, middle or last key tile),
    run at the point's memrefs and input blocks, the scratch taken at what position `n - 1` left. -/
def outsAt1 (c : Dev nD) : (n : ℕ) → n < cfg1.N → Vec F S1x1024x1024 .f32 × Vec F S1024x1 .f32 × Vec F S1024x1 .f32 × Vec F S1024x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key tile. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle key tile: over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key tile: over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    at anything); afterwards the other region's staging buffers still at anything, each scratch operand at what the
    point before left in it, and the generator register at some state. -/
def PhiS1 (c : Dev nD) : (n : ℕ) → n ≤ cfg1.N → sProp 𝕄
  | 0, _ => Pipeline.ΦA spec1 c
  | n + 1, hn => iprop(iprop(stgRest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(stgRest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(stgRest1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The proof data of the attention region on core `c`: its arrays as the region finds them; after the body each
    input's buffer at its block, the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]
theorem q1_eq (c : Dev nD) (w : Fin cfg1.W) : (dat1 V c).q w = fullShare := by dsimp only [dat1]
theorem owed1_eq (c : Dev nD) (t : Fin (cfg1.N + 1)) : (dat1 V c).owed t = 0 := by dsimp only [dat1]
theorem recorded1_eq (c : Dev nD) (t : Fin (cfg1.N + 1)) : (dat1 V c).recorded t = Set.univ := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at the first point of all: the launch hands the scratch operands over at anything. -/
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2; (try dsimp only)
  rw [PhiS1_castSucc V c t, PhiS1_zero V c _ _ hz, PhiA1_eq]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _ _)
    unfold owns; iexists _; isplitr
    swap; · iexact HS2
    ipureintro; exact View.read_writes_of_cover _ _ _ _ _ (scover1_A_2 c _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body at a later first key tile: the scratch operands hold what the query block before left, which the
    body overwrites without reading. -/
theorem sound_body1_A (c : Dev nD) (t : Fin cfg1.N) (h0 : t.val % 4 = 0) (h1 : ¬t.val % 4 = 3) (hz : ¬t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2; (try dsimp only)
  rw [PhiS1_castSucc V c t, PhiS1_pos V c _ _ hz]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  iintro ⟨H0, H1, H2, H3, H4, H5, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _ _)
    unfold owns; iexists _; isplitr
    swap; · iexact HS2
    ipureintro; exact View.read_writes_of_cover _ _ _ _ _ (scover1_A_2 c _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body at a middle key tile: the scratch operands hold what the tile before left. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
  rw [outsAt1_B V c t h0 h1]
  unfold sout1_B_0 sout1_B_1 sout1_B_2; (try dsimp only)
  have hz : t.val ≠ 0 := fun e => h0 (by rw [e])
  rw [PhiS1_castSucc V c t, PhiS1_pos V c _ _ hz]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_B_0 c _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_B_1 c _ _ _ _ _ _ _ _ _ _ _ _ _ _ _ _ _ _ _ _ _ _ _ _ _ _ _ _ _)
    unfold owns; iexists _; isplitr
    swap; · iexact HS2
    ipureintro; exact View.read_writes_of_cover _ _ _ _ _ (scover1_B_2 c _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body at a last key tile: the scratch operands hold what the tile before left. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5_C t (fun h => h0 ((hcond1_0 t).mp h)) ((hcond1_1 t).mpr h1)], after1_5]
  rw [outsAt1_C V c t h0 h1]
  unfold out1_C_5 sout1_C_0 sout1_C_1 sout1_C_2; (try dsimp only)
  have hz : t.val ≠ 0 := fun e => h0 (by rw [e])
  rw [PhiS1_castSucc V c t, PhiS1_pos V c _ _ hz]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_C_0 c _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_C_1 c _ _ _ _ _ _ _ _ _ _ _ _ _ _ _ _ _ _ _ _ _ _ _ _ _ _ _ _ _)
    unfold owns; iexists _; isplitr
    swap; · iexact HS2
    ipureintro; exact View.read_writes_of_cover _ _ _ _ _ (scover1_C_2 c _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _ _ _ _ _ _ _)

/-- The body at any point: the position modulo 4 says which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · have h1 : ¬t.val % 4 = 3 := by omega
    by_cases hz : t.val = 0
    · exact sound_body1_A0 V c t h0 h1 hz
    · exact sound_body1_A V c t h0 h1 hz
  · by_cases h1 : t.val % 4 = 3
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch operands hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hst, HS0, HS1, HS2⟩, Hg⟩
  isplitr [Hg]
  swap; · iexact Hg
  isplitl [Hst]; · iexact Hst
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.KRun.lean ====
/- The run of @main through its four segments — a host stretch, the projection region, a host stretch, the attention
   region: the buffers' contents at each boundary as a fold from the launch memory, each region as a segment over the
   thread state "every unscoped buffer at the boundary's contents", the launch, and what the final state holds. -/
import proofs.«123817_j21947282882914_2_alg».proof.Proof.KReg0
import proofs.«123817_j21947282882914_2_alg».proof.Proof.KReg1
import proofs.«123817_j21947282882914_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: launch, after the first host stretch, after the projection
    region, after the second host stretch, after the attention region -/

/-- Core `c`'s buffers at launch. -/
abbrev W0 : Dev nD → Valuation τ sig (Elt F) := fun c b => (s₀ m ρ).mem ((c : Dev nD), b)
/-- After the first host stretch (the reshape of x, the concatenation and rounding of the three weights, the three
    bias rows): what the projection region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its eight arrays at what the pipeline's write-backs leave (the inputs as entered),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (q, k, v reshaped to batches, the output weight rounded, the output bias row): what
    the attention region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its six arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: neither host stretch writes an argument, and neither region has an argument
    among its windows' arrays (both read host-made buffers only), so each boundary leaves it alone -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The result buffer at the end is the attention region's output array after its last write-back. -/
theorem W4_main_v12 (c : Dev nD) : W4 m ρ c (Proc.devRef .tc main_v12) = (dat1 (V3 m ρ) c).arrAt 5 cfg1.N :=
  W4_arr m ρ c 5
/-- q, k and v after the projection region are its three output arrays after their last write-backs. -/
theorem W2_main_v6_0 (c : Dev nD) : W2 m ρ c (Proc.devRef .tc main_v6_0) = (dat0 (V1 m ρ) c).arrAt 5 cfg0.N :=
  W2_arr m ρ c 5
theorem W2_main_v6_1 (c : Dev nD) : W2 m ρ c (Proc.devRef .tc main_v6_1) = (dat0 (V1 m ρ) c).arrAt 6 cfg0.N :=
  W2_arr m ρ c 6
theorem W2_main_v6_2 (c : Dev nD) : W2 m ρ c (Proc.devRef .tc main_v6_2) = (dat0 (V1 m ρ) c).arrAt 7 cfg0.N :=
  W2_arr m ρ c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

/- The projection region: entered from every unscoped buffer at `W1`, left at `W2`. Its arrays are split out of the
   unscoped buffers and put back at the exit contents; the generator register goes into the constant invariant and
   comes back; nothing is owed; the kernel has no semaphore of its own. -/
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/- The attention region: entered from every unscoped buffer at `W3`, left at `W4`. Its invariant also tracks the three
   scratch buffers carried between grid points; at the first point it follows from the constant invariant (the scratch
   buffers at anything), and at the last point it gives the constant invariant back. -/
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c k => owed1_eq (V3 m ρ) c k
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1_eq (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have ho : ∀ t, (pdats m ρ 1 c).owed t = 0 := fun t => owed1_eq (V3 m ρ) c t
      have hr : ∀ t, (pdats m ρ 1 c).recorded t = Set.univ := fun t => recorded1_eq (V3 m ρ) c t
      unfold Pipeline.Dat.owesAt Pipeline.owesWithin
      rw [ho]
      icases HO with ⟨%W, HO⟩; iexists W; isplitr
      · ipureintro
        exact fun _ _ => Or.inl (by rw [hr]; trivial)
      iexact HO
    isplitl [Hp]; · iexact Hp
    iexact Hrest
  hin c := by
    refine (?_ : _ ⊢ (Pipeline.ΦA spec1 c : sProp 𝕄)).trans (hin1 (V3 m ρ) c)
    unfold Pipeline.ΦA
    iintro ⟨Hp, -, Hr⟩
    isplitl [Hr]; · iexact Hr
    iexact Hp
  hout c := by
    refine (hout1 (V3 m ρ) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1_eq (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have ho : ∀ t, (pdats m ρ 1 c).owed t = 0 := fun t => owed1_eq (V3 m ρ) c t
    unfold Pipeline.Dat.owesAt Pipeline.owesWithin
    rw [ho]
    icases HO with ⟨%W, -, HO⟩; iexists W; iexact HO

/-! ## @main as segments, and the launch -/

/-- @main's four segments in order: a host stretch, the projection region, a host stretch, the attention region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates without a
    fault, and in every final state each core's unscoped buffers hold the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every execution of @main terminates and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

/-- The run with the result named: the result buffer ends at the attention region's output array after its last
    write-back, and the nine arguments as launched. -/
theorem result_run : θ_run defs (onTc (τ := τ) (main (F := F))) ⟨m, fun _ => 0, ρ⟩ (fun r => ∀ c : Dev nD,
      r.2.mem ((c.tc : Thread nD τ).loc main_v12) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_v12 (by decide))).trans (W4_main_v12 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

end Cert.Kernel.Hand

end
-- ==== Proof.KIReg0.lean ====
/- Region 0 of @main — the fused projection  x ↦ (x·W_q + b_q, x·W_k + b_k, x·W_v + b_v)  on a grid of 16 row blocks —
   as a pipeline whose body reads nothing but its input windows: at ANY contents `V` of the TensorCore's buffers on
   entry, the block each window shows at a point, what the body leaves in each of the three output buffers as a
   function of the input blocks, the body's triple, and the proof data with its body obligation. -/
import proofs.«123817_j21947282882914_2_alg».proof.Proof.Gen.KernelIdeal.Launch
import proofs.«123817_j21947282882914_2_alg».proof.Proof.Gen.KernelIdeal.Skeleton
import proofs.«123817_j21947282882914_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at this parameter
variable (V : (c : Dev nD) → (b : Ref sig .tc) → Buf (Elt F) ((c : Thread nD τ).loc b))

/-! ## The windows' blocks -/

/-- The block window `w` shows at point `t`: its array, as found on entry, read through the window's block view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: whatever proof data has `V`'s array for it (`hA`) and a body that leaves the block where it
    found it (`hafter`), the staging buffer the body is handed at point `t` reads the window's block there — at a point
    where the pipeline fetched it, and equally at one where it did not, because then the block index has not moved
    since the fetch. The window is never cut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole staging buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x1024 := Rect.unit (s := S1x1024) ![0, 0] S1x1024.size inb_S1x1024_S1x1024_0_0

/-! ## What the body leaves in each output buffer -/

/-- The query block: the rows' product with the concatenated weight, its first 1024 columns, plus the query bias row,
    rounded to bf16 — one store over the whole buffer. -/
def out0_5 (x0 : Vec F S512x1024 .f32) (x1 : Vec F S1024x3072 .bf16) (x2 : Vec F S1x1024 .f32) : Vec F S512x1024 .bf16 :=
  View.canon [⟨rX, k0_pay2 (View.ld x0 rX) (View.ld x1 rW) (View.ld x2 rB)⟩]
/-- The key block: columns 1024..2047 of the same product plus the key bias row. -/
def out0_6 (x0 : Vec F S512x1024 .f32) (x1 : Vec F S1024x3072 .bf16) (x3 : Vec F S1x1024 .f32) : Vec F S512x1024 .bf16 :=
  View.canon [⟨rX, k0_pay3 (View.ld x0 rX) (View.ld x1 rW) (View.ld x3 rB)⟩]
/-- The value block: columns 2048..3071 of the same product plus the value bias row. -/
def out0_7 (x0 : Vec F S512x1024 .f32) (x1 : Vec F S1024x3072 .bf16) (x4 : Vec F S1x1024 .f32) : Vec F S512x1024 .bf16 :=
  View.canon [⟨rX, k0_pay4 (View.ld x0 rX) (View.ld x1 rW) (View.ld x4 rB)⟩]

/-- A single store of the whole 512 x 1024 rectangle covers the buffer, whatever it stores. -/
theorem cover0_out (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The body on whole staging memrefs — the five inputs' reading `x0 … x4`, the three outputs' holding anything — runs
    to a continuation that gets the inputs back unchanged and each output reading its `out0_k` of the inputs. The
    body also loads each output buffer before storing over the whole of it; what it loaded is not used. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole)
    (x0 : Vec F S512x1024 .f32) (x1 : Vec F S1024x3072 .bf16) (x2 x3 x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x3) ∗ owns (c : Thread nD τ) arg8 fullShare (out0_7 x0 x1 x4)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- Pipeline 0's proof data on core `c`: the arrays as found on entry; after the body at point `t` each input buffer
    still at its block, each output buffer at `out0_k` of the input blocks; the invariant is the constant one (the other
    scoped buffers and the generator register, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) (iblk0 V c 4 t) := by dsimp only [dat0]

/-- Each input's staging buffer reads its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the input memrefs read their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1Runs.lean ====
import proofs.«123817_j21947282882914_2_alg».proof.Proof.Gen.KernelIdeal.Launch
import proofs.«123817_j21947282882914_2_alg».proof.Proof.Gen.KernelIdeal.Skeleton
import proofs.«123817_j21947282882914_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (pipeline 1) at the contents `V` its arrays hold on entry

What the three runs of the body (first key tile of a query block, a middle tile, the last tile) are stated over. -/

section Region1
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds the window's block at every point, whether the point
    fetched it or the block index stood still since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds the window's block at every point, whether the point
    fetched it or the block index stood still since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds the window's block at every point, whether the point
    fetched it or the block index stood still since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds the window's block at every point, whether the point
    fetched it or the block index stood still since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds the window's block at every point, whether the point
    fetched it or the block index stood still since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two conditions of the body -/

/-- "This is the first key tile": the third grid coordinate is 0. -/
abbrev cond1_0 (i : grid1.Coords) : Prop := (Scalar.cmpi .ne (Scalar.extui (Scalar.cmpi .eq (BitVec.ofNat 32 (i 2).val) 0#32)) 0#32) = 1#1
/-- The grid runs the key tiles innermost, four of them: the condition holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the third grid coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- At a first tile the output block is not stored: the window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- Nor at a middle tile. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last tile the output block is stored: the window is live. -/
theorem liveAt1_5_C : ∀ t : Fin cfg1.N, ¬cond1_0 (grid1.coords t) → cond1_1 (grid1.coords t) → cfg1.idle 5 (grid1.coords t) = false := by decide +kernel

/-! ## The memrefs the body is called on -/

/-- One staging buffer of the output window, through which its contents are stated (the choice does not matter). -/
abbrev VO1_5 : View sig .tc .vmem S1x1024x1024 .f32 := (Memref.whole cc1_stg5_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
/-- The three scratch operands: running row maximum, running row sum, accumulator. Whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region invariant, opened -/

/-- The projection region's twelve staging buffers, each at some contents: carried through the attention region unopened. -/
def stgRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- Twelve conjuncts ahead of three are one conjunct ahead of three (separating conjunction is associative). -/
theorem regroup12 (a0 a1 a2 a3 a4 a5 a6 a7 a8 a9 a10 a11 s0 s1 s2 g : sProp 𝕄) :
    (iprop((a0 ∗ a1 ∗ a2 ∗ a3 ∗ a4 ∗ a5 ∗ a6 ∗ a7 ∗ a8 ∗ a9 ∗ a10 ∗ a11 ∗ s0 ∗ s1 ∗ s2) ∗ g) : sProp 𝕄) = iprop(((a0 ∗ a1 ∗ a2 ∗ a3 ∗ a4 ∗ a5 ∗ a6 ∗ a7 ∗ a8 ∗ a9 ∗ a10 ∗ a11) ∗ s0 ∗ s1 ∗ s2) ∗ g) := by
  have h₁ : (iprop((a0 ∗ a1 ∗ a2 ∗ a3 ∗ a4 ∗ a5 ∗ a6 ∗ a7 ∗ a8 ∗ a9 ∗ a10 ∗ a11 ∗ s0 ∗ s1 ∗ s2) ∗ g) : sProp 𝕄) ⊢ iprop(((a0 ∗ a1 ∗ a2 ∗ a3 ∗ a4 ∗ a5 ∗ a6 ∗ a7 ∗ a8 ∗ a9 ∗ a10 ∗ a11) ∗ s0 ∗ s1 ∗ s2) ∗ g) := by
    iintro ⟨⟨H0, H1, H2, H3, H4, H5, H6, H7, H8, H9, H10, H11, S0, S1, S2⟩, Hg⟩
    isplitr [Hg]
    swap; · iexact Hg
    isplitr [S0 S1 S2]
    swap
    · isplitl [S0]; · iexact S0
      isplitl [S1]; · iexact S1
      iexact S2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  have h₂ : (iprop(((a0 ∗ a1 ∗ a2 ∗ a3 ∗ a4 ∗ a5 ∗ a6 ∗ a7 ∗ a8 ∗ a9 ∗ a10 ∗ a11) ∗ s0 ∗ s1 ∗ s2) ∗ g) : sProp 𝕄) ⊢ iprop((a0 ∗ a1 ∗ a2 ∗ a3 ∗ a4 ∗ a5 ∗ a6 ∗ a7 ∗ a8 ∗ a9 ∗ a10 ∗ a11 ∗ s0 ∗ s1 ∗ s2) ∗ g) := by
    iintro ⟨⟨⟨H0, H1, H2, H3, H4, H5, H6, H7, H8, H9, H10, H11⟩, S0, S1, S2⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    iexact S2
  exact BI.equiv_iff.mp ⟨h₁, h₂⟩

/-- The region invariant is: the twelve staging buffers of the other region at anything, the three scratch operands
    owned at some contents, and the generator register at some state. -/
theorem PhiA1_eq (c : Dev nD) :
    (Pipeline.ΦA spec1 c : sProp 𝕄)
      = iprop(iprop(stgRest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; unfold stgRest1
  exact regroup12 _ _ _ _ _ _ _ _ _ _ _ _ _ _ _ _

end Cert.KernelIdeal.Hand

end
-- ==== Proof.KIReg1RunA.lean ====
import proofs.«123817_j21947282882914_2_alg».proof.Proof.KIReg1Runs

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at the FIRST key tile of a query block (third coordinate 0, so not 3). The three scratch operands are
    taken at anything: the body overwrites each whole (maximum := -∞, sum := 0, accumulator := 0) before it reads
    them, then folds the tile in. The output block is not touched: its buffer is handed back as found. The lists
    are what the stores leave in each scratch operand, last store first; the run finds them. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_attn_outproj_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_attn_outproj_kernel_eq_skeleton]; unfold cc1__flash_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KIReg1RunB.lean ====
import proofs.«123817_j21947282882914_2_alg».proof.Proof.KIReg1RunA

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a MIDDLE key tile (third coordinate neither 0 nor 3). The scratch operands are taken at what the
    tile before left (`xs·`: they are loaded before they are stored); the tile is folded in. The output block is
    not touched. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_attn_outproj_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_attn_outproj_kernel_eq_skeleton]; unfold cc1__flash_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KIReg1RunC.lean ====
import proofs.«123817_j21947282882914_2_alg».proof.Proof.KIReg1RunB

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at the LAST key tile (third coordinate 3). The scratch operands are taken at what the tile before
    left; the tile is folded in, and then the output block is stored whole: the accumulator divided by the running
    sum, times the output projection, plus its bias. The output's buffer is taken at anything. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_attn_outproj_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_attn_outproj_kernel_eq_skeleton]; unfold cc1__flash_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KIReg1.lean ====
import proofs.«123817_j21947282882914_2_alg».proof.Proof.KIReg1RunC

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region's proof data and body obligation, at the entry contents `V` -/

/-! ## What each case leaves in the output block and in the three scratch operands -/

/-- Case A stores nothing into the output block: no pieces. A placeholder nothing consults — at these points the
    window is neither written back nor read at the next point. -/
def out1_A_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1x1024x1024 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)

/-- Case A's stores into the running maximum are each of the whole buffer: they cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What case A leaves in the running maximum: its pieces read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.1)

/-- Case A's stores into the running sum are each of the whole buffer: they cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What case A leaves in the running sum: its pieces read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.1)

/-- Case A's stores into the accumulator are each of the whole buffer: they cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (y : S1024x1024.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

/-- What case A leaves in the accumulator: its pieces read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3 x4).2.2.2.1)

/-- Case B stores nothing into the output block: no pieces. A placeholder nothing consults — at these points the
    window is neither written back nor read at the next point. -/
def out1_B_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1x1024x1024 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1 xs2).1)

/-- Case B's stores into the running maximum are each of the whole buffer: they cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What case B leaves in the running maximum: its pieces read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1 xs2).2.1)

/-- Case B's stores into the running sum are each of the whole buffer: they cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What case B leaves in the running sum: its pieces read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.1)

/-- Case B's stores into the accumulator are each of the whole buffer: they cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What case B leaves in the accumulator: its pieces read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1)

/-- Case C's one store into the output block is of the whole block: its pieces cover it. -/
theorem cover1_C_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).1 S1x1024x1024.size (by sl_kernel_rfl) y

/-- What case C leaves in the output window's staging buffer: its pieces read back. -/
def out1_C_5 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1x1024x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1 xs2).1)

/-- Case C's stores into the running maximum are each of the whole buffer: they cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What case C leaves in the running maximum: its pieces read back. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1 xs2).2.1)

/-- Case C's stores into the running sum are each of the whole buffer: they cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What case C leaves in the running sum: its pieces read back. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.1)

/-- Case C's stores into the accumulator are each of the whole buffer: they cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What case C leaves in the accumulator: its pieces read back. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1)

section Region1
variable (V : (c : Dev nD) → (b : Ref sig .tc) → Buf (Elt F) ((c : Thread nD τ).loc b))

/-! ## What the buffers hold after each point -/

/-- THE RECURRENCE. What the output window's staging buffer and the three scratch operands hold after the body at
    position `n` (output, maximum, sum, accumulator): the case the position is in (first, middle or last key tile),
    run at the point's memrefs and input blocks, the scratch taken at what position `n - 1` left. -/
def outsAt1 (c : Dev nD) : (n : ℕ) → n < cfg1.N → Vec F S1x1024x1024 .f32 × Vec F S1024x1 .f32 × Vec F S1024x1 .f32 × Vec F S1024x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key tile. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle key tile: over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key tile: over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer
    at anything); afterwards the other region's staging buffers still at anything, each scratch operand at what the
    point before left in it, and the generator register at some state. -/
def PhiS1 (c : Dev nD) : (n : ℕ) → n ≤ cfg1.N → sProp 𝕄
  | 0, _ => Pipeline.ΦA spec1 c
  | n + 1, hn => iprop(iprop(stgRest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(stgRest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(stgRest1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The proof data of the attention region on core `c`: its arrays as the region finds them; after the body each
    input's buffer at its block, the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]
theorem q1_eq (c : Dev nD) (w : Fin cfg1.W) : (dat1 V c).q w = fullShare := by dsimp only [dat1]
theorem owed1_eq (c : Dev nD) (t : Fin (cfg1.N + 1)) : (dat1 V c).owed t = 0 := by dsimp only [dat1]
theorem recorded1_eq (c : Dev nD) (t : Fin (cfg1.N + 1)) : (dat1 V c).recorded t = Set.univ := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at the first point of all: the launch hands the scratch operands over at anything. -/
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2; (try dsimp only)
  rw [PhiS1_castSucc V c t, PhiS1_zero V c _ _ hz, PhiA1_eq]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _ _)
    unfold owns; iexists _; isplitr
    swap; · iexact HS2
    ipureintro; exact View.read_writes_of_cover _ _ _ _ _ (scover1_A_2 c _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body at a later first key tile: the scratch operands hold what the query block before left, which the
    body overwrites without reading. -/
theorem sound_body1_A (c : Dev nD) (t : Fin cfg1.N) (h0 : t.val % 4 = 0) (h1 : ¬t.val % 4 = 3) (hz : ¬t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2; (try dsimp only)
  rw [PhiS1_castSucc V c t, PhiS1_pos V c _ _ hz]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  iintro ⟨H0, H1, H2, H3, H4, H5, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _ _)
    unfold owns; iexists _; isplitr
    swap; · iexact HS2
    ipureintro; exact View.read_writes_of_cover _ _ _ _ _ (scover1_A_2 c _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body at a middle key tile: the scratch operands hold what the tile before left. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
  rw [outsAt1_B V c t h0 h1]
  unfold sout1_B_0 sout1_B_1 sout1_B_2; (try dsimp only)
  have hz : t.val ≠ 0 := fun e => h0 (by rw [e])
  rw [PhiS1_castSucc V c t, PhiS1_pos V c _ _ hz]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_B_0 c _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_B_1 c _ _ _ _ _ _ _ _ _ _ _ _ _ _ _ _ _ _ _ _ _ _ _ _ _ _ _ _ _)
    unfold owns; iexists _; isplitr
    swap; · iexact HS2
    ipureintro; exact View.read_writes_of_cover _ _ _ _ _ (scover1_B_2 c _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body at a last key tile: the scratch operands hold what the tile before left. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5_C t (fun h => h0 ((hcond1_0 t).mp h)) ((hcond1_1 t).mpr h1)], after1_5]
  rw [outsAt1_C V c t h0 h1]
  unfold out1_C_5 sout1_C_0 sout1_C_1 sout1_C_2; (try dsimp only)
  have hz : t.val ≠ 0 := fun e => h0 (by rw [e])
  rw [PhiS1_castSucc V c t, PhiS1_pos V c _ _ hz]
  iintro ⟨⟨⟨Hst, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, ⟨%es0, HS0⟩, ⟨%es1, HS1⟩, ⟨%es2, HS2⟩⟩
  isplitl [Hst HS0 HS1 HS2 Hg]
  · isplitr [Hg]
    swap; · iexact Hg
    isplitl [Hst]; · iexact Hst
    isplitl [HS0]
    · unfold owns; iexists _; isplitr
      swap; · iexact HS0
      ipureintro; exact View.read_writes_of_cover _ _ _ _ _ (scover1_C_0 c _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_C_1 c _ _ _ _ _ _ _ _ _ _ _ _ _ _ _ _ _ _ _ _ _ _ _ _ _ _ _ _ _)
    unfold owns; iexists _; isplitr
    swap; · iexact HS2
    ipureintro; exact View.read_writes_of_cover _ _ _ _ _ (scover1_C_2 c _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _ _ _ _ _ _ _)

/-- The body at any point: the position modulo 4 says which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · have h1 : ¬t.val % 4 = 3 := by omega
    by_cases hz : t.val = 0
    · exact sound_body1_A0 V c t h0 h1 hz
    · exact sound_body1_A V c t h0 h1 hz
  · by_cases h1 : t.val % 4 = 3
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch operands hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hst, HS0, HS1, HS2⟩, Hg⟩
  isplitr [Hg]
  swap; · iexact Hg
  isplitl [Hst]; · iexact Hst
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.KIRun.lean ====
/- The run of @main through its four segments — a host stretch, the projection region, a host stretch, the attention
   region: the buffers' contents at each boundary as a fold from the launch memory, each region as a segment over the
   thread state "every unscoped buffer at the boundary's contents", the launch, and what the final state holds. -/
import proofs.«123817_j21947282882914_2_alg».proof.Proof.KIReg0
import proofs.«123817_j21947282882914_2_alg».proof.Proof.KIReg1
import proofs.«123817_j21947282882914_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: launch, after the first host stretch, after the projection
    region, after the second host stretch, after the attention region -/

/-- Core `c`'s buffers at launch. -/
abbrev W0 : Dev nD → Valuation τ sig (Elt F) := fun c b => (s₀ m ρ).mem ((c : Dev nD), b)
/-- After the first host stretch (the reshape of x, the concatenation and rounding of the three weights, the three
    bias rows): what the projection region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its eight arrays at what the pipeline's write-backs leave (the inputs as entered),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (q, k, v reshaped to batches, the output weight rounded, the output bias row): what
    the attention region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its six arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: neither host stretch writes an argument, and neither region has an argument
    among its windows' arrays (both read host-made buffers only), so each boundary leaves it alone -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The result buffer at the end is the attention region's output array after its last write-back. -/
theorem W4_main_v12 (c : Dev nD) : W4 m ρ c (Proc.devRef .tc main_v12) = (dat1 (V3 m ρ) c).arrAt 5 cfg1.N :=
  W4_arr m ρ c 5
/-- q, k and v after the projection region are its three output arrays after their last write-backs. -/
theorem W2_main_v6_0 (c : Dev nD) : W2 m ρ c (Proc.devRef .tc main_v6_0) = (dat0 (V1 m ρ) c).arrAt 5 cfg0.N :=
  W2_arr m ρ c 5
theorem W2_main_v6_1 (c : Dev nD) : W2 m ρ c (Proc.devRef .tc main_v6_1) = (dat0 (V1 m ρ) c).arrAt 6 cfg0.N :=
  W2_arr m ρ c 6
theorem W2_main_v6_2 (c : Dev nD) : W2 m ρ c (Proc.devRef .tc main_v6_2) = (dat0 (V1 m ρ) c).arrAt 7 cfg0.N :=
  W2_arr m ρ c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

/- The projection region: entered from every unscoped buffer at `W1`, left at `W2`. Its arrays are split out of the
   unscoped buffers and put back at the exit contents; the generator register goes into the constant invariant and
   comes back; nothing is owed; the kernel has no semaphore of its own. -/
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/- The attention region: entered from every unscoped buffer at `W3`, left at `W4`. Its invariant also tracks the three
   scratch buffers carried between grid points; at the first point it follows from the constant invariant (the scratch
   buffers at anything), and at the last point it gives the constant invariant back. -/
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c k => owed1_eq (V3 m ρ) c k
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1_eq (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have ho : ∀ t, (pdats m ρ 1 c).owed t = 0 := fun t => owed1_eq (V3 m ρ) c t
      have hr : ∀ t, (pdats m ρ 1 c).recorded t = Set.univ := fun t => recorded1_eq (V3 m ρ) c t
      unfold Pipeline.Dat.owesAt Pipeline.owesWithin
      rw [ho]
      icases HO with ⟨%W, HO⟩; iexists W; isplitr
      · ipureintro
        exact fun _ _ => Or.inl (by rw [hr]; trivial)
      iexact HO
    isplitl [Hp]; · iexact Hp
    iexact Hrest
  hin c := by
    refine (?_ : _ ⊢ (Pipeline.ΦA spec1 c : sProp 𝕄)).trans (hin1 (V3 m ρ) c)
    unfold Pipeline.ΦA
    iintro ⟨Hp, -, Hr⟩
    isplitl [Hr]; · iexact Hr
    iexact Hp
  hout c := by
    refine (hout1 (V3 m ρ) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1_eq (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have ho : ∀ t, (pdats m ρ 1 c).owed t = 0 := fun t => owed1_eq (V3 m ρ) c t
    unfold Pipeline.Dat.owesAt Pipeline.owesWithin
    rw [ho]
    icases HO with ⟨%W, -, HO⟩; iexists W; iexact HO

/-! ## @main as segments, and the launch -/

/-- @main's four segments in order: a host stretch, the projection region, a host stretch, the attention region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates without a
    fault, and in every final state each core's unscoped buffers hold the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every execution of @main terminates and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

/-- The run with the result named: the result buffer ends at the attention region's output array after its last
    write-back, and the nine arguments as launched. -/
theorem result_run : θ_run defs (onTc (τ := τ) (main (F := F))) ⟨m, fun _ => 0, ρ⟩ (fun r => ∀ c : Dev nD,
      r.2.mem ((c.tc : Thread nD τ).loc main_v12) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_v12 (by decide))).trans (W4_main_v12 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

end Cert.KernelIdeal.Hand

end
-- ==== Proof.KIReg1Val.lean ====
import proofs.«123817_j21947282882914_2_alg».proof.Proof.KIReg1
import Idealize.ShloMosaic.Lib.Pipeline.Value

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each case of the attention body leaves, through the kernel's named values -/

theorem hz2 : (![0, 0] : Fin 2 → Nat) = fun _ => 0 := funext fun a => by fin_cases a <;> rfl
theorem hz3 : (![0, 0, 0] : Fin 3 → Nat) = fun _ => 0 := funext fun a => by fin_cases a <;> rfl

/-- What case A leaves in the running maximum, through the kernel's named values: the last store's payload, each load in it
    read back (a scratch load reads the reset value stored just before). -/
theorem sval1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) :
    sout1_A_0 c i arg3 harg3 arg4 harg4 arg5 harg5 arg6 harg6 arg7 harg7 arg8 harg8 arg9 harg9 arg10 harg10 arg11 harg11 hc0 hc1 x0 x1 x2 x3 x4 = k1_pay2 (k1_pay9 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1024x1) hz2]
  simp only [View.readCov_unit_zero (S := S1024x1) arg9.view hz2, View.readCov_unit_zero (S := S1024x1) arg10.view hz2, View.readCov_unit_zero (S := S1024x1024) arg11.view hz2,
    View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case A leaves in the running sum, through the kernel's named values: the last store's payload, each load in it
    read back (a scratch load reads the reset value stored just before). -/
theorem sval1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) :
    sout1_A_1 c i arg3 harg3 arg4 harg4 arg5 harg5 arg6 harg6 arg7 harg7 arg8 harg8 arg9 harg9 arg10 harg10 arg11 harg11 hc0 hc1 x0 x1 x2 x3 x4 = k1_pay12 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1024x1) hz2]
  simp only [View.readCov_unit_zero (S := S1024x1) arg9.view hz2, View.readCov_unit_zero (S := S1024x1) arg10.view hz2, View.readCov_unit_zero (S := S1024x1024) arg11.view hz2,
    View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case A leaves in the accumulator, through the kernel's named values: the last store's payload, each load in it
    read back (a scratch load reads the reset value stored just before). -/
theorem sval1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) :
    sout1_A_2 c i arg3 harg3 arg4 harg4 arg5 harg5 arg6 harg6 arg7 harg7 arg8 harg8 arg9 harg9 arg10 harg10 arg11 harg11 hc0 hc1 x0 x1 x2 x3 x4 = k1_pay1 (k1_pay7 x2) (k1_pay10 x0 x1 (k1_pay4 (F := F)) (k1_pay4 (F := F))) (k1_pay11 x0 x1 (k1_pay4 (F := F))) (k1_pay6 (F := F)) := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1024x1024) hz2]
  simp only [View.readCov_unit_zero (S := S1024x1) arg9.view hz2, View.readCov_unit_zero (S := S1024x1) arg10.view hz2, View.readCov_unit_zero (S := S1024x1024) arg11.view hz2,
    View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case B leaves in the running maximum, through the kernel's named values: the last store's payload, each load in it
    read back (a scratch load reads what the tile before left). -/
theorem sval1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 arg10 harg10 arg11 harg11 hc0 hc1 x0 x1 x2 x3 x4 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case B leaves in the running sum, through the kernel's named values: the last store's payload, each load in it
    read back (a scratch load reads what the tile before left). -/
theorem sval1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 arg10 harg10 arg11 harg11 hc0 hc1 x0 x1 x2 x3 x4 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case B leaves in the accumulator, through the kernel's named values: the last store's payload, each load in it
    read back (a scratch load reads what the tile before left). -/
theorem sval1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 arg10 harg10 arg11 harg11 hc0 hc1 x0 x1 x2 x3 x4 xs0 xs1 xs2 = k1_pay1 (k1_pay7 x2) (k1_pay10 x0 x1 xs0 xs0) (k1_pay11 x0 x1 xs0) xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  rw [View.canon_unit_zero (S := S1024x1024) hz2]
  simp only [View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case C leaves in the running maximum, through the kernel's named values: the last store's payload, each load in it
    read back (a scratch load reads what the tile before left). -/
theorem sval1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 arg10 harg10 arg11 harg11 hc0 hc1 x0 x1 x2 x3 x4 xs0 xs1 xs2 = k1_pay2 (k1_pay9 x0 x1 xs0) := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case C leaves in the running sum, through the kernel's named values: the last store's payload, each load in it
    read back (a scratch load reads what the tile before left). -/
theorem sval1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 arg10 harg10 arg11 harg11 hc0 hc1 x0 x1 x2 x3 x4 xs0 xs1 xs2 = k1_pay12 x0 x1 xs0 xs0 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case C leaves in the accumulator, through the kernel's named values: the last store's payload, each load in it
    read back (a scratch load reads what the tile before left). -/
theorem sval1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 arg10 harg10 arg11 harg11 hc0 hc1 x0 x1 x2 x3 x4 xs0 xs1 xs2 = k1_pay1 (k1_pay7 x2) (k1_pay10 x0 x1 xs0 xs0) (k1_pay11 x0 x1 xs0) xs2 := by
  unfold sout1_C_2
  rw [View.read_writes_eq_canon _ _ _ (scover1_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero (S := S1024x1024) hz2]
  simp only [View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- What case C leaves in the output block: the normalised accumulator projected, the running sum and the
    accumulator read back as this same point's stores left them. -/
theorem oval1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    out1_C_5 c i arg3 harg3 arg4 harg4 arg5 harg5 arg6 harg6 arg7 harg7 arg8 harg8 arg9 harg9 arg10 harg10 arg11 harg11 hc0 hc1 x0 x1 x2 x3 x4 xs0 xs1 xs2 = k1_pay3 (k1_pay12 x0 x1 xs0 xs0 xs1) (k1_pay1 (k1_pay7 x2) (k1_pay10 x0 x1 xs0 xs0) (k1_pay11 x0 x1 xs0) xs2) x3 x4 := by
  unfold out1_C_5
  rw [View.read_writes_eq_canon _ _ _ (cover1_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  rw [View.canon_unit_zero (S := S1x1024x1024) hz3]
  simp only [View.readCov_unit_zero (S := S1024x1) arg10.view hz2, View.readCov_unit_zero (S := S1024x1024) arg11.view hz2,
    View.readAt_eq_ld, harg3.read_unread, harg4.read_unread, harg5.read_unread, harg6.read_unread, harg7.read_unread, harg9.read_unread, harg10.read_unread, harg11.read_unread,
    View.ld_unit_zero (S := S1x1024x1024) hz3, View.ld_unit_zero (S := S1x512x1024) hz3, View.ld_unit_zero (S := S1024x1) hz2, View.ld_unit_zero (S := S1024x1024) hz2, View.ld_unit_zero (S := S1x1024) hz2]

/-- The same with the two scratch values named as what the case leaves in them. -/
theorem oval1_C_s (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (x4 : Vec F S1x1024 .f32) (xs0 : Vec F S1024x1 .f32) (xs1 : Vec F S1024x1 .f32) (xs2 : Vec F S1024x1024 .f32) :
    out1_C_5 c i arg3 harg3 arg4 harg4 arg5 harg5 arg6 harg6 arg7 harg7 arg8 harg8 arg9 harg9 arg10 harg10 arg11 harg11 hc0 hc1 x0 x1 x2 x3 x4 xs0 xs1 xs2 = k1_pay3 (sout1_C_1 c i arg3 harg3 arg4 harg4 arg5 harg5 arg6 harg6 arg7 harg7 arg8 harg8 arg9 harg9 arg10 harg10 arg11 harg11 hc0 hc1 x0 x1 x2 x3 x4 xs0 xs1 xs2) (sout1_C_2 c i arg3 harg3 arg4 harg4 arg5 harg5 arg6 harg6 arg7 harg7 arg8 harg8 arg9 harg9 arg10 harg10 arg11 harg11 hc0 hc1 x0 x1 x2 x3 x4 xs0 xs1 xs2) x3 x4 := by
  rw [sval1_C_1, sval1_C_2]; exact oval1_C c i arg3 harg3 arg4 harg4 arg5 harg5 arg6 harg6 arg7 harg7 arg8 harg8 arg9 harg9 arg10 harg10 arg11 harg11 hc0 hc1 x0 x1 x2 x3 x4 xs0 xs1 xs2

section Region1
variable (V : (c : Dev nD) → (b : Ref sig .tc) → Buf (Elt F) ((c : Thread nD τ).loc b))

/-- One step of the online softmax on the three carried values (maximum, sum, accumulator), from the query block
    `q`, the key and value tiles `k`, `v`, and what was carried: through the kernel's named values. -/
def upd1 (q : Vec F S1x1024x1024 .bf16) (k v : Vec F S1x512x1024 .bf16) (mp lp : Vec F S1024x1 .f32) (ap : Vec F S1024x1024 .f32) :
    Vec F S1024x1 .f32 × Vec F S1024x1 .f32 × Vec F S1024x1024 .f32 :=
  (k1_pay2 (k1_pay9 q k mp), k1_pay12 q k mp mp lp, k1_pay1 (k1_pay7 v) (k1_pay10 q k mp mp) (k1_pay11 q k mp) ap)

/-- At a first key tile the carried values are one step from the reset values (-∞, 0, 0). -/
theorem scr1_first (c : Dev nD) (t : Fin cfg1.N) (h0 : t.val % 4 = 0) :
    (outsAt1 V c t.val t.isLt).2 = upd1 (iblk1 V c 0 t) (iblk1 V c 1 t) (iblk1 V c 2 t) (k1_pay4 (F := F)) (k1_pay5 (F := F)) (k1_pay6 (F := F)) := by
  have h1 : ¬t.val % 4 = 3 := by omega
  rw [outsAt1_A V c t h0 h1]; dsimp only
  unfold upd1
  exact congrArg₂ Prod.mk (sval1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) (congrArg₂ Prod.mk (sval1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) (sval1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)))

/-- At any other tile they are one step from what the tile before left. -/
theorem scr1_next (c : Dev nD) (t : Fin cfg1.N) (h0 : ¬t.val % 4 = 0) :
    (outsAt1 V c t.val t.isLt).2 = upd1 (iblk1 V c 0 t) (iblk1 V c 1 t) (iblk1 V c 2 t)
      (outsAt1 V c (t.val - 1) (Nat.lt_of_le_of_lt (Nat.sub_le _ _) t.isLt)).2.1
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  by_cases h1 : t.val % 4 = 3
  · rw [outsAt1_C V c t h0 h1]; dsimp only
    unfold upd1
    exact congrArg₂ Prod.mk (sval1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (congrArg₂ Prod.mk (sval1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (sval1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2))
  · rw [outsAt1_B V c t h0 h1]; dsimp only
    unfold upd1
    exact congrArg₂ Prod.mk (sval1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (congrArg₂ Prod.mk (sval1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (sval1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2))

/-- At a last key tile the output block is the projection of this point's carried sum and accumulator. -/
theorem out1_last (c : Dev nD) (t : Fin cfg1.N) (h1 : t.val % 4 = 3) :
    (outsAt1 V c t.val t.isLt).1 = k1_pay3 (outsAt1 V c t.val t.isLt).2.2.1 (outsAt1 V c t.val t.isLt).2.2.2 (iblk1 V c 3 t) (iblk1 V c 4 t) := by
  have h0 : ¬t.val % 4 = 0 := by omega
  rw [outsAt1_C V c t h0 h1]; dsimp only
  exact oval1_C_s c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end Region1

end Cert.KernelIdeal.Hand

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.KIPay1.lean ====
import proofs.«123817_j21947282882914_2_alg».proof.Proof.Gen.KernelIdeal.Skeleton
import proofs.«123817_j21947282882914_2_alg».proof.Proof.LibMatmulEntry
import proofs.«123817_j21947282882914_2_alg».proof.Proof.LibBroadcastEntry
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Val

open Cert.KernelIdeal Cert.KernelIdeal.Gen

variable [hK : Cert.KernelIdeal.Facts]

/-! # The attention kernel's stored values at one entry, on the extended reals

One grid point holds a block of 1024 queries and a tile of 512 keys and values. Per query row r the body
computes the 512 scaled scores, joins their maximum into the running maximum, rescales the running sum and
the running weighted sum by the exponential of (old maximum - new maximum) and adds the tile's terms; at the
last tile it divides the weighted sums by the running sum and applies the output projection. -/

/-- A vector of length a laid out as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The word 0xFF800000 is -∞. -/
theorem ofBits_neg_inf : Ideal.ofBits .f32 0xFF800000#32 = (⊥ : EReal) := by
  simp [Ideal.ofBits, Ideal.ieee]

/-- The value tile with its leading unit axis dropped. -/
theorem pay7_apply (vb : Vec Ideal S1x512x1024 .bf16) (j : Fin 512) (h : Fin 1024) :
    k1_pay7 (F := Ideal) vb (ix2 j h) = vb (ix3 (0 : Fin 1) j h) := by
  unfold k1_pay7
  exact shapeCast_1ab_ab_apply _ _ j h

/-- The scaled score of query row r against key j of the tile: the dot product over the 1024 features, times
    the scale word. -/
theorem pay8_apply (qb : Vec Ideal S1x1024x1024 .bf16) (kb : Vec Ideal S1x512x1024 .bf16) (r : Fin 1024) (j : Fin 512) :
    k1_pay8 (F := Ideal) qb kb (ix2 r j)
      = (∑ d : Fin 1024, qb (ix3 (0 : Fin 1) r d) * kb (ix3 (0 : Fin 1) j d)) * Ideal.ofBits .f32 0x3D000000#32 := by
  unfold k1_pay8
  show FloatOps.matmul _ none _ _ _ (ix2 r j) * _ = _
  rw [Ideal.matmul_rows_cols _ rfl rfl rfl rfl rfl rfl none _ _ r j]
  refine congrArg (· * _) (Finset.sum_congr rfl fun d _ => ?_)
  rw [shapeCast_1ab_ab_apply, transpose_ix2_apply, shapeCast_1ab_ab_apply]

/-- The index a reduction over the key axis reads: row r, key j. -/
theorem lift_row (hr : S1024x512.Reduces [1] S1024) (r : Fin 1024) (j : Fin 512) : hr.lift (ix1 r) j = ix2 r j := by
  funext a
  apply Fin.ext
  match a with
  | ⟨0, _⟩ => rfl
  | ⟨1, _⟩ => rfl

/-- The running maximum after the tile, at row r: the old one joined with the maximum, from -∞, of the row's
    512 scores. -/
theorem pay9_apply (qb : Vec Ideal S1x1024x1024 .bf16) (kb : Vec Ideal S1x512x1024 .bf16) (mp : Vec Ideal S1024x1 .f32)
    (r : Fin 1024) (u : Fin 1) :
    k1_pay9 (F := Ideal) qb kb mp (ix2 r u)
      = max (mp (ix2 r u)) ((Finset.univ : Finset (Fin 512)).fold max (⊥ : EReal) fun j => k1_pay8 (F := Ideal) qb kb (ix2 r j)) := by
  unfold k1_pay9
  show max (mp (ix2 r u)) (shapeCast S1024x1 _ _ (ix2 r u)) = _
  rw [shapeCast_a_a1_apply]
  refine congrArg (max _) ?_
  refine (Ideal.multiReduction_maximumf_single (k1_pay8 (F := Ideal) qb kb) 0xFF800000#32 reduces_S1024x512_S1024 (.inl rfl) rfl (ix1 r)).trans ?_
  rw [show FloatOps.ofBits (F := Ideal) .f32 0xFF800000#32 = (⊥ : EReal) from ofBits_neg_inf]
  refine congrArg (fun f : Fin 512 → EReal => (Finset.univ : Finset (Fin 512)).fold max (⊥ : EReal) f) (funext fun j => ?_)
  exact congrArg (k1_pay8 (F := Ideal) qb kb) (lift_row _ r j)

/-- The rescaling factor of row r: the exponential of (old maximum - new maximum). -/
theorem pay10_apply (qb : Vec Ideal S1x1024x1024 .bf16) (kb : Vec Ideal S1x512x1024 .bf16) (mp mp' : Vec Ideal S1024x1 .f32)
    (r : Fin 1024) (u : Fin 1) :
    k1_pay10 (F := Ideal) qb kb mp mp' (ix2 r u) = Ideal.exp (mp' (ix2 r u) - k1_pay9 (F := Ideal) qb kb mp (ix2 r u)) := by
  unfold k1_pay10
  rfl

/-- The tile's weight of key j for row r: the exponential of (score - new maximum). -/
theorem pay11_apply (qb : Vec Ideal S1x1024x1024 .bf16) (kb : Vec Ideal S1x512x1024 .bf16) (mp : Vec Ideal S1024x1 .f32)
    (r : Fin 1024) (j : Fin 512) :
    k1_pay11 (F := Ideal) qb kb mp (ix2 r j)
      = Ideal.exp (k1_pay8 (F := Ideal) qb kb (ix2 r j) - k1_pay9 (F := Ideal) qb kb mp (ix2 r (0 : Fin 1))) := by
  unfold k1_pay11
  show Ideal.exp (k1_pay8 (F := Ideal) qb kb (ix2 r j) - broadcastTo S1024x512 _ _ (ix2 r j)) = _
  rw [broadcastTo_a1_ab_apply]

/-- The running sum after the tile, at row r: the old one rescaled, plus the tile's 512 weights. -/
theorem pay12_apply (qb : Vec Ideal S1x1024x1024 .bf16) (kb : Vec Ideal S1x512x1024 .bf16) (mp mp' lp : Vec Ideal S1024x1 .f32)
    (r : Fin 1024) (u : Fin 1) :
    k1_pay12 (F := Ideal) qb kb mp mp' lp (ix2 r u)
      = k1_pay10 (F := Ideal) qb kb mp mp' (ix2 r u) * lp (ix2 r u) + ∑ j : Fin 512, k1_pay11 (F := Ideal) qb kb mp (ix2 r j) := by
  unfold k1_pay12
  rw [shapeCast_self]
  show _ * _ + shapeCast S1024x1 _ _ (ix2 r u) = _
  rw [shapeCast_a_a1_apply]
  refine congrArg (fun z : EReal => (k1_pay10 (F := Ideal) qb kb mp mp' (ix2 r u) * lp (ix2 r u) : EReal) + z) ?_
  refine (Ideal.multiReduction_add_single (k1_pay11 (F := Ideal) qb kb mp) 0x00000000#32 reduces_S1024x512_S1024 (.inl rfl) rfl (ix1 r)).trans ?_
  refine Finset.sum_congr rfl fun j _ => ?_
  exact congrArg (k1_pay11 (F := Ideal) qb kb mp) (lift_row _ r j)

/-- The running weighted sum after the tile, at (r, h): the old one rescaled, plus the tile's weights times
    the tile's values. -/
theorem pay1_apply' (v8 : FVec Ideal S512x1024 .bf16) (v19 : FVec Ideal S1024x1 .f32) (v22 : FVec Ideal S1024x512 .f32)
    (ap : Vec Ideal S1024x1024 .f32) (r : Fin 1024) (h : Fin 1024) :
    k1_pay1 (F := Ideal) v8 v19 v22 ap (ix2 r h)
      = v19 (ix2 r (0 : Fin 1)) * ap (ix2 r h) + ∑ j : Fin 512, v22 (ix2 r j) * v8 (ix2 j h) := by
  unfold k1_pay1
  rw [shapeCast_self]
  show broadcastTo S1024x1024 v19 _ (ix2 r h) * ap (ix2 r h) + FloatOps.matmul _ none _ _ _ (ix2 r h) = _
  rw [broadcastTo_a1_ab_apply, Ideal.matmul_rows_cols _ rfl rfl rfl rfl rfl rfl none _ _ r h]
  rfl

/-- The running maximum is stored as computed. -/
theorem pay2_eq (v16 : FVec Ideal S1024x1 .f32) : k1_pay2 (F := Ideal) v16 = v16 := by
  unfold k1_pay2
  exact shapeCast_self _ _

/-- The reset values: -∞ for the running maximum, 0 for the two running sums. -/
theorem pay4_apply (i : S1024x1.Idx) : k1_pay4 (F := Ideal) i = (⊥ : EReal) := by
  unfold k1_pay4
  rw [shapeCast_self]
  exact ofBits_neg_inf
theorem pay5_apply (i : S1024x1.Idx) : k1_pay5 (F := Ideal) i = (0 : EReal) := by
  unfold k1_pay5
  rw [shapeCast_self]
  exact Ideal.ofBits_zero_f32
theorem pay6_apply (i : S1024x1024.Idx) : k1_pay6 (F := Ideal) i = (0 : EReal) := by
  unfold k1_pay6
  rw [shapeCast_self]
  exact Ideal.ofBits_zero_f32

/-- The output block at (r, o): the weighted sums divided by the running sum (as a product with 1/l), through
    the output projection, plus its bias row. -/
theorem pay3_apply (l : Vec Ideal S1024x1 .f32) (acc : Vec Ideal S1024x1024 .f32) (wo : Vec Ideal S1024x1024 .bf16)
    (bo : Vec Ideal S1x1024 .f32) (u : Fin 1) (r : Fin 1024) (o : Fin 1024) :
    k1_pay3 (F := Ideal) l acc wo bo (ix3 u r o)
      = (∑ h : Fin 1024, (acc (ix2 r h) * Ideal.div (Ideal.ofBits .f32 0x3F800000#32) (l (ix2 r (0 : Fin 1)))) * wo (ix2 h o))
        + bo (ix2 (0 : Fin 1) o) := by
  unfold k1_pay3
  rw [shapeCast_self, shapeCast_self, shapeCast_self, shapeCast_ab_1ab_apply]
  show (FloatOps.matmul (F := Ideal) _ none _ _ _ (ix2 r o) : EReal) + (broadcastTo S1024x1024 bo _ (ix2 r o) : EReal) = _
  rw [Ideal.matmul_rows_cols _ rfl rfl rfl rfl rfl rfl none _ _ r o, broadcastTo_1b_ab_apply]
  refine congrArg (fun z : EReal => z + (bo (ix2 (0 : Fin 1) o) : EReal)) (Finset.sum_congr rfl fun h _ => ?_)
  show ((acc (ix2 r h) : EReal) * (broadcastTo S1024x1024 _ _ (ix2 r h) : EReal)) * (wo (ix2 h o) : EReal) = _
  rw [broadcastTo_a1_ab_apply]
  rfl

end Cert.KernelIdeal.Val
-- ==== Proof.LibFiniteSums.lean ====
import Mathlib
import Idealize.ShloMosaic.PureOps.Ideal

/-!
# Real-valued extended reals: closure under the arithmetic of a normalisation layer, and the variance identity

An extended real is *real* when it is the image of a real number. Real extended reals are closed under
sums, differences, products, finite sums, the maximum with zero, division by a nonzero real, and the
reciprocal square root of a positive number. On real data the two textbook forms of the (biased) variance
agree: the mean of the squared deviations equals the mean of the squares minus the square of the mean, and
since the former is nonnegative, clamping the latter at zero changes nothing.
-/

noncomputable section

open scoped BigOperators

namespace Idealize.ShloMosaic.FiniteSums

open Idealize.ShloMosaic

/-- An extended real that is (the image of) a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither +∞ nor -∞. -/
theorem isReal_iff (x : EReal) : IsReal x ↔ x ≠ ⊤ ∧ x ≠ ⊥ := by
  induction x using EReal.rec with
  | bot => exact ⟨fun ⟨r, h⟩ => absurd h (EReal.coe_ne_bot r).symm, fun h => absurd rfl h.2⟩
  | top => exact ⟨fun ⟨r, h⟩ => absurd h (EReal.coe_ne_top r).symm, fun h => absurd rfl h.1⟩
  | coe r => exact ⟨fun _ => ⟨EReal.coe_ne_top r, EReal.coe_ne_bot r⟩, fun _ => ⟨r, rfl⟩⟩

/-- A real extended real is not +∞. -/
theorem IsReal.ne_top {x : EReal} (h : IsReal x) : x ≠ ⊤ := ((isReal_iff x).1 h).1

/-- A real extended real is not -∞. -/
theorem IsReal.ne_bot {x : EReal} (h : IsReal x) : x ≠ ⊥ := ((isReal_iff x).1 h).2

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is real. -/
theorem isReal_max {x y : EReal} (hx : IsReal x) (hy : IsReal y) : IsReal (max x y) := by
  rcases max_choice x y with h | h <;> rw [h] <;> assumption

/-- The maximum of a real with zero is real. -/
theorem isReal_max_zero {x : EReal} (hx : IsReal x) : IsReal (max x 0) := isReal_max hx isReal_zero

/-- The maximum with zero is nonnegative. -/
theorem zero_le_max_zero (x : EReal) : 0 ≤ max x 0 := le_max_right x 0

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A sum of reals over a whole finite index type is real. -/
theorem IsReal.sum_univ {ι : Type*} [Fintype ι] (f : ι → EReal) (hf : ∀ i, IsReal (f i)) :
    IsReal (∑ i, f i) := IsReal.sum Finset.univ f fun i _ => hf i

/-- A family of real extended reals is the image of a family of real numbers. -/
theorem exists_real_family {ι : Type*} (f : ι → EReal) (hf : ∀ i, IsReal (f i)) :
    ∃ g : ι → ℝ, ∀ i, f i = ((g i : ℝ) : EReal) := ⟨fun i => (hf i).choose, fun i => (hf i).choose_spec⟩

/-- The quotient of a real number by a nonzero real number, as the programs' division computes it on
    extended reals, is the real quotient. -/
theorem div_coe_coe (a N : ℝ) (hN : N ≠ 0) : Ideal.div (a : EReal) (N : EReal) = ((a / N : ℝ) : EReal) := by
  rw [Ideal.div_coe hN, ← EReal.coe_mul, mul_one_div]

/-- A real divided by a nonzero real number is real. -/
theorem IsReal.div_coe {x : EReal} (hx : IsReal x) {N : ℝ} (hN : N ≠ 0) : IsReal (Ideal.div x (N : EReal)) := by
  obtain ⟨a, rfl⟩ := hx; exact ⟨a / N, div_coe_coe a N hN⟩

/-- A real divided by 25000 is real. -/
theorem IsReal.div_25000 {x : EReal} (hx : IsReal x) : IsReal (Ideal.div x ((25000 : ℝ) : EReal)) :=
  hx.div_coe (by norm_num)

/-- The reciprocal square root of a positive real number is the real number `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The reciprocal square root of a positive real extended real is real and positive. -/
theorem IsReal.rsqrt_pos {x : EReal} (hx : IsReal x) (h : 0 < x) :
    IsReal (Ideal.rsqrt x) ∧ 0 < Ideal.rsqrt x := by
  obtain ⟨r, rfl⟩ := hx
  have hr : 0 < r := by exact_mod_cast h
  obtain ⟨e, hp⟩ := rsqrt_coe_pos hr
  rw [e]
  exact ⟨⟨_, rfl⟩, by exact_mod_cast hp⟩

/-- A nonnegative real plus a positive real is a positive real: the argument of the reciprocal square root
    in a normalisation layer (a clamped variance plus a positive constant). -/
theorem IsReal.add_pos {x y : EReal} (hx : IsReal x) (hy : IsReal y) (h0 : 0 ≤ x) (h1 : 0 < y) :
    IsReal (x + y) ∧ 0 < x + y := by
  refine ⟨hx.add hy, ?_⟩
  obtain ⟨a, rfl⟩ := hx; obtain ⟨b, rfl⟩ := hy
  have ha : 0 ≤ a := by exact_mod_cast h0
  have hb : 0 < b := by exact_mod_cast h1
  rw [← EReal.coe_add]
  exact_mod_cast add_pos_of_nonneg_of_pos ha hb

/-! ## The variance identity -/

/-- Over the real numbers: with `N` the number of terms and `m` the mean, the mean of the squared deviations
    from `m` is the mean of the squares minus `m²`. -/
theorem real_variance {ι : Type*} [Fintype ι] (g : ι → ℝ) (N : ℝ) (hN : (Fintype.card ι : ℝ) = N) (h0 : N ≠ 0) :
    (∑ i, (g i - (∑ j, g j) / N) * (g i - (∑ j, g j) / N)) / N
      = (∑ i, g i * g i) / N - ((∑ j, g j) / N) * ((∑ j, g j) / N) := by
  have h1 : ∑ i, (g i - (∑ j, g j) / N) * (g i - (∑ j, g j) / N)
      = (∑ i, g i * g i) - 2 * ((∑ j, g j) / N) * (∑ j, g j) + N * ((∑ j, g j) / N * ((∑ j, g j) / N)) := by
    have e : ∀ i, (g i - (∑ j, g j) / N) * (g i - (∑ j, g j) / N)
        = g i * g i - 2 * ((∑ j, g j) / N) * g i + ((∑ j, g j) / N * ((∑ j, g j) / N)) := fun i => by ring
    simp only [e, Finset.sum_add_distrib, Finset.sum_sub_distrib, ← Finset.mul_sum, Finset.sum_const,
      Finset.card_univ, nsmul_eq_mul, hN]
    ring
  rw [h1]
  field_simp
  ring

/-- Over the real numbers the mean of the squared deviations is nonnegative. -/
theorem real_variance_nonneg {ι : Type*} [Fintype ι] (g : ι → ℝ) (m N : ℝ) (hN : (Fintype.card ι : ℝ) = N) :
    0 ≤ (∑ i, (g i - m) * (g i - m)) / N :=
  div_nonneg (Finset.sum_nonneg fun i _ => mul_self_nonneg _) (hN ▸ Nat.cast_nonneg _)

/-- **The variance identity on real data, in extended-real arithmetic.** For a family `f` of real extended
    reals over a finite index type with `N` elements (`N ≠ 0`), with the mean `μ = (∑ f) / N`: the mean of
    the squared deviations from `μ` equals the mean of the squares minus `μ²`, clamped below at zero. Every
    division is the programs' division of extended reals by the real number `N`. -/
theorem variance_identity {ι : Type*} [Fintype ι] (f : ι → EReal) (hf : ∀ i, IsReal (f i))
    (N : ℝ) (hN : (Fintype.card ι : ℝ) = N) (h0 : N ≠ 0) :
    Ideal.div (∑ i, (f i - Ideal.div (∑ j, f j) (N : EReal)) * (f i - Ideal.div (∑ j, f j) (N : EReal))) (N : EReal)
      = max (Ideal.div (∑ i, f i * f i) (N : EReal)
              - Ideal.div (∑ j, f j) (N : EReal) * Ideal.div (∑ j, f j) (N : EReal)) 0 := by
  obtain ⟨g, hg⟩ := exists_real_family f hf
  have hS : (∑ j, f j) = (((∑ j, g j : ℝ)) : EReal) := by
    rw [coe_finset_sum]; exact Finset.sum_congr rfl fun j _ => hg j
  have hμ : Ideal.div (∑ j, f j) (N : EReal) = (((∑ j, g j) / N : ℝ) : EReal) := by
    rw [hS, div_coe_coe _ _ h0]
  have hQ : (∑ i, f i * f i) = ((∑ i, g i * g i : ℝ) : EReal) := by
    rw [coe_finset_sum]; exact Finset.sum_congr rfl fun i _ => by rw [hg i, EReal.coe_mul]
  have hD : (∑ i, (f i - Ideal.div (∑ j, f j) (N : EReal)) * (f i - Ideal.div (∑ j, f j) (N : EReal)))
      = ((∑ i, (g i - (∑ j, g j) / N) * (g i - (∑ j, g j) / N) : ℝ) : EReal) := by
    rw [coe_finset_sum]
    exact Finset.sum_congr rfl fun i _ => by rw [hμ, hg i, ← EReal.coe_sub, ← EReal.coe_mul]
  rw [hD, hQ, hμ, div_coe_coe _ _ h0, div_coe_coe _ _ h0, ← EReal.coe_mul, ← EReal.coe_sub,
    real_variance g N hN h0]
  have hB : 0 ≤ (∑ i, g i * g i) / N - (∑ j, g j) / N * ((∑ j, g j) / N) :=
    (real_variance g N hN h0) ▸ real_variance_nonneg g _ N hN
  exact (max_eq_left (EReal.coe_nonneg.2 hB)).symm

/-- The variance identity over `Fin n`, `n > 0`, with `N = n` as a real number. -/
theorem variance_identity_fin {n : ℕ} (hn : 0 < n) (f : Fin n → EReal) (hf : ∀ i, IsReal (f i)) :
    Ideal.div (∑ i, (f i - Ideal.div (∑ j, f j) ((n : ℝ) : EReal)) * (f i - Ideal.div (∑ j, f j) ((n : ℝ) : EReal)))
        ((n : ℝ) : EReal)
      = max (Ideal.div (∑ i, f i * f i) ((n : ℝ) : EReal)
              - Ideal.div (∑ j, f j) ((n : ℝ) : EReal) * Ideal.div (∑ j, f j) ((n : ℝ) : EReal)) 0 :=
  variance_identity f hf (n : ℝ) (by simp) (by exact_mod_cast hn.ne')

end Idealize.ShloMosaic.FiniteSums
-- ==== Proof.LibOnlineSoftmax.lean ====
import Mathlib
import Idealize.ShloMosaic.PureOps.Ideal
import proofs.«123817_j21947282882914_2_alg».proof.Proof.LibFiniteSums

/-!
# A running ("online") softmax over tiles of any width, on the extended reals

Scores arrive tile by tile, W rows at a time; the running state is the maximum of the scores seen so far, the
sum of the exponentials of the scores shifted by that maximum, and the same sum weighted by the values; when a
tile raises the maximum from m to m' the old sums are rescaled by exp (m - m'). On real scores and values,
after at least one tile, the quotient of the weighted sum by the plain sum is the softmax-weighted average of
the values over all rows of all tiles: the shift by the maximum cancels between numerator and denominator.
Also: a dot product of real vectors over any finite index type, computed in the extended reals, is the real
dot product, also when corrected by residual terms that vanish on real data.
-/

noncomputable section

open scoped BigOperators

namespace Cert.LibOnlineSoftmax

open Idealize.ShloMosaic
open Idealize.ShloMosaic.FiniteSums

variable {W : ℕ}

/-- One tile of the running softmax: the new maximum is the old one joined with the tile's maximum; both
    running sums are rescaled by the exponential of (old maximum - new maximum) and the tile's terms,
    shifted by the new maximum, are added. -/
def step (S V : Fin W → EReal) (st : EReal × EReal × EReal) : EReal × EReal × EReal :=
  let m' := max st.1 ((Finset.univ : Finset (Fin W)).fold max (⊥ : EReal) S)
  (m', Ideal.exp (st.1 - m') * st.2.1 + ∑ r : Fin W, Ideal.exp (S r - m'), Ideal.exp (st.1 - m') * st.2.2 + ∑ r : Fin W, Ideal.exp (S r - m') * V r)

/-- The running state after k tiles, starting from (-∞, 0, 0). -/
def state (S V : ℕ → Fin W → EReal) : ℕ → EReal × EReal × EReal
  | 0 => (⊥, 0, 0)
  | k + 1 => step (S k) (V k) (state S V k)

/-! ## The maximum of a tile of real scores is real -/

/-- The maximum, started from -∞, of a nonempty tile of real scores is one of them, hence real. -/
theorem fold_max_coe [NeZero W] (f : Fin W → ℝ) :
    ∃ T : ℝ, (Finset.univ : Finset (Fin W)).fold max (⊥ : EReal) (fun r => (f r : EReal)) = (T : EReal) := by
  obtain ⟨i, -, hi⟩ := Finset.exists_mem_eq_sup (Finset.univ : Finset (Fin W)) Finset.univ_nonempty
    (fun r => (f r : EReal))
  exact ⟨f i, hi⟩

/-- The maximum of two real numbers, taken in the extended reals, is real. -/
theorem max_coe_coe (a b : ℝ) : ∃ c : ℝ, max (a : EReal) (b : EReal) = (c : EReal) := by
  rcases max_choice (a : EReal) (b : EReal) with h | h
  · exact ⟨a, h⟩
  · exact ⟨b, h⟩

/-- The exponential of a difference of two real numbers, computed in the extended reals. -/
theorem exp_coe_sub_coe (a b : ℝ) : Ideal.exp ((a : EReal) - (b : EReal)) = ((Real.exp (a - b) : ℝ) : EReal) := by
  rw [← EReal.coe_sub]; rfl

/-! ## One tile -/

/-- The first tile: from (-∞, 0, 0) the state becomes (M, ∑ exp (s - M), ∑ exp (s - M) · v) for a real M. -/
theorem step_bot [NeZero W] (s v : Fin W → ℝ) :
    ∃ M' : ℝ, step (fun r => (s r : EReal)) (fun r => (v r : EReal)) ((⊥ : EReal), (0 : EReal), (0 : EReal))
      = ((M' : EReal), ((∑ r : Fin W, Real.exp (s r - M') : ℝ) : EReal),
          ((∑ r : Fin W, Real.exp (s r - M') * v r : ℝ) : EReal)) := by
  obtain ⟨T, hT⟩ := fold_max_coe s
  refine ⟨T, ?_⟩
  simp only [step]
  rw [hT, max_eq_right (bot_le : (⊥ : EReal) ≤ (T : EReal)), EReal.bot_sub, Ideal.exp_bot, zero_mul]
  simp only [zero_add, exp_coe_sub_coe, ← EReal.coe_mul, ← coe_finset_sum]

/-- A later tile: from a real state (M, A, B) the state becomes
    (M', exp (M - M') · A + ∑ exp (s - M'), exp (M - M') · B + ∑ exp (s - M') · v) for a real M'. -/
theorem step_coe [NeZero W] (s v : Fin W → ℝ) (M A B : ℝ) :
    ∃ M' : ℝ, step (fun r => (s r : EReal)) (fun r => (v r : EReal)) ((M : EReal), (A : EReal), (B : EReal))
      = ((M' : EReal), ((Real.exp (M - M') * A + ∑ r : Fin W, Real.exp (s r - M') : ℝ) : EReal),
          ((Real.exp (M - M') * B + ∑ r : Fin W, Real.exp (s r - M') * v r : ℝ) : EReal)) := by
  obtain ⟨T, hT⟩ := fold_max_coe s
  obtain ⟨M', hM'⟩ := max_coe_coe M T
  refine ⟨M', ?_⟩
  simp only [step]
  rw [hT, hM']
  simp only [exp_coe_sub_coe, ← EReal.coe_mul, ← coe_finset_sum, ← EReal.coe_add]

/-! ## The invariant -/

/-- Rescaling: exp (M - M') · exp (x - M) = exp (x - M'). -/
theorem exp_rescale (M M' x : ℝ) : Real.exp (M - M') * Real.exp (x - M) = Real.exp (x - M') := by
  rw [← Real.exp_add]; congr 1; ring

/-- After k + 1 tiles of real scores and values the state is real: for some real M it is
    (M, ∑ exp (s - M), ∑ exp (s - M) · v), the sums running over all rows of the first k + 1 tiles. -/
theorem state_inv [NeZero W] (s v : ℕ → Fin W → ℝ) (k : ℕ) :
    ∃ M : ℝ, state (fun j r => (s j r : EReal)) (fun j r => (v j r : EReal)) (k + 1)
      = ((M : EReal), ((∑ j ∈ Finset.range (k + 1), ∑ r : Fin W, Real.exp (s j r - M) : ℝ) : EReal),
          ((∑ j ∈ Finset.range (k + 1), ∑ r : Fin W, Real.exp (s j r - M) * v j r : ℝ) : EReal)) := by
  induction k with
  | zero =>
    obtain ⟨M, hM⟩ := step_bot (s 0) (v 0)
    refine ⟨M, ?_⟩
    show step (fun r => (s 0 r : EReal)) (fun r => (v 0 r : EReal)) ((⊥ : EReal), (0 : EReal), (0 : EReal)) = _
    rw [hM, Finset.sum_range_one, Finset.sum_range_one]
  | succ k ih =>
    obtain ⟨M, hM⟩ := ih
    obtain ⟨M', hM'⟩ := step_coe (s (k + 1)) (v (k + 1)) M
      (∑ j ∈ Finset.range (k + 1), ∑ r : Fin W, Real.exp (s j r - M))
      (∑ j ∈ Finset.range (k + 1), ∑ r : Fin W, Real.exp (s j r - M) * v j r)
    refine ⟨M', ?_⟩
    show step (fun r => (s (k + 1) r : EReal)) (fun r => (v (k + 1) r : EReal))
      (state (fun j r => (s j r : EReal)) (fun j r => (v j r : EReal)) (k + 1)) = _
    rw [hM, hM']
    have e1 : Real.exp (M - M') * (∑ j ∈ Finset.range (k + 1), ∑ r : Fin W, Real.exp (s j r - M))
        = ∑ j ∈ Finset.range (k + 1), ∑ r : Fin W, Real.exp (s j r - M') := by
      rw [Finset.mul_sum]
      refine Finset.sum_congr rfl fun j _ => ?_
      rw [Finset.mul_sum]
      exact Finset.sum_congr rfl fun r _ => exp_rescale M M' (s j r)
    have e2 : Real.exp (M - M') * (∑ j ∈ Finset.range (k + 1), ∑ r : Fin W, Real.exp (s j r - M) * v j r)
        = ∑ j ∈ Finset.range (k + 1), ∑ r : Fin W, Real.exp (s j r - M') * v j r := by
      rw [Finset.mul_sum]
      refine Finset.sum_congr rfl fun j _ => ?_
      rw [Finset.mul_sum]
      refine Finset.sum_congr rfl fun r _ => ?_
      rw [← mul_assoc, exp_rescale]
    rw [e1, e2, ← Finset.sum_range_succ (fun j => ∑ r : Fin W, Real.exp (s j r - M')) (k + 1),
      ← Finset.sum_range_succ (fun j => ∑ r : Fin W, Real.exp (s j r - M') * v j r) (k + 1)]

/-! ## The final quotient -/

/-- Shifting every score by M multiplies both sums by exp (-M), which cancels in the quotient. -/
theorem ratio_shift (s v : ℕ → Fin W → ℝ) (n : ℕ) (M : ℝ) :
    (∑ j ∈ Finset.range n, ∑ r : Fin W, Real.exp (s j r - M) * v j r)
        / (∑ j ∈ Finset.range n, ∑ r : Fin W, Real.exp (s j r - M))
      = (∑ j ∈ Finset.range n, ∑ r : Fin W, Real.exp (s j r) * v j r)
        / (∑ j ∈ Finset.range n, ∑ r : Fin W, Real.exp (s j r)) := by
  have hN : (∑ j ∈ Finset.range n, ∑ r : Fin W, Real.exp (s j r - M) * v j r)
      = Real.exp (-M) * ∑ j ∈ Finset.range n, ∑ r : Fin W, Real.exp (s j r) * v j r := by
    rw [Finset.mul_sum]
    refine Finset.sum_congr rfl fun j _ => ?_
    rw [Finset.mul_sum]
    refine Finset.sum_congr rfl fun r _ => ?_
    rw [sub_eq_add_neg, Real.exp_add]; ring
  have hD : (∑ j ∈ Finset.range n, ∑ r : Fin W, Real.exp (s j r - M))
      = Real.exp (-M) * ∑ j ∈ Finset.range n, ∑ r : Fin W, Real.exp (s j r) := by
    rw [Finset.mul_sum]
    refine Finset.sum_congr rfl fun j _ => ?_
    rw [Finset.mul_sum]
    refine Finset.sum_congr rfl fun r _ => ?_
    rw [sub_eq_add_neg, Real.exp_add]; ring
  rw [hN, hD, mul_div_mul_left _ _ (Real.exp_pos (-M)).ne']

/-- Over at least one tile the sum of the shifted exponentials is positive. -/
theorem sum_exp_pos [NeZero W] (s : ℕ → Fin W → ℝ) (k : ℕ) (M : ℝ) :
    0 < ∑ j ∈ Finset.range (k + 1), ∑ r : Fin W, Real.exp (s j r - M) :=
  Finset.sum_pos (fun j _ => Finset.sum_pos (fun r _ => Real.exp_pos _) Finset.univ_nonempty)
    ⟨0, Finset.mem_range.2 (Nat.succ_pos k)⟩

/-- After at least one tile of real scores and values, the quotient of the weighted running sum by the plain
    running sum is the softmax-weighted average of the values over all rows of all tiles. -/
theorem state_final [NeZero W] (s v : ℕ → Fin W → ℝ) (n : ℕ) (hn : 0 < n) :
    Ideal.div (state (fun j r => (s j r : EReal)) (fun j r => (v j r : EReal)) n).2.2 (state (fun j r => (s j r : EReal)) (fun j r => (v j r : EReal)) n).2.1
      = (((∑ j ∈ Finset.range n, ∑ r : Fin W, Real.exp (s j r) * v j r) / (∑ j ∈ Finset.range n, ∑ r : Fin W, Real.exp (s j r)) : ℝ) : EReal) := by
  obtain ⟨k, rfl⟩ : ∃ k, n = k + 1 := ⟨n - 1, (Nat.succ_pred_eq_of_pos hn).symm⟩
  obtain ⟨M, hM⟩ := state_inv s v k
  rw [hM]
  show Ideal.div ((_ : ℝ) : EReal) ((_ : ℝ) : EReal) = _
  rw [div_coe_coe _ _ (sum_exp_pos s k M).ne', ratio_shift]

/-! ## Dot products of real vectors -/

/-- A dot product of two real vectors over a finite index type, computed in the extended reals, is the real dot product. -/
theorem dot_coe {ι : Type*} [Fintype ι] (x w : ι → ℝ) :
    (∑ d : ι, (x d : EReal) * (w d : EReal)) = ((∑ d : ι, x d * w d : ℝ) : EReal) := by
  rw [coe_finset_sum]
  exact Finset.sum_congr rfl fun d _ => (EReal.coe_mul (x d) (w d)).symm

/-- A real number minus itself, in the extended reals, is zero. -/
theorem coe_sub_self (a : ℝ) : (a : EReal) - (a : EReal) = 0 := by
  rw [← EReal.coe_sub, sub_self, EReal.coe_zero]

/-- A score computed with split-precision residuals: on real data both residuals (x - x and q - q) vanish,
    so the two correction sums are zero and the score is the real dot product. -/
theorem score_coe {ι : Type*} [Fintype ι] (x q : ι → ℝ) :
    (∑ d : ι, (x d : EReal) * (q d : EReal)) + (∑ d : ι, ((x d : EReal) - (x d : EReal)) * (q d : EReal)) + (∑ d : ι, (x d : EReal) * ((q d : EReal) - (q d : EReal))) = ((∑ d : ι, x d * q d : ℝ) : EReal) := by
  have h1 : (∑ d : ι, ((x d : EReal) - (x d : EReal)) * (q d : EReal)) = 0 :=
    Finset.sum_eq_zero fun d _ => by rw [coe_sub_self, zero_mul]
  have h2 : (∑ d : ι, (x d : EReal) * ((q d : EReal) - (q d : EReal))) = 0 :=
    Finset.sum_eq_zero fun d _ => by rw [coe_sub_self, mul_zero]
  rw [h1, h2, add_zero, add_zero, dot_coe]

/-! ## The state depends only on the tiles consumed -/

/-- Two families of tiles that agree on the first n tiles give the same state after n tiles. -/
theorem state_congr (S S' V V' : ℕ → Fin W → EReal) (n : ℕ) (h : ∀ j, j < n → S j = S' j ∧ V j = V' j) :
    state S V n = state S' V' n := by
  induction n with
  | zero => rfl
  | succ k ih =>
    show step (S k) (V k) (state S V k) = step (S' k) (V' k) (state S' V' k)
    rw [ih fun j hj => h j (Nat.lt_succ_of_lt hj), (h k (Nat.lt_succ_self k)).1, (h k (Nat.lt_succ_self k)).2]

end Cert.LibOnlineSoftmax
-- ==== Proof.KIInd.lean ====
import proofs.«123817_j21947282882914_2_alg».proof.Proof.Gen.KernelIdeal.Skeleton
import proofs.«123817_j21947282882914_2_alg».proof.Proof.KIPay1
import proofs.«123817_j21947282882914_2_alg».proof.Proof.LibOnlineSoftmax

noncomputable section

open Idealize.ShloMosaic Idealize.ShloMosaic.ValueIdx
open scoped BigOperators

namespace Cert.KernelIdeal.Val

open Cert.KernelIdeal Cert.KernelIdeal.Gen Cert.LibOnlineSoftmax

variable [hK : Cert.KernelIdeal.Facts]

/-! # The three scratch buffers, row by row, follow the running softmax

The scratch buffers hold, per query row, the running maximum and the running sum, and per query row and
column the running weighted sum. One grid point updates all rows at once; read at one row r and one column h the
update is one step of the running softmax over the tile's 512 scores of that row and the tile's 512 values of
that column. Along the four key tiles of one query block the rows therefore hold the running state after
1, 2, 3, 4 tiles. -/

/-- The contents of the three scratch buffers. -/
abbrev Scr : Type := Vec Ideal S1024x1 .f32 × Vec Ideal S1024x1 .f32 × Vec Ideal S1024x1024 .f32

/-- One grid point's update of the scratch buffers from a query block and a key and a value tile. -/
def updI (q : Vec Ideal S1x1024x1024 .bf16) (k v : Vec Ideal S1x512x1024 .bf16) (st : Scr) : Scr :=
  (k1_pay2 (F := Ideal) (k1_pay9 (F := Ideal) q k st.1), k1_pay12 (F := Ideal) q k st.1 st.1 st.2.1,
    k1_pay1 (F := Ideal) (k1_pay7 (F := Ideal) v) (k1_pay10 (F := Ideal) q k st.1 st.1) (k1_pay11 (F := Ideal) q k st.1) st.2.2)

/-- The reset contents: -∞, 0, 0. -/
def resetI : Scr := (k1_pay4 (F := Ideal), k1_pay5 (F := Ideal), k1_pay6 (F := Ideal))

/-- Row r's 512 scores against the tile. -/
def tileS (q : Vec Ideal S1x1024x1024 .bf16) (k : Vec Ideal S1x512x1024 .bf16) (r : Fin 1024) : Fin 512 → EReal :=
  fun j => k1_pay8 (F := Ideal) q k (ix2 r j)

/-- Column h of the tile's 512 values. -/
def tileV (v : Vec Ideal S1x512x1024 .bf16) (h : Fin 1024) : Fin 512 → EReal := fun j => v (ix3 (0 : Fin 1) j h)

/-- The scratch buffers read at row r and column h. -/
def rowOf (st : Scr) (r h : Fin 1024) : EReal × EReal × EReal :=
  (st.1 (ix2 r (0 : Fin 1)), st.2.1 (ix2 r (0 : Fin 1)), st.2.2 (ix2 r h))

theorem row_reset (r h : Fin 1024) : rowOf resetI r h = ((⊥ : EReal), (0 : EReal), (0 : EReal)) := by
  unfold rowOf resetI
  dsimp only
  rw [pay4_apply, pay5_apply, pay6_apply]

theorem row_upd (q : Vec Ideal S1x1024x1024 .bf16) (k v : Vec Ideal S1x512x1024 .bf16) (st : Scr) (r h : Fin 1024) :
    rowOf (updI q k v st) r h = step (tileS q k r) (tileV v h) (rowOf st r h) := by
  unfold rowOf updI step
  dsimp only
  rw [pay2_eq, pay12_apply, pay1_apply', pay10_apply, pay9_apply]
  refine Prod.ext rfl (Prod.ext ?_ ?_)
  · show _ + _ = _ + _
    refine congrArg _ (Finset.sum_congr rfl fun j _ => ?_)
    rw [pay11_apply, pay9_apply]
    rfl
  · show _ + _ = _ + _
    refine congrArg _ (Finset.sum_congr rfl fun j _ => ?_)
    rw [pay11_apply, pay9_apply, pay7_apply]
    rfl

/-- Along the four key tiles of query block g the rows hold the running state after ki + 1 tiles. -/
theorem row_state (Qb : ℕ → Vec Ideal S1x1024x1024 .bf16) (Kb Vb : ℕ → Vec Ideal S1x512x1024 .bf16) (sc : ℕ → Scr)
    (N : ℕ) (hfirst : ∀ n, n < N → n % 4 = 0 → sc n = updI (Qb n) (Kb n) (Vb n) resetI)
    (hnext : ∀ n, n < N → n % 4 ≠ 0 → sc n = updI (Qb n) (Kb n) (Vb n) (sc (n - 1)))
    (g : ℕ) (r h : Fin 1024) (ki : ℕ) (hki : ki < 4) (hN : 4 * g + ki < N) :
    rowOf (sc (4 * g + ki)) r h
      = state (fun j => tileS (Qb (4 * g + j)) (Kb (4 * g + j)) r) (fun j => tileV (Vb (4 * g + j)) h) (ki + 1) := by
  induction ki with
  | zero =>
    rw [hfirst (4 * g + 0) hN (by omega), row_upd, row_reset]
    rfl
  | succ k ih =>
    rw [hnext (4 * g + (k + 1)) hN (by omega), row_upd, show 4 * g + (k + 1) - 1 = 4 * g + k from by omega, ih (by omega) (by omega)]
    rfl

end Cert.KernelIdeal.Val
-- ==== Proof.Spec.lean ====
import Idealize.ShloMosaic.PureOps.Ideal
import Idealize.ShloMosaic.Lib.ValueIdx

/-!
# Scaled dot-product self-attention with an output projection, as one function of the nine argument arrays

For a batch of 4 sequences of 2048 tokens of width 1024: three affine projections Q, K, V of the tokens; the
scores Q·Kᵀ scaled by 1/32 (= 1/√1024); for every query the softmax of its 2048 scores, written with a shift
`mx s` subtracted inside the exponentials (on real scores the quotient does not depend on the shift); the
weighted mean of the values; and a last affine map. Every sum is a plain finite sum of extended reals.
-/

noncomputable section

open Idealize.ShloMosaic
open scoped BigOperators

namespace Cert.Attn

abbrev T3 : Shape := ⟨3, ![4, 2048, 1024]⟩
abbrev T2 : Shape := ⟨2, ![1024, 1024]⟩
abbrev T1 : Shape := ⟨1, ![1024]⟩

/-- An affine projection of every token: (x · W + b)[bi, c, h]. -/
def proj (x : T3.Idx → EReal) (W : T2.Idx → EReal) (b : T1.Idx → EReal) (bi : Fin 4) (c : Fin 2048) (h : Fin 1024) : EReal :=
  (∑ d : Fin 1024, x (ValueIdx.ix3 bi c d) * W (ValueIdx.ix2 d h)) + b (ValueIdx.ix1 h)

/-- The scaled score of query q against key k. -/
def score (Q K : Fin 4 → Fin 2048 → Fin 1024 → EReal) (bi : Fin 4) (q k : Fin 2048) : EReal :=
  (∑ h : Fin 1024, Q bi q h * K bi k h) * ((1 / 32 : ℝ) : EReal)

/-- The softmax weight of key k among the scores s, the exponentials shifted by `mx s`. -/
def weight (mx : (Fin 2048 → EReal) → EReal) (s : Fin 2048 → EReal) (k : Fin 2048) : EReal :=
  Ideal.div (Ideal.exp (s k - mx s)) (∑ j : Fin 2048, Ideal.exp (s j - mx s))

/-- The attention output before the last projection. -/
def attn (mx : (Fin 2048 → EReal) → EReal) (Q K V : Fin 4 → Fin 2048 → Fin 1024 → EReal)
    (bi : Fin 4) (q : Fin 2048) (h : Fin 1024) : EReal :=
  ∑ k : Fin 2048, weight mx (score Q K bi q) k * V bi k h

/-- The whole layer at one entry. -/
def out (mx : (Fin 2048 → EReal) → EReal) (x : T3.Idx → EReal) (Wq : T2.Idx → EReal) (bq : T1.Idx → EReal)
    (Wk : T2.Idx → EReal) (bk : T1.Idx → EReal) (Wv : T2.Idx → EReal) (bv : T1.Idx → EReal)
    (Wo : T2.Idx → EReal) (bo : T1.Idx → EReal) (bi : Fin 4) (q : Fin 2048) (o : Fin 1024) : EReal :=
  (∑ h : Fin 1024, attn mx (proj x Wq bq) (proj x Wk bk) (proj x Wv bv) bi q h * Wo (ValueIdx.ix2 h o)) + bo (ValueIdx.ix1 o)

/-- The same as an array over the result's shape. -/
def outArr (mx : (Fin 2048 → EReal) → EReal) (x : T3.Idx → EReal) (Wq : T2.Idx → EReal) (bq : T1.Idx → EReal)
    (Wk : T2.Idx → EReal) (bk : T1.Idx → EReal) (Wv : T2.Idx → EReal) (bv : T1.Idx → EReal)
    (Wo : T2.Idx → EReal) (bo : T1.Idx → EReal) : T3.Idx → EReal :=
  fun i => out mx x Wq bq Wk bk Wv bv Wo bo (i 0) (i 1) (i 2)

end Cert.Attn
-- ==== Proof.OutDef.lean ====
import proofs.«123817_j21947282882914_2_alg».proof.Proof.Spec
import proofs.«123817_j21947282882914_2_alg».proof.Proof.LibOnlineSoftmax

/-!
# The attention layer as the tiled kernel computes it, entry by entry

For query q of batch b the 2048 keys are taken in four tiles of 512; the running softmax state after the four
tiles holds the sum of the shifted exponentials of the scores and, for every column h, the same sum weighted by
the values. The result entry is the weighted sums times 1 / (the plain sum), through the output projection, plus
its bias.
-/

noncomputable section

open Idealize.ShloMosaic Idealize.ShloMosaic.ValueIdx
open scoped BigOperators

namespace Cert.AttnOut

open Cert.Attn Cert.LibOnlineSoftmax

/-- The bias row as the kernel holds it: a [1, 1024] array. -/
abbrev R1 : Shape := ⟨2, ![1, 1024]⟩

/-- Key number (512 j + r) mod 2048 of the key axis. -/
def keyIx (j : ℕ) (r : Fin 512) : Fin 2048 := ⟨(512 * j + r.val) % 2048, Nat.mod_lt _ (by norm_num)⟩

/-- The scaled scores of query q of batch b against key tile j. -/
def SA (Qa Ka : T3.Idx → EReal) (b : Fin 4) (q : Fin 2048) : ℕ → Fin 512 → EReal :=
  fun j r => (∑ d : Fin 1024, Qa (ix3 b q d) * Ka (ix3 b (keyIx j r) d)) * Ideal.ofBits .f32 0x3D000000#32

/-- Column h of value tile j of batch b. -/
def VA (Va : T3.Idx → EReal) (b : Fin 4) (h : Fin 1024) : ℕ → Fin 512 → EReal :=
  fun j r => Va (ix3 b (keyIx j r) h)

/-- One entry of the result. -/
def outE (Qa Ka Va : T3.Idx → EReal) (Woa : T2.Idx → EReal) (Boa : R1.Idx → EReal)
    (b : Fin 4) (q : Fin 2048) (o : Fin 1024) : EReal :=
  (∑ h : Fin 1024, ((state (SA Qa Ka b q) (VA Va b h) 4).2.2
      * Ideal.div (Ideal.ofBits .f32 0x3F800000#32) (state (SA Qa Ka b q) (VA Va b h) 4).2.1) * Woa (ix2 h o))
    + Boa (ix2 (0 : Fin 1) o)

/-- The same as an array over the result's shape. -/
def outG (Qa Ka Va : T3.Idx → EReal) (Woa : T2.Idx → EReal) (Boa : R1.Idx → EReal) : T3.Idx → EReal :=
  fun i => outE Qa Ka Va Woa Boa (i 0) (i 1) (i 2)

end Cert.AttnOut
-- ==== Proof.KIVal1.lean ====
import proofs.«123817_j21947282882914_2_alg».proof.Proof.KIReg1Val
import proofs.«123817_j21947282882914_2_alg».proof.Proof.KIInd
import proofs.«123817_j21947282882914_2_alg».proof.Proof.OutDef
import Idealize.ShloMosaic.Lib.Pipeline.Value

noncomputable section

open Idealize.ShloMosaic Idealize.ShloMosaic.ValueIdx Idealize.ShloMosaic.TcCoe Idealize.SL.Sem
open Idealize.ShloMosaic.Pipeline (Dat)
open scoped BigOperators

namespace Cert.KernelIdeal.Val

open Cert.KernelIdeal Cert.KernelIdeal.Gen Cert.KernelIdeal.Hand Cert.LibOnlineSoftmax Cert.AttnOut

variable (V : (c : Dev nD) → (b : Ref sig .tc) → Buf (Elt Ideal) ((c : Thread nD τ).loc b))

/-! # The attention region's blocks as parts of the arrays it finds

Grid point t = 8 b + 4 qi + ki takes queries 1024 qi … 1024 qi + 1023 and keys 512 ki … 512 ki + 511 of batch b. -/

/-- The printed index maps, decided once over the 32 grid points. -/
theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val / 4 % 2 ∧ win1_5.index t (2 : Fin 3) = 0 :=
  (by decide +kernel : ∀ t : Fin grid1.N, _)

/-- The query block at point t: rows 1024 qi + r of batch b. -/
theorem blkQ (c : Dev nD) (t : Fin cfg1.N) (r d : Fin 1024) (i : S4x2048x1024.Idx)
    (h0 : (i 0).val = t.val / 8) (h1 : (i 1).val = t.val / 4 % 2 * 1024 + r.val) (h2 : (i 2).val = d.val) :
    (iblk1 (F := Ideal) V c 0 t : Vec Ideal S1x1024x1024 .bf16) (ix3 (0 : Fin 1) r d) = (V c main_v7 : S4x2048x1024.Idx → EReal) i := by
  obtain ⟨e0, e1, e2, -⟩ := idx_facts1 t
  unfold iblk1
  rw [View.read_apply]
  show (V c main_v7 : S4x2048x1024.Idx → EReal) _ = (V c main_v7 : S4x2048x1024.Idx → EReal) i
  congr 1
  funext a
  apply Fin.ext
  match a with
  | ⟨0, _⟩ => show win1_0.index t (0 : Fin 3) * 1 + 1 * 0 = (i 0).val; rw [e0, h0]; omega
  | ⟨1, _⟩ => show win1_0.index t (1 : Fin 3) * 1024 + 1 * r.val = (i 1).val; rw [e1, h1]; omega
  | ⟨2, _⟩ => show win1_0.index t (2 : Fin 3) * 1024 + 1 * d.val = (i 2).val; rw [e2, h2]; omega

/-- The key tile at point t: rows 512 ki + j of batch b. -/
theorem blkK (c : Dev nD) (t : Fin cfg1.N) (j : Fin 512) (d : Fin 1024) (i : S4x2048x1024.Idx)
    (h0 : (i 0).val = t.val / 8) (h1 : (i 1).val = t.val % 4 * 512 + j.val) (h2 : (i 2).val = d.val) :
    (iblk1 (F := Ideal) V c 1 t : Vec Ideal S1x512x1024 .bf16) (ix3 (0 : Fin 1) j d) = (V c main_v8 : S4x2048x1024.Idx → EReal) i := by
  obtain ⟨-, -, -, e0, e1, e2, -⟩ := idx_facts1 t
  unfold iblk1
  rw [View.read_apply]
  show (V c main_v8 : S4x2048x1024.Idx → EReal) _ = (V c main_v8 : S4x2048x1024.Idx → EReal) i
  congr 1
  funext a
  apply Fin.ext
  match a with
  | ⟨0, _⟩ => show win1_1.index t (0 : Fin 3) * 1 + 1 * 0 = (i 0).val; rw [e0, h0]; omega
  | ⟨1, _⟩ => show win1_1.index t (1 : Fin 3) * 512 + 1 * j.val = (i 1).val; rw [e1, h1]; omega
  | ⟨2, _⟩ => show win1_1.index t (2 : Fin 3) * 1024 + 1 * d.val = (i 2).val; rw [e2, h2]; omega

/-- The value tile at point t: rows 512 ki + j of batch b. -/
theorem blkV (c : Dev nD) (t : Fin cfg1.N) (j : Fin 512) (d : Fin 1024) (i : S4x2048x1024.Idx)
    (h0 : (i 0).val = t.val / 8) (h1 : (i 1).val = t.val % 4 * 512 + j.val) (h2 : (i 2).val = d.val) :
    (iblk1 (F := Ideal) V c 2 t : Vec Ideal S1x512x1024 .bf16) (ix3 (0 : Fin 1) j d) = (V c main_v9 : S4x2048x1024.Idx → EReal) i := by
  obtain ⟨-, -, -, -, -, -, e0, e1, e2, -⟩ := idx_facts1 t
  unfold iblk1
  rw [View.read_apply]
  show (V c main_v9 : S4x2048x1024.Idx → EReal) _ = (V c main_v9 : S4x2048x1024.Idx → EReal) i
  congr 1
  funext a
  apply Fin.ext
  match a with
  | ⟨0, _⟩ => show win1_2.index t (0 : Fin 3) * 1 + 1 * 0 = (i 0).val; rw [e0, h0]; omega
  | ⟨1, _⟩ => show win1_2.index t (1 : Fin 3) * 512 + 1 * j.val = (i 1).val; rw [e1, h1]; omega
  | ⟨2, _⟩ => show win1_2.index t (2 : Fin 3) * 1024 + 1 * d.val = (i 2).val; rw [e2, h2]; omega

/-- The output projection's weight block is the whole matrix at every point. -/
theorem blkWo (c : Dev nD) (t : Fin cfg1.N) (h o : Fin 1024) :
    (iblk1 (F := Ideal) V c 3 t : Vec Ideal S1024x1024 .bf16) (ix2 h o) = (V c main_v10 : S1024x1024.Idx → EReal) (ix2 h o) := by
  obtain ⟨-, -, -, -, -, -, -, -, -, e0, e1, -⟩ := idx_facts1 t
  unfold iblk1
  rw [View.read_apply]
  show (V c main_v10 : S1024x1024.Idx → EReal) _ = (V c main_v10 : S1024x1024.Idx → EReal) (ix2 h o)
  congr 1
  funext a
  apply Fin.ext
  match a with
  | ⟨0, _⟩ => show win1_3.index t (0 : Fin 2) * 1024 + 1 * h.val = h.val; rw [e0]; omega
  | ⟨1, _⟩ => show win1_3.index t (1 : Fin 2) * 1024 + 1 * o.val = o.val; rw [e1]; omega

/-- Its bias row likewise. -/
theorem blkBo (c : Dev nD) (t : Fin cfg1.N) (o : Fin 1024) :
    (iblk1 (F := Ideal) V c 4 t : Vec Ideal S1x1024 .f32) (ix2 (0 : Fin 1) o) = (V c main_v11 : S1x1024.Idx → EReal) (ix2 (0 : Fin 1) o) := by
  obtain ⟨-, -, -, -, -, -, -, -, -, -, -, e0, e1, -⟩ := idx_facts1 t
  unfold iblk1
  rw [View.read_apply]
  show (V c main_v11 : S1x1024.Idx → EReal) _ = (V c main_v11 : S1x1024.Idx → EReal) (ix2 (0 : Fin 1) o)
  congr 1
  funext a
  apply Fin.ext
  match a with
  | ⟨0, _⟩ => show win1_4.index t (0 : Fin 2) * 1 + 1 * 0 = 0; rw [e0]
  | ⟨1, _⟩ => show win1_4.index t (1 : Fin 2) * 1024 + 1 * o.val = o.val; rw [e1]; omega

/-! # The scratch buffers along the grid, as sequences over the naturals -/

/-- The blocks and the scratch contents at point n (anything past the grid). -/
def Qb (c : Dev nD) (n : ℕ) : Vec Ideal S1x1024x1024 .bf16 := if h : n < cfg1.N then iblk1 (F := Ideal) V c 0 ⟨n, h⟩ else fun _ => (0 : EReal)
def Kb (c : Dev nD) (n : ℕ) : Vec Ideal S1x512x1024 .bf16 := if h : n < cfg1.N then iblk1 (F := Ideal) V c 1 ⟨n, h⟩ else fun _ => (0 : EReal)
def Vb (c : Dev nD) (n : ℕ) : Vec Ideal S1x512x1024 .bf16 := if h : n < cfg1.N then iblk1 (F := Ideal) V c 2 ⟨n, h⟩ else fun _ => (0 : EReal)
def scr (c : Dev nD) (n : ℕ) : Scr := if h : n < cfg1.N then (outsAt1 (F := Ideal) V c n h).2 else resetI

theorem outsAt1_congr (c : Dev nD) (n n' : ℕ) (h : n < cfg1.N) (h' : n' < cfg1.N) (e : n = n') :
    outsAt1 (F := Ideal) V c n h = outsAt1 (F := Ideal) V c n' h' := by subst e; rfl

theorem scr_first (c : Dev nD) (n : ℕ) (hn : n < cfg1.N) (h0 : n % 4 = 0) :
    scr V c n = updI (Qb V c n) (Kb V c n) (Vb V c n) resetI := by
  unfold scr Qb Kb Vb
  rw [dif_pos hn, dif_pos hn, dif_pos hn, dif_pos hn]
  exact scr1_first V c ⟨n, hn⟩ h0

theorem scr_next (c : Dev nD) (n : ℕ) (hn : n < cfg1.N) (h0 : n % 4 ≠ 0) :
    scr V c n = updI (Qb V c n) (Kb V c n) (Vb V c n) (scr V c (n - 1)) := by
  have hn' : n - 1 < cfg1.N := Nat.lt_of_le_of_lt (Nat.sub_le _ _) hn
  unfold scr Qb Kb Vb
  rw [dif_pos hn, dif_pos hn, dif_pos hn, dif_pos hn, dif_pos hn']
  exact scr1_next V c ⟨n, hn⟩ h0

/-- Along the four key tiles of a query block the scratch rows hold the running softmax state. -/
theorem scr_state (c : Dev nD) (g : ℕ) (r h : Fin 1024) (ki : ℕ) (hki : ki < 4) (hN : 4 * g + ki < cfg1.N) :
    rowOf (scr V c (4 * g + ki)) r h
      = state (fun j => tileS (Qb V c (4 * g + j)) (Kb V c (4 * g + j)) r) (fun j => tileV (Vb V c (4 * g + j)) h) (ki + 1) :=
  row_state (Qb V c) (Kb V c) (Vb V c) (scr V c) cfg1.N (fun n hn h0 => scr_first V c n hn h0)
    (fun n hn h0 => scr_next V c n hn h0) g r h ki hki hN

/-! # The output array as one function of the arrays the region finds -/

/-- The tile sequences of the blocks of query block g are the arrays' tile sequences, on the four tiles. -/
theorem tiles_eq (c : Dev nD) (g : ℕ) (hg : 4 * g + 3 < cfg1.N) (r h : Fin 1024) (b : Fin 4) (q : Fin 2048)
    (hb : b.val = g / 2) (hq : q.val = g % 2 * 1024 + r.val) (j : ℕ) (hj : j < 4) :
    tileS (Qb V c (4 * g + j)) (Kb V c (4 * g + j)) r = SA (V c main_v7) (V c main_v8) b q j
    ∧ tileV (Vb V c (4 * g + j)) h = VA (V c main_v9) b h j := by
  have hN : cfg1.N = 32 := N_1
  have hn : 4 * g + j < cfg1.N := by omega
  constructor
  · funext j'
    unfold tileS SA Qb Kb
    rw [dif_pos hn, dif_pos hn, pay8_apply]
    refine congrArg (fun z : EReal => z * Ideal.ofBits .f32 0x3D000000#32) (Finset.sum_congr rfl fun d _ => ?_)
    rw [blkQ V c ⟨4 * g + j, hn⟩ r d (ix3 b q d) (by show b.val = (4 * g + j) / 8; omega)
        (by show q.val = (4 * g + j) / 4 % 2 * 1024 + r.val; rw [hq]; congr 2; omega) rfl,
      blkK V c ⟨4 * g + j, hn⟩ j' d (ix3 b (keyIx j j') d) (by show b.val = (4 * g + j) / 8; omega)
        (by show (512 * j + j'.val) % 2048 = (4 * g + j) % 4 * 512 + j'.val; have := j'.isLt; omega) rfl]
  · funext j'
    unfold tileV VA Vb
    rw [dif_pos hn]
    exact blkV V c ⟨4 * g + j, hn⟩ j' h (ix3 b (keyIx j j') h) (by show b.val = (4 * g + j) / 8; omega)
      (by show (512 * j + j'.val) % 2048 = (4 * g + j) % 4 * 512 + j'.val; have := j'.isLt; omega) rfl

/-- WHAT A LAST-TILE POINT WRITES BACK is its block of the one function. -/
theorem flushed1_5 (c : Dev nD) (t : Fin cfg1.N) (hf : (cfg1.win 5).flush t = true) :
    (dat1 (F := Ideal) V c).flushed 5 t
      = ((cfg1.win 5).blk t).view.read (Elt Ideal) (outG (V c main_v7) (V c main_v8) (V c main_v9) (V c main_v10) (V c main_v11)) := by
  have hN : cfg1.N = 32 := N_1
  have h3 : t.val % 4 = 3 := (flush1_5 t).mp hf
  obtain ⟨-, -, -, -, -, -, -, -, -, -, -, -, -, e0, e1, e2⟩ := idx_facts1 t
  show (cfg1.win 5).cut (grid1.coords t) ((dat1 (F := Ideal) V c).after 5 t) = _
  rw [after1_5, out1_last V c t h3]
  funext y
  obtain ⟨u, r, o, rfl⟩ : ∃ (u : Fin 1) (r o : Fin 1024), y = ix3 u r o :=
    ⟨⟨(y 0).val, (y 0).isLt⟩, ⟨(y 1).val, (y 1).isLt⟩, ⟨(y 2).val, (y 2).isLt⟩, by
      funext a; apply Fin.ext
      match a with
      | ⟨0, _⟩ => rfl
      | ⟨1, _⟩ => rfl
      | ⟨2, _⟩ => rfl⟩
  rw [View.read_apply]
  have hlt : t.val < 32 := hN ▸ t.isLt
  have hr : r.val < 1024 := r.isLt
  have he : ((cfg1.win 5).blk t).view.emb (ix3 u r o)
      = ix3 (⟨t.val / 8, by omega⟩ : Fin 4) (⟨t.val / 4 % 2 * 1024 + r.val, by omega⟩ : Fin 2048) o := by
    funext a
    apply Fin.ext
    match a with
    | ⟨0, _⟩ => show win1_5.index t (0 : Fin 3) * 1 + 1 * u.val = t.val / 8; rw [e0]; have := u.isLt; omega
    | ⟨1, _⟩ => show win1_5.index t (1 : Fin 3) * 1024 + 1 * r.val = t.val / 4 % 2 * 1024 + r.val; rw [e1]; omega
    | ⟨2, _⟩ => show win1_5.index t (2 : Fin 3) * 1024 + 1 * o.val = o.val; rw [e2]; omega
  rw [he]
  show k1_pay3 (F := Ideal) _ _ _ _ (ix3 u r o) = outE _ _ _ _ _ (⟨t.val / 8, by omega⟩ : Fin 4) (⟨t.val / 4 % 2 * 1024 + r.val, by omega⟩ : Fin 2048) o
  rw [pay3_apply]
  unfold outE
  rw [blkBo]
  refine congrArg (fun z : EReal => z + (V c main_v11 : S1x1024.Idx → EReal) (ix2 (0 : Fin 1) o)) (Finset.sum_congr rfl fun h _ => ?_)
  rw [blkWo]
  -- the scratch rows after the fourth tile
  have hg : 4 * (t.val / 4) + 3 = t.val := by omega
  have hst := scr_state V c (t.val / 4) r h 3 (by norm_num) (by omega)
  rw [hg] at hst
  have hsc : scr V c t.val = (outsAt1 (F := Ideal) V c t.val t.isLt).2 := by unfold scr; rw [dif_pos t.isLt]
  rw [hsc] at hst
  have hcg : state (fun j => tileS (Qb V c (4 * (t.val / 4) + j)) (Kb V c (4 * (t.val / 4) + j)) r)
      (fun j => tileV (Vb V c (4 * (t.val / 4) + j)) h) 4
      = state (SA (V c main_v7) (V c main_v8) ⟨t.val / 8, by omega⟩ ⟨t.val / 4 % 2 * 1024 + r.val, by omega⟩)
          (VA (V c main_v9) ⟨t.val / 8, by omega⟩ h) 4 :=
    state_congr _ _ _ _ 4 fun j hj =>
      tiles_eq V c (t.val / 4) (by omega) r h ⟨t.val / 8, by omega⟩ ⟨t.val / 4 % 2 * 1024 + r.val, by omega⟩
        (by show t.val / 8 = t.val / 4 / 2; omega) (by show t.val / 4 % 2 * 1024 + r.val = t.val / 4 % 2 * 1024 + r.val; rfl) j hj
  rw [hcg] at hst
  have h1 := congrArg (fun p : EReal × EReal × EReal => p.2.1) hst
  have h2 := congrArg (fun p : EReal × EReal × EReal => p.2.2) hst
  simp only [rowOf] at h1 h2
  rw [h1, h2]

/-- An index of the result array lies in point t's block iff each coordinate lies in the block's range. -/
theorem mem_blk1_5 (t : Fin cfg1.N) (i : S4x2048x1024.Idx) :
    i ∈ ((cfg1.win 5).blk t).view.set ↔ ∀ a : Fin 3, win1_5.index t a * S1x1024x1024.size a ≤ (i a).val
      ∧ (i a).val < win1_5.index t a * S1x1024x1024.size a + S1x1024x1024.size a := by
  show i ∈ ((View.whole main_v12).slice (win1_5.rect t)).set ↔ _
  rw [View.set_slice_whole, Rect.mem_set_unit]
  exact Iff.rfl

/-- Every entry of the result lies in the block of the last-tile point of its batch and query block. -/
theorem cover1_5 (i : S4x2048x1024.Idx) :
    ∃ t : Fin cfg1.N, (cfg1.win 5).flush t = true ∧ i ∈ ((cfg1.win 5).blk t).view.set := by
  have hN : cfg1.N = 32 := N_1
  have h0 : (i 0).val < 4 := (i 0).isLt
  have h1 : (i 1).val < 2048 := (i 1).isLt
  have h2 : (i 2).val < 1024 := (i 2).isLt
  let t : Fin cfg1.N := ⟨8 * (i 0).val + 4 * ((i 1).val / 1024) + 3, by omega⟩
  have ht : t.val = 8 * (i 0).val + 4 * ((i 1).val / 1024) + 3 := rfl
  obtain ⟨-, -, -, -, -, -, -, -, -, -, -, -, -, e0, e1, e2⟩ := idx_facts1 t
  refine ⟨t, (flush1_5 t).mpr (by rw [ht]; omega), ?_⟩
  rw [mem_blk1_5]
  intro a
  match a with
  | ⟨0, _⟩ =>
    show win1_5.index t (0 : Fin 3) * 1 ≤ (i 0).val ∧ (i 0).val < win1_5.index t (0 : Fin 3) * 1 + 1
    rw [e0, ht]; omega
  | ⟨1, _⟩ =>
    show win1_5.index t (1 : Fin 3) * 1024 ≤ (i 1).val ∧ (i 1).val < win1_5.index t (1 : Fin 3) * 1024 + 1024
    rw [e1, ht]; omega
  | ⟨2, _⟩ =>
    show win1_5.index t (2 : Fin 3) * 1024 ≤ (i 2).val ∧ (i 2).val < win1_5.index t (2 : Fin 3) * 1024 + 1024
    rw [e2]; omega

/-- THE RESULT ARRAY after the region: the one function of the arrays the region finds. -/
theorem final1_5 (c : Dev nD) :
    (dat1 (F := Ideal) V c).arrAt 5 cfg1.N
      = outG (V c main_v7) (V c main_v8) (V c main_v9) (V c main_v10) (V c main_v11) :=
  (dat1 (F := Ideal) V c).arrAt_eq_of_cover 5 _ (fun t hf => flushed1_5 V c t hf) cover1_5

end Cert.KernelIdeal.Val
-- ==== Proof.LibHostLine.lean ====
/-
  A straight line of host operations, read in one pass.

  An operation of three named operands (a concatenation of three arrays) leaves at its result its function of the
  three operands' contents, each taken at its own reference, so that a reading of the line can go on through the
  operands.
-/
import Idealize.ShloMosaic.Lib.StableHlo.Run

noncomputable section

namespace Cert.LibHostLine

open Idealize.ShloMosaic Idealize.ShloMosaic.StableHlo

variable {τ : Topo} {sig : RefSig} {Val : EltTy → Type}

variable {x a b y : Ref sig .tc}

/-- An operation over a literal family of three references: its result with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form one simplification pass over a line uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplification pass over a literal line: every operation's result at its own buffer is its function of its
    operands' contents, at any other buffer what was there; a three-operand operation is read through its operands. -/
macro "host_line_results" : tactic =>
  `(tactic| (simp (disch := decide) only [after_cons, after_nil,
      nullary_result', unary_result', binary_result', ternary_result', quaternary_result', reshape_result', nary4_result',
      Cert.LibHostLine.nary3_result', unaryIndexed_result', binaryIndexed_result',
      nullary_result_ne', unary_result_ne', binary_result_ne', ternary_result_ne', quaternary_result_ne', reshape_result_ne',
      nary_result_ne', unaryIndexed_result_ne', binaryIndexed_result_ne']))

end Cert.LibHostLine

end
-- ==== Proof.KIHost.lean ====
import proofs.«123817_j21947282882914_2_alg».proof.Proof.Gen.KernelIdeal.Launch
import proofs.«123817_j21947282882914_2_alg».proof.Proof.LibHostLine
import Idealize.ShloMosaic.Lib.StableHlo.Run
import Idealize.ShloMosaic.Lib.ValueLayout
import Idealize.ShloMosaic.Lib.Pipeline.Value

/-!
# The host operations around the two regions, read at an index

Before the first region the program flattens the token array [4, 2048, 1024] to [8192, 1024] (token (b, c) becomes row
2048·b + c), joins the three weight matrices side by side into [1024, 3072] (columns 0…1023 the query weight, 1024…2047
the key weight, 2048…3071 the value weight; the narrowing that follows changes nothing on the extended reals) and
writes each bias as a one-row matrix. Between the regions it folds the three [8192, 1024] projections back to
[4, 2048, 1024], narrows the output weight (again nothing) and writes the output bias as a one-row matrix.
Everything is stated for an arbitrary contents W of the buffers the stretch starts from.
-/

noncomputable section

open Idealize.ShloMosaic Idealize.ShloMosaic.TcCoe Idealize.SL.Sem Idealize.ShloMosaic.ValueIdx Idealize.ShloMosaic.StableHlo

namespace Cert.KernelIdeal.Val

open Cert.KernelIdeal Cert.KernelIdeal.Gen Cert.LibHostLine

/-! ## The layout operations over variable operands -/

/-- Flattening [4, 2048, 1024] to [8192, 1024]: row 2048·b + c is token (b, c). -/
theorem flatten_apply {α : Type} (x : S4x2048x1024.Idx → α) (h : S4x2048x1024.ShapeCasts S8192x1024)
    (b : Fin 4) (cc : Fin 2048) (d : Fin 1024) :
    shapeCast S8192x1024 x h (ix2 (⟨b.val * 2048 + cc.val, by omega⟩ : Fin 8192) d) = x (ix3 b cc d) :=
  shapeCast_apply x h _ _ (by
    rw [Shape.rowMajor_val_three, Shape.rowMajor_val_two]
    rfl)

/-- Folding [8192, 1024] back to [4, 2048, 1024]: token (b, c) is row 2048·b + c. -/
theorem unflatten_apply {α : Type} (x : S8192x1024.Idx → α) (h : S8192x1024.ShapeCasts S4x2048x1024)
    (b : Fin 4) (cc : Fin 2048) (d : Fin 1024) :
    shapeCast S4x2048x1024 x h (ix3 b cc d) = x (ix2 (⟨b.val * 2048 + cc.val, by omega⟩ : Fin 8192) d) :=
  shapeCast_apply x h _ _ (by
    rw [Shape.rowMajor_val_three, Shape.rowMajor_val_two]
    rfl)

/-- Three square matrices joined side by side, read in the first one's columns. -/
theorem concat3_apply0 {α : Type} (A B C : S1024x1024.Idx → α)
    (h : Shape.Concatenates (([⟨S1024x1024, A⟩, ⟨S1024x1024, B⟩, ⟨S1024x1024, C⟩] : List ((s : Shape) × (s.Idx → α))).map (·.1)) S1024x3072 1)
    (d : Fin 1024) (q : Fin 1024) :
    concatenate S1024x3072 1 [⟨S1024x1024, A⟩, ⟨S1024x1024, B⟩, ⟨S1024x1024, C⟩] h (ix2 d (⟨q.val, by omega⟩ : Fin 3072)) = A (ix2 d q) :=
  concatenate_apply_piece 1 _ h _ 0 (by show (0 : ℕ) < 3; omega) S1024x1024 A rfl rfl 0 rfl (ix2 d q)
    (fun b hb => by match b with | ⟨0, _⟩ => rfl | ⟨1, _⟩ => exact absurd rfl hb) (by show 0 + q.val = q.val; omega)

/-- … in the second one's columns. -/
theorem concat3_apply1 {α : Type} (A B C : S1024x1024.Idx → α)
    (h : Shape.Concatenates (([⟨S1024x1024, A⟩, ⟨S1024x1024, B⟩, ⟨S1024x1024, C⟩] : List ((s : Shape) × (s.Idx → α))).map (·.1)) S1024x3072 1)
    (d : Fin 1024) (q : Fin 1024) :
    concatenate S1024x3072 1 [⟨S1024x1024, A⟩, ⟨S1024x1024, B⟩, ⟨S1024x1024, C⟩] h (ix2 d (⟨1024 + q.val, by omega⟩ : Fin 3072)) = B (ix2 d q) :=
  concatenate_apply_piece 1 _ h _ 1 (by show (1 : ℕ) < 3; omega) S1024x1024 B rfl rfl 1024 rfl (ix2 d q)
    (fun b hb => by match b with | ⟨0, _⟩ => rfl | ⟨1, _⟩ => exact absurd rfl hb) (by show 1024 + q.val = 1024 + q.val; rfl)

/-- … in the third one's columns. -/
theorem concat3_apply2 {α : Type} (A B C : S1024x1024.Idx → α)
    (h : Shape.Concatenates (([⟨S1024x1024, A⟩, ⟨S1024x1024, B⟩, ⟨S1024x1024, C⟩] : List ((s : Shape) × (s.Idx → α))).map (·.1)) S1024x3072 1)
    (d : Fin 1024) (q : Fin 1024) :
    concatenate S1024x3072 1 [⟨S1024x1024, A⟩, ⟨S1024x1024, B⟩, ⟨S1024x1024, C⟩] h (ix2 d (⟨2048 + q.val, by omega⟩ : Fin 3072)) = C (ix2 d q) :=
  concatenate_apply_piece 1 _ h _ 2 (by show (2 : ℕ) < 3; omega) S1024x1024 C rfl rfl 2048 rfl (ix2 d q)
    (fun b hb => by match b with | ⟨0, _⟩ => rfl | ⟨1, _⟩ => exact absurd rfl hb) (by show 2048 + q.val = 2048 + q.val; rfl)

variable (W : Valuation τ sig (Elt Ideal))

/-! ## The stretch before the first region -/

/-- The flattened token array. -/
theorem host0_v0 (b : Fin 4) (cc : Fin 2048) (d : Fin 1024) :
    (StableHlo.after (hostOps0 (F := Ideal)) W (Proc.devRef .tc main_v0) : S8192x1024.Idx → EReal) (ix2 (⟨b.val * 2048 + cc.val, by omega⟩ : Fin 8192) d)
      = (W (Proc.devRef .tc main_arg0) : S4x2048x1024.Idx → EReal) (ix3 b cc d) := by
  have e : (StableHlo.after (hostOps0 (F := Ideal)) W (Proc.devRef .tc main_v0) : S8192x1024.Idx → EReal)
      = shapeCast S8192x1024 (W (Proc.devRef .tc main_arg0) : S4x2048x1024.Idx → EReal) shapeCasts_S4x2048x1024_S8192x1024 := by
    dsimp only [hostOps0]; host_line_results; rfl
  rw [e]
  exact flatten_apply _ _ b cc d

/-- The joined weight as the first region finds it: the three weights side by side. -/
theorem host0_v2_eq :
    (StableHlo.after (hostOps0 (F := Ideal)) W (Proc.devRef .tc main_v2) : S1024x3072.Idx → EReal)
      = concatenate S1024x3072 1 [⟨S1024x1024, (W (Proc.devRef .tc main_arg1) : S1024x1024.Idx → EReal)⟩,
          ⟨S1024x1024, (W (Proc.devRef .tc main_arg3) : S1024x1024.Idx → EReal)⟩,
          ⟨S1024x1024, (W (Proc.devRef .tc main_arg5) : S1024x1024.Idx → EReal)⟩] concatenates_S1024x1024_S1024x1024_S1024x1024_S1024x3072_d1 := by
  dsimp only [hostOps0]; host_line_results; rfl

/-- The joined weight's columns 0…1023 are the query weight. -/
theorem host0_v2_q (d : Fin 1024) (q : Fin 1024) :
    (StableHlo.after (hostOps0 (F := Ideal)) W (Proc.devRef .tc main_v2) : S1024x3072.Idx → EReal) (ix2 d (⟨q.val, by omega⟩ : Fin 3072))
      = (W (Proc.devRef .tc main_arg1) : S1024x1024.Idx → EReal) (ix2 d q) := by
  rw [host0_v2_eq]; exact concat3_apply0 _ _ _ _ d q

/-- The joined weight's columns 1024…2047 are the key weight. -/
theorem host0_v2_k (d : Fin 1024) (q : Fin 1024) :
    (StableHlo.after (hostOps0 (F := Ideal)) W (Proc.devRef .tc main_v2) : S1024x3072.Idx → EReal) (ix2 d (⟨1024 + q.val, by omega⟩ : Fin 3072))
      = (W (Proc.devRef .tc main_arg3) : S1024x1024.Idx → EReal) (ix2 d q) := by
  rw [host0_v2_eq]; exact concat3_apply1 _ _ _ _ d q

/-- The joined weight's columns 2048…3071 are the value weight. -/
theorem host0_v2_v (d : Fin 1024) (q : Fin 1024) :
    (StableHlo.after (hostOps0 (F := Ideal)) W (Proc.devRef .tc main_v2) : S1024x3072.Idx → EReal) (ix2 d (⟨2048 + q.val, by omega⟩ : Fin 3072))
      = (W (Proc.devRef .tc main_arg5) : S1024x1024.Idx → EReal) (ix2 d q) := by
  rw [host0_v2_eq]; exact concat3_apply2 _ _ _ _ d q

/-- The query bias as a one-row matrix. -/
theorem host0_v3 (h : Fin 1024) :
    (StableHlo.after (hostOps0 (F := Ideal)) W (Proc.devRef .tc main_v3) : S1x1024.Idx → EReal) (ix2 (0 : Fin 1) h)
      = (W (Proc.devRef .tc main_arg2) : S1024.Idx → EReal) (ix1 h) := by
  have e : (StableHlo.after (hostOps0 (F := Ideal)) W (Proc.devRef .tc main_v3) : S1x1024.Idx → EReal)
      = shapeCast S1x1024 (W (Proc.devRef .tc main_arg2) : S1024.Idx → EReal) shapeCasts_S1024_S1x1024 := by
    dsimp only [hostOps0]; host_line_results; rfl
  rw [e]
  exact shapeCast_a_1a_apply _ _ 0 h

/-- The key bias as a one-row matrix. -/
theorem host0_v4 (h : Fin 1024) :
    (StableHlo.after (hostOps0 (F := Ideal)) W (Proc.devRef .tc main_v4) : S1x1024.Idx → EReal) (ix2 (0 : Fin 1) h)
      = (W (Proc.devRef .tc main_arg4) : S1024.Idx → EReal) (ix1 h) := by
  have e : (StableHlo.after (hostOps0 (F := Ideal)) W (Proc.devRef .tc main_v4) : S1x1024.Idx → EReal)
      = shapeCast S1x1024 (W (Proc.devRef .tc main_arg4) : S1024.Idx → EReal) shapeCasts_S1024_S1x1024 := by
    dsimp only [hostOps0]; host_line_results; rfl
  rw [e]
  exact shapeCast_a_1a_apply _ _ 0 h

/-- The value bias as a one-row matrix. -/
theorem host0_v5 (h : Fin 1024) :
    (StableHlo.after (hostOps0 (F := Ideal)) W (Proc.devRef .tc main_v5) : S1x1024.Idx → EReal) (ix2 (0 : Fin 1) h)
      = (W (Proc.devRef .tc main_arg6) : S1024.Idx → EReal) (ix1 h) := by
  have e : (StableHlo.after (hostOps0 (F := Ideal)) W (Proc.devRef .tc main_v5) : S1x1024.Idx → EReal)
      = shapeCast S1x1024 (W (Proc.devRef .tc main_arg6) : S1024.Idx → EReal) shapeCasts_S1024_S1x1024 := by
    dsimp only [hostOps0]; host_line_results; rfl
  rw [e]
  exact shapeCast_a_1a_apply _ _ 0 h

/-! ## The stretch between the regions -/

/-- The query projection folded back to [4, 2048, 1024]. -/
theorem host1_v7 (b : Fin 4) (cc : Fin 2048) (h : Fin 1024) :
    (StableHlo.after (hostOps1 (F := Ideal)) W (Proc.devRef .tc main_v7) : S4x2048x1024.Idx → EReal) (ix3 b cc h)
      = (W (Proc.devRef .tc main_v6_0) : S8192x1024.Idx → EReal) (ix2 (⟨b.val * 2048 + cc.val, by omega⟩ : Fin 8192) h) := by
  have e : (StableHlo.after (hostOps1 (F := Ideal)) W (Proc.devRef .tc main_v7) : S4x2048x1024.Idx → EReal)
      = shapeCast S4x2048x1024 (W (Proc.devRef .tc main_v6_0) : S8192x1024.Idx → EReal) shapeCasts_S8192x1024_S4x2048x1024 := by
    dsimp only [hostOps1]; host_line_results; rfl
  rw [e]
  exact unflatten_apply _ _ b cc h

/-- The key projection folded back to [4, 2048, 1024]. -/
theorem host1_v8 (b : Fin 4) (cc : Fin 2048) (h : Fin 1024) :
    (StableHlo.after (hostOps1 (F := Ideal)) W (Proc.devRef .tc main_v8) : S4x2048x1024.Idx → EReal) (ix3 b cc h)
      = (W (Proc.devRef .tc main_v6_1) : S8192x1024.Idx → EReal) (ix2 (⟨b.val * 2048 + cc.val, by omega⟩ : Fin 8192) h) := by
  have e : (StableHlo.after (hostOps1 (F := Ideal)) W (Proc.devRef .tc main_v8) : S4x2048x1024.Idx → EReal)
      = shapeCast S4x2048x1024 (W (Proc.devRef .tc main_v6_1) : S8192x1024.Idx → EReal) shapeCasts_S8192x1024_S4x2048x1024 := by
    dsimp only [hostOps1]; host_line_results; rfl
  rw [e]
  exact unflatten_apply _ _ b cc h

/-- The value projection folded back to [4, 2048, 1024]. -/
theorem host1_v9 (b : Fin 4) (cc : Fin 2048) (h : Fin 1024) :
    (StableHlo.after (hostOps1 (F := Ideal)) W (Proc.devRef .tc main_v9) : S4x2048x1024.Idx → EReal) (ix3 b cc h)
      = (W (Proc.devRef .tc main_v6_2) : S8192x1024.Idx → EReal) (ix2 (⟨b.val * 2048 + cc.val, by omega⟩ : Fin 8192) h) := by
  have e : (StableHlo.after (hostOps1 (F := Ideal)) W (Proc.devRef .tc main_v9) : S4x2048x1024.Idx → EReal)
      = shapeCast S4x2048x1024 (W (Proc.devRef .tc main_v6_2) : S8192x1024.Idx → EReal) shapeCasts_S8192x1024_S4x2048x1024 := by
    dsimp only [hostOps1]; host_line_results; rfl
  rw [e]
  exact unflatten_apply _ _ b cc h

/-- The output weight, narrowed: the same extended reals. -/
theorem host1_v10 :
    (StableHlo.after (hostOps1 (F := Ideal)) W (Proc.devRef .tc main_v10) : S1024x1024.Idx → EReal)
      = (W (Proc.devRef .tc main_arg7) : S1024x1024.Idx → EReal) := by
  dsimp only [hostOps1]; host_line_results; rfl

/-- The output bias as a one-row matrix. -/
theorem host1_v11 (o : Fin 1024) :
    (StableHlo.after (hostOps1 (F := Ideal)) W (Proc.devRef .tc main_v11) : S1x1024.Idx → EReal) (ix2 (0 : Fin 1) o)
      = (W (Proc.devRef .tc main_arg8) : S1024.Idx → EReal) (ix1 o) := by
  have e : (StableHlo.after (hostOps1 (F := Ideal)) W (Proc.devRef .tc main_v11) : S1x1024.Idx → EReal)
      = shapeCast S1x1024 (W (Proc.devRef .tc main_arg8) : S1024.Idx → EReal) shapeCasts_S1024_S1x1024 := by
    dsimp only [hostOps1]; host_line_results; rfl
  rw [e]
  exact shapeCast_a_1a_apply _ _ 0 o

end Cert.KernelIdeal.Val

end
-- ==== Proof.KIPay0.lean ====
import proofs.«123817_j21947282882914_2_alg».proof.Proof.Gen.KernelIdeal.Skeleton
import proofs.«123817_j21947282882914_2_alg».proof.Proof.LibMatmulEntry
import proofs.«123817_j21947282882914_2_alg».proof.Proof.LibBroadcastEntry
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Val

open Cert.KernelIdeal Cert.KernelIdeal.Gen

variable [hK : Cert.KernelIdeal.Facts]

/-! # The projection kernel's stored values at one entry, on the extended reals -/

/-- The product of a block of 512 tokens with the joined weight matrix, at (p, q): the plain sum over the 1024
    input features. Narrowing to sixteen bits changes nothing on the extended reals. -/
theorem qkv_pay1_apply (x : Vec Ideal S512x1024 .f32) (w : Vec Ideal S1024x3072 .bf16) (p : Fin 512) (q : Fin 3072) :
    k0_pay1 (F := Ideal) x w (ix2 p q) = ∑ d : Fin 1024, x (ix2 p d) * w (ix2 d q) := by
  unfold k0_pay1
  rw [shapeCast_self, shapeCast_self]
  exact Ideal.matmul_rows_cols _ rfl rfl rfl rfl rfl rfl none _ _ p q

/-- The query projection's stored block at (p, q): columns 0 … 0+1023 of the product, plus the bias row. -/
theorem qkv_pay2_apply (x : Vec Ideal S512x1024 .f32) (w : Vec Ideal S1024x3072 .bf16) (b : Vec Ideal S1x1024 .f32)
    (p : Fin 512) (q : Fin 1024) :
    k0_pay2 (F := Ideal) x w b (ix2 p q)
      = (∑ d : Fin 1024, x (ix2 p d) * w (ix2 d (⟨0 + q.val, by omega⟩ : Fin 3072))) + b (ix2 (0 : Fin 1) q) := by
  unfold k0_pay2
  rw [shapeCast_self, shapeCast_self]
  show extractStridedSlice S512x1024 ![0, 0] (k0_pay1 (F := Ideal) x w) _ (ix2 p q) + broadcastTo S512x1024 b _ (ix2 p q) = _
  rw [slice2_axis1_apply 0 _ _ p q (⟨0 + q.val, by omega⟩ : Fin 3072) rfl, broadcastTo_1b_ab_apply, qkv_pay1_apply]

/-- The key projection's stored block at (p, q): columns 1024 … 1024+1023 of the product, plus the bias row. -/
theorem qkv_pay3_apply (x : Vec Ideal S512x1024 .f32) (w : Vec Ideal S1024x3072 .bf16) (b : Vec Ideal S1x1024 .f32)
    (p : Fin 512) (q : Fin 1024) :
    k0_pay3 (F := Ideal) x w b (ix2 p q)
      = (∑ d : Fin 1024, x (ix2 p d) * w (ix2 d (⟨1024 + q.val, by omega⟩ : Fin 3072))) + b (ix2 (0 : Fin 1) q) := by
  unfold k0_pay3
  rw [shapeCast_self, shapeCast_self]
  show extractStridedSlice S512x1024 ![0, 1024] (k0_pay1 (F := Ideal) x w) _ (ix2 p q) + broadcastTo S512x1024 b _ (ix2 p q) = _
  rw [slice2_axis1_apply 1024 _ _ p q (⟨1024 + q.val, by omega⟩ : Fin 3072) rfl, broadcastTo_1b_ab_apply, qkv_pay1_apply]

/-- The value projection's stored block at (p, q): columns 2048 … 2048+1023 of the product, plus the bias row. -/
theorem qkv_pay4_apply (x : Vec Ideal S512x1024 .f32) (w : Vec Ideal S1024x3072 .bf16) (b : Vec Ideal S1x1024 .f32)
    (p : Fin 512) (q : Fin 1024) :
    k0_pay4 (F := Ideal) x w b (ix2 p q)
      = (∑ d : Fin 1024, x (ix2 p d) * w (ix2 d (⟨2048 + q.val, by omega⟩ : Fin 3072))) + b (ix2 (0 : Fin 1) q) := by
  unfold k0_pay4
  rw [shapeCast_self, shapeCast_self]
  show extractStridedSlice S512x1024 ![0, 2048] (k0_pay1 (F := Ideal) x w) _ (ix2 p q) + broadcastTo S512x1024 b _ (ix2 p q) = _
  rw [slice2_axis1_apply 2048 _ _ p q (⟨2048 + q.val, by omega⟩ : Fin 3072) rfl, broadcastTo_1b_ab_apply, qkv_pay1_apply]

end Cert.KernelIdeal.Val
-- ==== Proof.KIVal0.lean ====
import proofs.«123817_j21947282882914_2_alg».proof.Proof.KIReg0
import proofs.«123817_j21947282882914_2_alg».proof.Proof.KIPay0
import Idealize.ShloMosaic.Lib.Pipeline.Value

/-!
# What the projection region leaves in its three output arrays

The region runs sixteen points; point t takes rows 512·t … 512·t+511 of the token array, the whole joined weight
and the whole bias rows, and writes the same rows of each output array. Each stored entry is the plain sum over the
1024 input features plus the bias entry, so each output array ends as ONE function of the arrays the region found:
entry (r, q) is the r-th token row times column off+q of the joined weight, plus the bias at q, with off = 0, 1024,
2048 for the query, key and value outputs. The sixteen row blocks tile the array.
-/

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Val

open Cert.KernelIdeal Cert.KernelIdeal.Gen Cert.KernelIdeal.Hand

/-- Entry (r, q) of a projection: row r of X times column off+q of the joined weight, plus the bias at q. -/
def projE (X : S8192x1024.Idx → EReal) (Wc : S1024x3072.Idx → EReal) (B : S1x1024.Idx → EReal) (off : ℕ) (hoff : off + 1024 ≤ 3072)
    (r : Fin 8192) (q : Fin 1024) : EReal :=
  (∑ d : Fin 1024, X (ix2 r d) * Wc (ix2 d (⟨off + q.val, by omega⟩ : Fin 3072))) + B (ix2 (0 : Fin 1) q)

/-- A projection as a whole array. -/
def projG (X : S8192x1024.Idx → EReal) (Wc : S1024x3072.Idx → EReal) (B : S1x1024.Idx → EReal) (off : ℕ) (hoff : off + 1024 ≤ 3072) :
    S8192x1024.Idx → EReal :=
  fun i => projE X Wc B off hoff (i 0) (i 1)

/-- The whole-array projection at an index written from its coordinates. -/
theorem projG_ix2 (X : S8192x1024.Idx → EReal) (Wc : S1024x3072.Idx → EReal) (B : S1x1024.Idx → EReal) (off : ℕ) (hoff : off + 1024 ≤ 3072)
    (r : Fin 8192) (q : Fin 1024) : projG X Wc B off hoff (ix2 r q) = projE X Wc B off hoff r q := rfl

theorem hz2d : (![0, 0] : Fin 2 → Nat) = fun _ => 0 := funext fun a => by fin_cases a <;> rfl

/-- The printed index maps, decided once over the grid: the token window and the three output windows are at block
    (t, 0), the weight and the bias windows at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-! ## The input blocks, read where the windows' rectangles say -/

/-- The token window's block at point t is rows 512·t … 512·t+511 of the token array. -/
theorem iblk0_x (c : Dev nD) (t : Fin cfg0.N) (p : Fin 512) (d : Fin 1024) :
    (iblk0 V c 0 t : Vec Ideal S512x1024 .f32) (ix2 p d)
      = (V c main_v0 : S8192x1024.Idx → EReal) (ix2 (⟨t.val * 512 + p.val, by have := t.isLt; have hN : cfg0.N = 16 := N_0; omega⟩ : Fin 8192) d) := by
  obtain ⟨e00, e01, e10, e11, e20, e21, e30, e31, e40, e41, e50, e51, e60, e61, e70, e71⟩ := idx_facts0 t
  unfold iblk0
  rw [View.read_apply]
  show V c main_v0 _ = V c main_v0 _
  congr 1
  funext a
  apply Fin.ext
  match a with
  | ⟨0, _⟩ => show win0_0.index t (0 : Fin 2) * 512 + 1 * p.val = t.val * 512 + p.val; rw [e00]; omega
  | ⟨1, _⟩ => show win0_0.index t (1 : Fin 2) * 1024 + 1 * d.val = d.val; rw [e01]; omega

/-- The weight window's block at every point is the whole joined weight. -/
theorem iblk0_w (c : Dev nD) (t : Fin cfg0.N) (d : Fin 1024) (s : Fin 3072) :
    (iblk0 V c 1 t : Vec Ideal S1024x3072 .bf16) (ix2 d s) = (V c main_v2 : S1024x3072.Idx → EReal) (ix2 d s) := by
  obtain ⟨e00, e01, e10, e11, e20, e21, e30, e31, e40, e41, e50, e51, e60, e61, e70, e71⟩ := idx_facts0 t
  unfold iblk0
  rw [View.read_apply]
  show V c main_v2 _ = V c main_v2 _
  congr 1
  funext a
  apply Fin.ext
  match a with
  | ⟨0, _⟩ => show win0_1.index t (0 : Fin 2) * 1024 + 1 * d.val = d.val; rw [e10]; omega
  | ⟨1, _⟩ => show win0_1.index t (1 : Fin 2) * 3072 + 1 * s.val = s.val; rw [e11]; omega

/-- Input window 2's block at every point is the whole bias row. -/
theorem iblk0_b2 (c : Dev nD) (t : Fin cfg0.N) (q : Fin 1024) :
    (iblk0 V c 2 t : Vec Ideal S1x1024 .f32) (ix2 (0 : Fin 1) q) = (V c main_v3 : S1x1024.Idx → EReal) (ix2 (0 : Fin 1) q) := by
  obtain ⟨e00, e01, e10, e11, e20, e21, e30, e31, e40, e41, e50, e51, e60, e61, e70, e71⟩ := idx_facts0 t
  unfold iblk0
  rw [View.read_apply]
  show V c main_v3 _ = V c main_v3 _
  congr 1
  funext a
  apply Fin.ext
  match a with
  | ⟨0, _⟩ => show win0_2.index t (0 : Fin 2) * 1 + 1 * 0 = 0; rw [e20]
  | ⟨1, _⟩ => show win0_2.index t (1 : Fin 2) * 1024 + 1 * q.val = q.val; rw [e21]; omega

/-- Input window 3's block at every point is the whole bias row. -/
theorem iblk0_b3 (c : Dev nD) (t : Fin cfg0.N) (q : Fin 1024) :
    (iblk0 V c 3 t : Vec Ideal S1x1024 .f32) (ix2 (0 : Fin 1) q) = (V c main_v4 : S1x1024.Idx → EReal) (ix2 (0 : Fin 1) q) := by
  obtain ⟨e00, e01, e10, e11, e20, e21, e30, e31, e40, e41, e50, e51, e60, e61, e70, e71⟩ := idx_facts0 t
  unfold iblk0
  rw [View.read_apply]
  show V c main_v4 _ = V c main_v4 _
  congr 1
  funext a
  apply Fin.ext
  match a with
  | ⟨0, _⟩ => show win0_3.index t (0 : Fin 2) * 1 + 1 * 0 = 0; rw [e30]
  | ⟨1, _⟩ => show win0_3.index t (1 : Fin 2) * 1024 + 1 * q.val = q.val; rw [e31]; omega

/-- Input window 4's block at every point is the whole bias row. -/
theorem iblk0_b4 (c : Dev nD) (t : Fin cfg0.N) (q : Fin 1024) :
    (iblk0 V c 4 t : Vec Ideal S1x1024 .f32) (ix2 (0 : Fin 1) q) = (V c main_v5 : S1x1024.Idx → EReal) (ix2 (0 : Fin 1) q) := by
  obtain ⟨e00, e01, e10, e11, e20, e21, e30, e31, e40, e41, e50, e51, e60, e61, e70, e71⟩ := idx_facts0 t
  unfold iblk0
  rw [View.read_apply]
  show V c main_v5 _ = V c main_v5 _
  congr 1
  funext a
  apply Fin.ext
  match a with
  | ⟨0, _⟩ => show win0_4.index t (0 : Fin 2) * 1 + 1 * 0 = 0; rw [e40]
  | ⟨1, _⟩ => show win0_4.index t (1 : Fin 2) * 1024 + 1 * q.val = q.val; rw [e41]; omega

/-! ## Output window 5 -/

/-- One point's stored block of window 5, entry by entry: when the point's input blocks are rows tv·512 … tv·512+511 of
    X, the whole weight and the whole bias row, the block's entry j is entry i of the whole-array function, i being j moved
    down by tv·512 rows. -/
theorem pay_block5 (X : S8192x1024.Idx → EReal) (Wc : S1024x3072.Idx → EReal) (B : S1x1024.Idx → EReal)
    (x : Vec Ideal S512x1024 .f32) (w : Vec Ideal S1024x3072 .bf16) (b : Vec Ideal S1x1024 .f32) (tv : ℕ) (ht : tv < 16)
    (hx : ∀ (p : Fin 512) (d : Fin 1024), x (ix2 p d) = X (ix2 (⟨tv * 512 + p.val, by omega⟩ : Fin 8192) d))
    (hw : ∀ (d : Fin 1024) (s : Fin 3072), w (ix2 d s) = Wc (ix2 d s))
    (hb : ∀ q : Fin 1024, b (ix2 (0 : Fin 1) q) = B (ix2 (0 : Fin 1) q))
    (j : S512x1024.Idx) (i : S8192x1024.Idx) (hi0 : (i 0).val = tv * 512 + (j 0).val) (hi1 : (i 1).val = (j 1).val) :
    k0_pay2 (F := Ideal) x w b j = projG X Wc B 0 (by decide) i := by
  obtain ⟨p, q, rfl⟩ : ∃ (p : Fin 512) (q : Fin 1024), j = ix2 p q := ⟨j 0, j 1, eq_ix2 j⟩
  have hlt : tv * 512 + p.val < 8192 := by have := p.isLt; omega
  obtain ⟨r, s, rfl⟩ : ∃ (r : Fin 8192) (s : Fin 1024), i = ix2 r s := ⟨i 0, i 1, eq_ix2 i⟩
  obtain rfl : r = (⟨tv * 512 + p.val, hlt⟩ : Fin 8192) := Fin.ext hi0
  obtain rfl : s = q := Fin.ext hi1
  rw [qkv_pay2_apply, hb]
  show _ = projE X Wc B 0 (by decide) _ s
  unfold projE
  refine congrArg (· + _) (Finset.sum_congr rfl fun d _ => ?_)
  rw [hx, hw]

/-- WHAT POINT t WRITES BACK to window 5's array is block t of the whole-array function of the arrays the region finds. -/
theorem flushed0_5 (c : Dev nD) (t : Fin cfg0.N) :
    (dat0 V c).flushed 5 t
      = ((cfg0.win 5).blk t).view.read (Elt Ideal) (projG (V c main_v0) (V c main_v2) (V c main_v3) 0 (by decide)) := by
  show (cfg0.win 5).cut (grid0.coords t) ((dat0 V c).after 5 t) = _
  rw [after0_5]
  unfold out0_5
  rw [View.canon_unit_zero hz2d]
  simp only [View.ld_unit_zero (S := S512x1024) hz2d, View.ld_unit_zero (S := S1024x3072) hz2d, View.ld_unit_zero (S := S1x1024) hz2d]
  have hN : cfg0.N = 16 := N_0
  have htv : t.val < 16 := hN ▸ t.isLt
  obtain ⟨e00, e01, e10, e11, e20, e21, e30, e31, e40, e41, e50, e51, e60, e61, e70, e71⟩ := idx_facts0 t
  funext j
  rw [View.read_apply]
  refine pay_block5 (V c main_v0) (V c main_v2) (V c main_v3) (iblk0 V c 0 t) (iblk0 V c 1 t) (iblk0 V c 2 t) t.val htv
    (iblk0_x V c t) (iblk0_w V c t) (iblk0_b2 V c t) j (((cfg0.win 5).blk t).view.emb j) ?_ ?_
  · show win0_5.index t (0 : Fin 2) * 512 + 1 * (j 0).val = t.val * 512 + (j 0).val
    rw [e50]; omega
  · show win0_5.index t (1 : Fin 2) * 1024 + 1 * (j 1).val = (j 1).val
    rw [e51]; omega

/-- An index of window 5's array is in point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_0).slice (win0_5.rect t)).set ↔ _
  rw [View.set_slice_whole, Rect.mem_set_unit]
  exact Iff.rfl

/-- Row r of window 5's array lies in the block of point r / 512: the sixteen blocks tile the array. -/
theorem cover5 (i : S8192x1024.Idx) : ∃ t : Fin cfg0.N, (cfg0.win 5).flush t = true ∧ i ∈ ((cfg0.win 5).blk t).view.set := by
  have hN : cfg0.N = 16 := N_0
  have hi0 : (i 0).val < 8192 := (i 0).isLt
  have hi1 : (i 1).val < 1024 := (i 1).isLt
  let t : Fin cfg0.N := ⟨(i 0).val / 512, by rw [hN]; omega⟩
  have htv : t.val = (i 0).val / 512 := rfl
  obtain ⟨e00, e01, e10, e11, e20, e21, e30, e31, e40, e41, e50, e51, e60, e61, e70, e71⟩ := idx_facts0 t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e50, htv]; omega
  | ⟨1, _⟩ => show win0_5.index t (1 : Fin 2) * 1024 ≤ (i 1).val ∧ (i 1).val < win0_5.index t (1 : Fin 2) * 1024 + 1024; rw [e51]; omega

/-- Window 5's array after the region: the whole-array function of the arrays the region found. -/
theorem final0_5 (c : Dev nD) :
    (dat0 V c).arrAt 5 cfg0.N = projG (V c main_v0) (V c main_v2) (V c main_v3) 0 (by decide) :=
  (dat0 V c).arrAt_eq_of_cover 5 (projG (V c main_v0) (V c main_v2) (V c main_v3) 0 (by decide))
    (fun t _ => flushed0_5 V c t) cover5

/-! ## Output window 6 -/

/-- One point's stored block of window 6, entry by entry: when the point's input blocks are rows tv·512 … tv·512+511 of
    X, the whole weight and the whole bias row, the block's entry j is entry i of the whole-array function, i being j moved
    down by tv·512 rows. -/
theorem pay_block6 (X : S8192x1024.Idx → EReal) (Wc : S1024x3072.Idx → EReal) (B : S1x1024.Idx → EReal)
    (x : Vec Ideal S512x1024 .f32) (w : Vec Ideal S1024x3072 .bf16) (b : Vec Ideal S1x1024 .f32) (tv : ℕ) (ht : tv < 16)
    (hx : ∀ (p : Fin 512) (d : Fin 1024), x (ix2 p d) = X (ix2 (⟨tv * 512 + p.val, by omega⟩ : Fin 8192) d))
    (hw : ∀ (d : Fin 1024) (s : Fin 3072), w (ix2 d s) = Wc (ix2 d s))
    (hb : ∀ q : Fin 1024, b (ix2 (0 : Fin 1) q) = B (ix2 (0 : Fin 1) q))
    (j : S512x1024.Idx) (i : S8192x1024.Idx) (hi0 : (i 0).val = tv * 512 + (j 0).val) (hi1 : (i 1).val = (j 1).val) :
    k0_pay3 (F := Ideal) x w b j = projG X Wc B 1024 (by decide) i := by
  obtain ⟨p, q, rfl⟩ : ∃ (p : Fin 512) (q : Fin 1024), j = ix2 p q := ⟨j 0, j 1, eq_ix2 j⟩
  have hlt : tv * 512 + p.val < 8192 := by have := p.isLt; omega
  obtain ⟨r, s, rfl⟩ : ∃ (r : Fin 8192) (s : Fin 1024), i = ix2 r s := ⟨i 0, i 1, eq_ix2 i⟩
  obtain rfl : r = (⟨tv * 512 + p.val, hlt⟩ : Fin 8192) := Fin.ext hi0
  obtain rfl : s = q := Fin.ext hi1
  rw [qkv_pay3_apply, hb]
  show _ = projE X Wc B 1024 (by decide) _ s
  unfold projE
  refine congrArg (· + _) (Finset.sum_congr rfl fun d _ => ?_)
  rw [hx, hw]

/-- WHAT POINT t WRITES BACK to window 6's array is block t of the whole-array function of the arrays the region finds. -/
theorem flushed0_6 (c : Dev nD) (t : Fin cfg0.N) :
    (dat0 V c).flushed 6 t
      = ((cfg0.win 6).blk t).view.read (Elt Ideal) (projG (V c main_v0) (V c main_v2) (V c main_v4) 1024 (by decide)) := by
  show (cfg0.win 6).cut (grid0.coords t) ((dat0 V c).after 6 t) = _
  rw [after0_6]
  unfold out0_6
  rw [View.canon_unit_zero hz2d]
  simp only [View.ld_unit_zero (S := S512x1024) hz2d, View.ld_unit_zero (S := S1024x3072) hz2d, View.ld_unit_zero (S := S1x1024) hz2d]
  have hN : cfg0.N = 16 := N_0
  have htv : t.val < 16 := hN ▸ t.isLt
  obtain ⟨e00, e01, e10, e11, e20, e21, e30, e31, e40, e41, e50, e51, e60, e61, e70, e71⟩ := idx_facts0 t
  funext j
  rw [View.read_apply]
  refine pay_block6 (V c main_v0) (V c main_v2) (V c main_v4) (iblk0 V c 0 t) (iblk0 V c 1 t) (iblk0 V c 3 t) t.val htv
    (iblk0_x V c t) (iblk0_w V c t) (iblk0_b3 V c t) j (((cfg0.win 6).blk t).view.emb j) ?_ ?_
  · show win0_6.index t (0 : Fin 2) * 512 + 1 * (j 0).val = t.val * 512 + (j 0).val
    rw [e60]; omega
  · show win0_6.index t (1 : Fin 2) * 1024 + 1 * (j 1).val = (j 1).val
    rw [e61]; omega

/-- An index of window 6's array is in point t's block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6_1).slice (win0_6.rect t)).set ↔ _
  rw [View.set_slice_whole, Rect.mem_set_unit]
  exact Iff.rfl

/-- Row r of window 6's array lies in the block of point r / 512: the sixteen blocks tile the array. -/
theorem cover6 (i : S8192x1024.Idx) : ∃ t : Fin cfg0.N, (cfg0.win 6).flush t = true ∧ i ∈ ((cfg0.win 6).blk t).view.set := by
  have hN : cfg0.N = 16 := N_0
  have hi0 : (i 0).val < 8192 := (i 0).isLt
  have hi1 : (i 1).val < 1024 := (i 1).isLt
  let t : Fin cfg0.N := ⟨(i 0).val / 512, by rw [hN]; omega⟩
  have htv : t.val = (i 0).val / 512 := rfl
  obtain ⟨e00, e01, e10, e11, e20, e21, e30, e31, e40, e41, e50, e51, e60, e61, e70, e71⟩ := idx_facts0 t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; rw [e60, htv]; omega
  | ⟨1, _⟩ => show win0_6.index t (1 : Fin 2) * 1024 ≤ (i 1).val ∧ (i 1).val < win0_6.index t (1 : Fin 2) * 1024 + 1024; rw [e61]; omega

/-- Window 6's array after the region: the whole-array function of the arrays the region found. -/
theorem final0_6 (c : Dev nD) :
    (dat0 V c).arrAt 6 cfg0.N = projG (V c main_v0) (V c main_v2) (V c main_v4) 1024 (by decide) :=
  (dat0 V c).arrAt_eq_of_cover 6 (projG (V c main_v0) (V c main_v2) (V c main_v4) 1024 (by decide))
    (fun t _ => flushed0_6 V c t) cover6

/-! ## Output window 7 -/

/-- One point's stored block of window 7, entry by entry: when the point's input blocks are rows tv·512 … tv·512+511 of
    X, the whole weight and the whole bias row, the block's entry j is entry i of the whole-array function, i being j moved
    down by tv·512 rows. -/
theorem pay_block7 (X : S8192x1024.Idx → EReal) (Wc : S1024x3072.Idx → EReal) (B : S1x1024.Idx → EReal)
    (x : Vec Ideal S512x1024 .f32) (w : Vec Ideal S1024x3072 .bf16) (b : Vec Ideal S1x1024 .f32) (tv : ℕ) (ht : tv < 16)
    (hx : ∀ (p : Fin 512) (d : Fin 1024), x (ix2 p d) = X (ix2 (⟨tv * 512 + p.val, by omega⟩ : Fin 8192) d))
    (hw : ∀ (d : Fin 1024) (s : Fin 3072), w (ix2 d s) = Wc (ix2 d s))
    (hb : ∀ q : Fin 1024, b (ix2 (0 : Fin 1) q) = B (ix2 (0 : Fin 1) q))
    (j : S512x1024.Idx) (i : S8192x1024.Idx) (hi0 : (i 0).val = tv * 512 + (j 0).val) (hi1 : (i 1).val = (j 1).val) :
    k0_pay4 (F := Ideal) x w b j = projG X Wc B 2048 (by decide) i := by
  obtain ⟨p, q, rfl⟩ : ∃ (p : Fin 512) (q : Fin 1024), j = ix2 p q := ⟨j 0, j 1, eq_ix2 j⟩
  have hlt : tv * 512 + p.val < 8192 := by have := p.isLt; omega
  obtain ⟨r, s, rfl⟩ : ∃ (r : Fin 8192) (s : Fin 1024), i = ix2 r s := ⟨i 0, i 1, eq_ix2 i⟩
  obtain rfl : r = (⟨tv * 512 + p.val, hlt⟩ : Fin 8192) := Fin.ext hi0
  obtain rfl : s = q := Fin.ext hi1
  rw [qkv_pay4_apply, hb]
  show _ = projE X Wc B 2048 (by decide) _ s
  unfold projE
  refine congrArg (· + _) (Finset.sum_congr rfl fun d _ => ?_)
  rw [hx, hw]

/-- WHAT POINT t WRITES BACK to window 7's array is block t of the whole-array function of the arrays the region finds. -/
theorem flushed0_7 (c : Dev nD) (t : Fin cfg0.N) :
    (dat0 V c).flushed 7 t
      = ((cfg0.win 7).blk t).view.read (Elt Ideal) (projG (V c main_v0) (V c main_v2) (V c main_v5) 2048 (by decide)) := by
  show (cfg0.win 7).cut (grid0.coords t) ((dat0 V c).after 7 t) = _
  rw [after0_7]
  unfold out0_7
  rw [View.canon_unit_zero hz2d]
  simp only [View.ld_unit_zero (S := S512x1024) hz2d, View.ld_unit_zero (S := S1024x3072) hz2d, View.ld_unit_zero (S := S1x1024) hz2d]
  have hN : cfg0.N = 16 := N_0
  have htv : t.val < 16 := hN ▸ t.isLt
  obtain ⟨e00, e01, e10, e11, e20, e21, e30, e31, e40, e41, e50, e51, e60, e61, e70, e71⟩ := idx_facts0 t
  funext j
  rw [View.read_apply]
  refine pay_block7 (V c main_v0) (V c main_v2) (V c main_v5) (iblk0 V c 0 t) (iblk0 V c 1 t) (iblk0 V c 4 t) t.val htv
    (iblk0_x V c t) (iblk0_w V c t) (iblk0_b4 V c t) j (((cfg0.win 7).blk t).view.emb j) ?_ ?_
  · show win0_7.index t (0 : Fin 2) * 512 + 1 * (j 0).val = t.val * 512 + (j 0).val
    rw [e70]; omega
  · show win0_7.index t (1 : Fin 2) * 1024 + 1 * (j 1).val = (j 1).val
    rw [e71]; omega

/-- An index of window 7's array is in point t's block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v6_2).slice (win0_7.rect t)).set ↔ _
  rw [View.set_slice_whole, Rect.mem_set_unit]
  exact Iff.rfl

/-- Row r of window 7's array lies in the block of point r / 512: the sixteen blocks tile the array. -/
theorem cover7 (i : S8192x1024.Idx) : ∃ t : Fin cfg0.N, (cfg0.win 7).flush t = true ∧ i ∈ ((cfg0.win 7).blk t).view.set := by
  have hN : cfg0.N = 16 := N_0
  have hi0 : (i 0).val < 8192 := (i 0).isLt
  have hi1 : (i 1).val < 1024 := (i 1).isLt
  let t : Fin cfg0.N := ⟨(i 0).val / 512, by rw [hN]; omega⟩
  have htv : t.val = (i 0).val / 512 := rfl
  obtain ⟨e00, e01, e10, e11, e20, e21, e30, e31, e40, e41, e50, e51, e60, e61, e70, e71⟩ := idx_facts0 t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [e70, htv]; omega
  | ⟨1, _⟩ => show win0_7.index t (1 : Fin 2) * 1024 ≤ (i 1).val ∧ (i 1).val < win0_7.index t (1 : Fin 2) * 1024 + 1024; rw [e71]; omega

/-- Window 7's array after the region: the whole-array function of the arrays the region found. -/
theorem final0_7 (c : Dev nD) :
    (dat0 V c).arrAt 7 cfg0.N = projG (V c main_v0) (V c main_v2) (V c main_v5) 2048 (by decide) :=
  (dat0 V c).arrAt_eq_of_cover 7 (projG (V c main_v0) (V c main_v2) (V c main_v5) 2048 (by decide))
    (fun t _ => flushed0_7 V c t) cover7

end Cert.KernelIdeal.Val

end
-- ==== Proof.KIChain.lean ====
/- The arrays the attention region is entered with, read back to the launch memory: through the second host stretch to the
   projection region's three output arrays, through that region's closed form to the arrays it was entered with, and
   through the first host stretch to the arguments. Everything at the extended reals, one element at a time. -/
import proofs.«123817_j21947282882914_2_alg».proof.Proof.KIRun
import proofs.«123817_j21947282882914_2_alg».proof.Proof.KIHost
import proofs.«123817_j21947282882914_2_alg».proof.Proof.KIVal0
import proofs.«123817_j21947282882914_2_alg».proof.Proof.Spec
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open scoped BigOperators

variable (m : (ℓ : Loc nD τ sig) → Buf (Elt Ideal) ℓ) (ρ : Dev nD → PrngReg)

/-! ## What neither the first host stretch nor the projection region touches -/

/-- At launch a core's buffer is the launch memory's. -/
theorem W0_apply (c : Dev nD) (b : Ref sig .tc) : W0 (F := Ideal) m ρ c (Proc.devRef .tc b) = m ((c : Thread nD τ).loc b) := rfl

/-- The output weight is still as launched when the second host stretch starts: the first stretch does not write it and
    it is none of the projection region's arrays. -/
theorem W2_main_arg7 (c : Dev nD) : W2 (F := Ideal) m ρ c (Proc.devRef .tc main_arg7) = m ((c : Thread nD τ).loc main_arg7) :=
  (W2_of_ne m ρ c main_arg7 (by decide)).trans
    ((StableHlo.after_of_writes_sub hostOps0 _ hostOps0_writes (by decide)).trans rfl)
/-- So is the output bias. -/
theorem W2_main_arg8 (c : Dev nD) : W2 (F := Ideal) m ρ c (Proc.devRef .tc main_arg8) = m ((c : Thread nD τ).loc main_arg8) :=
  (W2_of_ne m ρ c main_arg8 (by decide)).trans
    ((StableHlo.after_of_writes_sub hostOps0 _ hostOps0_writes (by decide)).trans rfl)

/-! ## q, k, v as the attention region finds them -/

/-- The queries the attention region is entered with are the affine projection of the launch x by the launch query weight and bias. -/
theorem q_eq (c : Dev nD) (b : Fin 4) (cc : Fin 2048) (h : Fin 1024) :
    (V3 (F := Ideal) m ρ c main_v7 : S4x2048x1024.Idx → EReal) (ix3 b cc h)
      = Cert.Attn.proj (m ((c : Thread nD τ).loc main_arg0) : S4x2048x1024.Idx → EReal) (m ((c : Thread nD τ).loc main_arg1) : S1024x1024.Idx → EReal) (m ((c : Thread nD τ).loc main_arg2) : S1024.Idx → EReal) b cc h := by
  -- the second host stretch only regroups the 8192 rows into 4 batches of 2048
  have e := host1_v7 (W2 (F := Ideal) m ρ c) b cc h
  -- the row it reads is the projection region's output array, which is the closed form of the arrays that region entered with
  rw [W2_main_v6_0 m ρ c, final0_5 (V1 m ρ) c, projG_ix2] at e
  refine e.trans ?_
  unfold projE Cert.Attn.proj
  simp only [Nat.zero_add]
  -- those arrays are the first host stretch's results at the launch contents: x regrouped, a column range of the
  -- concatenated weight, a bias as a row
  congr 1
  · refine Finset.sum_congr rfl fun d _ => ?_
    congr 1
    · exact host0_v0 (W0 (F := Ideal) m ρ c) b cc d
    · exact host0_v2_q (W0 (F := Ideal) m ρ c) d h
  · exact host0_v3 (W0 (F := Ideal) m ρ c) h

/-- The keys: the projection by the launch key weight and bias. -/
theorem k_eq (c : Dev nD) (b : Fin 4) (cc : Fin 2048) (h : Fin 1024) :
    (V3 (F := Ideal) m ρ c main_v8 : S4x2048x1024.Idx → EReal) (ix3 b cc h)
      = Cert.Attn.proj (m ((c : Thread nD τ).loc main_arg0) : S4x2048x1024.Idx → EReal) (m ((c : Thread nD τ).loc main_arg3) : S1024x1024.Idx → EReal) (m ((c : Thread nD τ).loc main_arg4) : S1024.Idx → EReal) b cc h := by
  -- the second host stretch only regroups the 8192 rows into 4 batches of 2048
  have e := host1_v8 (W2 (F := Ideal) m ρ c) b cc h
  -- the row it reads is the projection region's output array, which is the closed form of the arrays that region entered with
  rw [W2_main_v6_1 m ρ c, final0_6 (V1 m ρ) c, projG_ix2] at e
  refine e.trans ?_
  unfold projE Cert.Attn.proj
  -- those arrays are the first host stretch's results at the launch contents: x regrouped, a column range of the
  -- concatenated weight, a bias as a row
  congr 1
  · refine Finset.sum_congr rfl fun d _ => ?_
    congr 1
    · exact host0_v0 (W0 (F := Ideal) m ρ c) b cc d
    · exact host0_v2_k (W0 (F := Ideal) m ρ c) d h
  · exact host0_v4 (W0 (F := Ideal) m ρ c) h

/-- The values: the projection by the launch value weight and bias. -/
theorem v_eq (c : Dev nD) (b : Fin 4) (cc : Fin 2048) (h : Fin 1024) :
    (V3 (F := Ideal) m ρ c main_v9 : S4x2048x1024.Idx → EReal) (ix3 b cc h)
      = Cert.Attn.proj (m ((c : Thread nD τ).loc main_arg0) : S4x2048x1024.Idx → EReal) (m ((c : Thread nD τ).loc main_arg5) : S1024x1024.Idx → EReal) (m ((c : Thread nD τ).loc main_arg6) : S1024.Idx → EReal) b cc h := by
  -- the second host stretch only regroups the 8192 rows into 4 batches of 2048
  have e := host1_v9 (W2 (F := Ideal) m ρ c) b cc h
  -- the row it reads is the projection region's output array, which is the closed form of the arrays that region entered with
  rw [W2_main_v6_2 m ρ c, final0_7 (V1 m ρ) c, projG_ix2] at e
  refine e.trans ?_
  unfold projE Cert.Attn.proj
  -- those arrays are the first host stretch's results at the launch contents: x regrouped, a column range of the
  -- concatenated weight, a bias as a row
  congr 1
  · refine Finset.sum_congr rfl fun d _ => ?_
    congr 1
    · exact host0_v0 (W0 (F := Ideal) m ρ c) b cc d
    · exact host0_v2_v (W0 (F := Ideal) m ρ c) d h
  · exact host0_v5 (W0 (F := Ideal) m ρ c) h

/-! ## The output weight and bias as the attention region finds them -/

/-- The output weight it is entered with is the launch one (at the extended reals the rounding to bf16 is the identity). -/
theorem wo_eq (c : Dev nD) :
    (V3 (F := Ideal) m ρ c main_v10 : S1024x1024.Idx → EReal) = (m ((c : Thread nD τ).loc main_arg7) : S1024x1024.Idx → EReal) :=
  (host1_v10 (W2 (F := Ideal) m ρ c)).trans (W2_main_arg7 m ρ c)

/-- The output bias it is entered with is the launch one, as a row. -/
theorem bo_eq (c : Dev nD) (o : Fin 1024) :
    (V3 (F := Ideal) m ρ c main_v11 : S1x1024.Idx → EReal) (ix2 (0 : Fin 1) o) = (m ((c : Thread nD τ).loc main_arg8) : S1024.Idx → EReal) (ix1 o) := by
  have e := host1_v11 (W2 (F := Ideal) m ρ c) o
  rw [W2_main_arg8 m ρ c] at e
  exact e

end Cert.KernelIdeal.Val

end
-- ==== Proof.LibFiniteEntry.lean ====
import Idealize.ShloMosaic.Lib.ReduceAll
import Idealize.ShloMosaic.Lib.ValueIdx
import Idealize.ShloMosaic.PureOps.Ideal

/-!
# A finiteness test read back at one entry

A test "every entry of `x` has absolute value below +∞" is the conjunction, over all indices, of the
one-bit comparisons `|x i| < +∞`. When the conjunction is 1, every comparison is 1, and an extended real
whose absolute value is strictly below +∞ is neither +∞ nor -∞: it is a real number.
-/

noncomputable section

namespace Idealize.ShloMosaic.FiniteEntry

open Idealize.ShloMosaic Idealize.ShloMosaic.ValueIdx

/-- The f32 word `0x7F800000` denotes +∞. -/
theorem ofBits_inf : Ideal.ofBits .f32 0x7F800000#32 = (⊤ : EReal) := by
  simp [Ideal.ofBits, Ideal.ieee]

/-- An extended real `x` with `max x (-x) < +∞` (as a one-bit comparison equal to 1) is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

instance : Subsingleton (⟨0, ![]⟩ : Shape).Idx := ⟨fun a b => funext fun d => d.elim0⟩

/-- The test `all (|x| < +∞)` over an array `x` of any shape `s`: if the reduction by `and` of the
    comparisons of `|x|` against the broadcast word of +∞ is 1, then every entry of `x` is a real number. -/
theorem real_of_all_abs_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt_inf (x i) (Host.reduce_andi_all _ _ hr hu ix0 e i)

end Idealize.ShloMosaic.FiniteEntry
-- ==== Proof.PreFinite.lean ====
import proofs.«123817_j21947282882914_2_alg».proof.Pre_finite_inputs
import proofs.«123817_j21947282882914_2_alg».proof.Proof.LibFiniteEntry

/-!
# The precondition, read entry by entry

The precondition is the conjunction, over the nine argument arrays, of the tests "every entry has absolute value
below +∞". When it is 1 each of the nine tests is 1, and so every entry of every argument array is a real number.
-/

noncomputable section

open Idealize.ShloMosaic Idealize.ShloMosaic.ValueIdx Idealize.ShloMosaic.FiniteEntry

namespace Cert.RefSide

open Cert.Pre_finite_inputs Cert.Pre_finite_inputs.Facts

variable [Cert.Pre_finite_inputs.Facts]

/-- Under the precondition every entry of each of the nine argument arrays is a real number. -/
theorem finite_of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (a7 : FVec Ideal S1024x1024 .f32) (a8 : FVec Ideal S1024 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ix0
  dsimp only [fn, fn_part1, fn_part2] at h0
  obtain ⟨h38, h42⟩ := IntOp.andi_eq_one.1 h0
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all_abs_lt_inf a0 _ _ _ h3, real_of_all_abs_lt_inf a1 _ _ _ h7, real_of_all_abs_lt_inf a2 _ _ _ h12,
    real_of_all_abs_lt_inf a3 _ _ _ h17, real_of_all_abs_lt_inf a4 _ _ _ h22, real_of_all_abs_lt_inf a5 _ _ _ h27,
    real_of_all_abs_lt_inf a6 _ _ _ h32, real_of_all_abs_lt_inf a7 _ _ _ h37, real_of_all_abs_lt_inf a8 _ _ _ h42⟩

end Cert.RefSide

end
-- ==== Proof.KIFinite.lean ====
import proofs.«123817_j21947282882914_2_alg».proof.Defs
import proofs.«123817_j21947282882914_2_alg».proof.Proof.PreFinite

/-!
# The kernel program's precondition, entry by entry

The precondition of the idealized kernel program says that the finiteness test of its nine argument arrays is 1 on
every device. Read back through the nine-fold conjunction, every entry of every argument array is a real number.
-/

noncomputable section

open Idealize.ShloMosaic Idealize.ShloMosaic.TcCoe Idealize.SL.Sem

namespace Cert.KernelIdeal.Val

open Cert.KernelIdeal

/-- Under the precondition, on every device, every entry of each of the nine argument arrays is a real number. -/
theorem finite_args [Cert.KernelIdeal.Facts] [Cert.Pre_finite_inputs.Facts]
    (m : (ℓ : Loc nD τ sig) → Buf (Elt Ideal) ℓ) (h : Cert.Pre_KernelIdeal m) (c : Dev nD) :
    (∀ i, ∃ r : ℝ, (m ((c.tc : Thread nD τ).loc main_arg0) : S4x2048x1024.Idx → EReal) i = (r : EReal))
      ∧ (∀ i, ∃ r : ℝ, (m ((c.tc : Thread nD τ).loc main_arg1) : S1024x1024.Idx → EReal) i = (r : EReal))
      ∧ (∀ i, ∃ r : ℝ, (m ((c.tc : Thread nD τ).loc main_arg2) : S1024.Idx → EReal) i = (r : EReal))
      ∧ (∀ i, ∃ r : ℝ, (m ((c.tc : Thread nD τ).loc main_arg3) : S1024x1024.Idx → EReal) i = (r : EReal))
      ∧ (∀ i, ∃ r : ℝ, (m ((c.tc : Thread nD τ).loc main_arg4) : S1024.Idx → EReal) i = (r : EReal))
      ∧ (∀ i, ∃ r : ℝ, (m ((c.tc : Thread nD τ).loc main_arg5) : S1024x1024.Idx → EReal) i = (r : EReal))
      ∧ (∀ i, ∃ r : ℝ, (m ((c.tc : Thread nD τ).loc main_arg6) : S1024.Idx → EReal) i = (r : EReal))
      ∧ (∀ i, ∃ r : ℝ, (m ((c.tc : Thread nD τ).loc main_arg7) : S1024x1024.Idx → EReal) i = (r : EReal))
      ∧ (∀ i, ∃ r : ℝ, (m ((c.tc : Thread nD τ).loc main_arg8) : S1024.Idx → EReal) i = (r : EReal)) :=
  Cert.RefSide.finite_of_pre _ _ _ _ _ _ _ _ _ (h c)

end Cert.KernelIdeal.Val

end
-- ==== Proof.LibTileSums.lean ====
/-
  Two rearrangements of a finite sum in any commutative additive monoid (so also over the extended reals, where
  no finiteness is needed for them):

  * a sum over `2n` terms folded in halves: adding term `k` to term `n + k` first and summing the `n` pairs
    gives the whole sum;
  * a sum over `T * n` terms taken tile by tile: summing each run of `n` consecutive terms and then the `T` runs
    gives the whole sum.
-/
import Mathlib.Algebra.BigOperators.Fin
import Mathlib.Data.Fintype.BigOperators
import Mathlib.Logic.Equiv.Fin.Basic

namespace TileSums

open Finset

variable {M : Type*} [AddCommMonoid M]

/-- Folding the two halves of a sum of `n + n` terms pairwise: `∑ₖ (f k + f (n + k)) = ∑ f`. -/
theorem sum_fold_halves (n : ℕ) (f : Fin (n + n) → M) :
    ∑ k : Fin n, (f (Fin.castAdd n k) + f (Fin.natAdd n k)) = ∑ d : Fin (n + n), f d := by
  rw [Finset.sum_add_distrib, Fin.sum_univ_add]

/-- The same with the two terms named by their positions `k` and `n + k`. -/
theorem sum_fold_halves_val (n : ℕ) (f : Fin (n + n) → M) :
    ∑ k : Fin n, (f ⟨k.val, by omega⟩ + f ⟨n + k.val, by omega⟩) = ∑ d : Fin (n + n), f d :=
  sum_fold_halves n f

/-- A sum of `T * n` terms taken in `T` consecutive tiles of `n`: `∑ⱼ ∑ᵢ f (n j + i) = ∑ f`. -/
theorem sum_tiles (T n : ℕ) (f : Fin (T * n) → M) :
    ∑ j : Fin T, ∑ i : Fin n, f (finProdFinEquiv (j, i)) = ∑ x : Fin (T * n), f x := by
  rw [← Fintype.sum_prod_type (f := fun p : Fin T × Fin n => f (finProdFinEquiv p))]
  exact Equiv.sum_comp finProdFinEquiv f

/-- Tile `j`'s term `i` is term `n j + i` of the whole. -/
theorem tile_val (T n : ℕ) (j : Fin T) (i : Fin n) :
    ((finProdFinEquiv (j, i) : Fin (T * n)) : ℕ) = n * j.val + i.val := by
  simp only [finProdFinEquiv_apply_val]; omega

/-- Summing over `range (k + 1)` of a function of naturals, as a sum over `Fin (k + 1)`. -/
theorem sum_range_eq_sum_fin (k : ℕ) (g : ℕ → M) : ∑ j ∈ Finset.range k, g j = ∑ j : Fin k, g j.val :=
  (Fin.sum_univ_eq_sum_range g k).symm

end TileSums
-- ==== Proof.AttnAlg.lean ====
import Mathlib
import Idealize.ShloMosaic.PureOps.Ideal
import proofs.«123817_j21947282882914_2_alg».proof.Proof.LibFiniteSums
import proofs.«123817_j21947282882914_2_alg».proof.Proof.LibOnlineSoftmax
import proofs.«123817_j21947282882914_2_alg».proof.Proof.LibTileSums

/-!
# The running softmax over four tiles of 512 keys is the softmax over the 2048 keys

For one query row and one output column, with real scores s and real values v over the 2048 keys: the running
state after the four tiles holds a real maximum M₀, the sum A of exp (s - M₀) and the sum B of exp (s - M₀) · v;
B · (1 / A) is the softmax-weighted mean of v. The softmax written with any real shift M inside the
exponentials is the same mean: the factor exp (-M) cancels between numerator and denominator.
-/

noncomputable section

open scoped BigOperators

namespace Cert.AttnAlg

open Idealize.ShloMosaic Idealize.ShloMosaic.FiniteSums Cert.LibOnlineSoftmax

/-- Key number 512 j + r: key r of tile j. -/
def key (j : ℕ) (hj : j < 4) (r : Fin 512) : Fin 2048 := ⟨512 * j + r.val, by have := r.isLt; omega⟩

/-- The shift cancels in a softmax-weighted mean over any finite index type. -/
theorem mean_shift {ι : Type*} [Fintype ι] (s v : ι → ℝ) (M : ℝ) :
    (∑ k : ι, Real.exp (s k - M) * v k) / (∑ k : ι, Real.exp (s k - M))
      = (∑ k : ι, Real.exp (s k) * v k) / (∑ k : ι, Real.exp (s k)) := by
  have hN : (∑ k : ι, Real.exp (s k - M) * v k) = Real.exp (-M) * ∑ k : ι, Real.exp (s k) * v k := by
    rw [Finset.mul_sum]
    refine Finset.sum_congr rfl fun k _ => ?_
    rw [sub_eq_add_neg, Real.exp_add]; ring
  have hD : (∑ k : ι, Real.exp (s k - M)) = Real.exp (-M) * ∑ k : ι, Real.exp (s k) := by
    rw [Finset.mul_sum]
    refine Finset.sum_congr rfl fun k _ => ?_
    rw [sub_eq_add_neg, Real.exp_add]; ring
  rw [hN, hD, mul_div_mul_left _ _ (Real.exp_pos (-M)).ne']

/-- Four tiles of 512 taken in order are the 2048 keys. -/
theorem sum_four_tiles (g : Fin 2048 → ℝ) (g' : ℕ → Fin 512 → ℝ)
    (hg : ∀ j (hj : j < 4) (r : Fin 512), g' j r = g (key j hj r)) :
    ∑ j ∈ Finset.range 4, ∑ r : Fin 512, g' j r = ∑ k : Fin 2048, g k := by
  rw [TileSums.sum_range_eq_sum_fin 4 (fun j => ∑ r : Fin 512, g' j r)]
  have h := TileSums.sum_tiles 4 512 (fun x : Fin (4 * 512) => g ⟨x.val, x.isLt⟩)
  refine Eq.trans (Finset.sum_congr rfl fun j _ => Finset.sum_congr rfl fun r _ => ?_) h
  rw [hg j.val j.isLt r]
  refine congrArg g (Fin.ext ?_)
  show 512 * j.val + r.val = ((finProdFinEquiv (j, r) : Fin (4 * 512)) : ℕ)
  rw [TileSums.tile_val]

/-- The softmax with a real shift inside the exponentials, on real scores and values, as a real number. -/
theorem softmax_real (s v : Fin 2048 → ℝ) (M : ℝ) :
    (∑ k : Fin 2048, Ideal.div (Ideal.exp ((s k : EReal) - (M : EReal))) (∑ j : Fin 2048, Ideal.exp ((s j : EReal) - (M : EReal))) * (v k : EReal))
      = (((∑ k : Fin 2048, Real.exp (s k) * v k) / (∑ k : Fin 2048, Real.exp (s k)) : ℝ) : EReal) := by
  have hD : (∑ j : Fin 2048, Ideal.exp ((s j : EReal) - (M : EReal))) = ((∑ j : Fin 2048, Real.exp (s j - M) : ℝ) : EReal) := by
    rw [coe_finset_sum]
    exact Finset.sum_congr rfl fun j _ => exp_coe_sub_coe (s j) M
  have hpos : 0 < ∑ j : Fin 2048, Real.exp (s j - M) :=
    Finset.sum_pos (fun j _ => Real.exp_pos _) Finset.univ_nonempty
  rw [hD, ← mean_shift s v M]
  have hR : (((∑ k : Fin 2048, Real.exp (s k - M) * v k) / (∑ j : Fin 2048, Real.exp (s j - M)) : ℝ) : EReal)
      = ∑ k : Fin 2048, ((Real.exp (s k - M) * v k / (∑ j : Fin 2048, Real.exp (s j - M)) : ℝ) : EReal) := by
    rw [Finset.sum_div, coe_finset_sum]
  rw [hR]
  refine Finset.sum_congr rfl fun k _ => ?_
  rw [exp_coe_sub_coe, div_coe_coe _ _ hpos.ne', ← EReal.coe_mul]
  refine congrArg (fun x : ℝ => (x : EReal)) ?_
  ring

/-- The running state after the four tiles, divided out, is the softmax-weighted mean. -/
theorem online_real (s v : Fin 2048 → ℝ) (S V : ℕ → Fin 512 → EReal)
    (hS : ∀ j (hj : j < 4) (r : Fin 512), S j r = ((s (key j hj r) : ℝ) : EReal))
    (hV : ∀ j (hj : j < 4) (r : Fin 512), V j r = ((v (key j hj r) : ℝ) : EReal)) :
    (state S V 4).2.2 * Ideal.div 1 (state S V 4).2.1
      = (((∑ k : Fin 2048, Real.exp (s k) * v k) / (∑ k : Fin 2048, Real.exp (s k)) : ℝ) : EReal) := by
  let s' : ℕ → Fin 512 → ℝ := fun j r => if hj : j < 4 then s (key j hj r) else 0
  let v' : ℕ → Fin 512 → ℝ := fun j r => if hj : j < 4 then v (key j hj r) else 0
  have hc : state S V 4 = state (fun j r => (s' j r : EReal)) (fun j r => (v' j r : EReal)) 4 :=
    state_congr _ _ _ _ 4 fun j hj => ⟨funext fun r => by rw [hS j hj r]; simp only [s', dif_pos hj],
      funext fun r => by rw [hV j hj r]; simp only [v', dif_pos hj]⟩
  obtain ⟨M₀, hM⟩ := state_inv s' v' 3
  rw [hc, hM]
  have hpos := sum_exp_pos s' 3 M₀
  show ((_ : ℝ) : EReal) * Ideal.div 1 ((_ : ℝ) : EReal) = _
  rw [show (1 : EReal) = ((1 : ℝ) : EReal) from rfl, div_coe_coe _ _ hpos.ne', ← EReal.coe_mul]
  refine congrArg (fun x : ℝ => (x : EReal)) ?_
  have e1 := sum_four_tiles (fun k => Real.exp (s k) * v k) (fun j r => Real.exp (s' j r) * v' j r)
      fun j hj r => by simp only [s', v', dif_pos hj]
  have e2 := sum_four_tiles (fun k => Real.exp (s k)) (fun j r => Real.exp (s' j r))
      fun j hj r => by simp only [s', dif_pos hj]
  rw [mul_one_div, ratio_shift, e1, e2]

end Cert.AttnAlg
-- ==== Proof.OutSpec.lean ====
import Mathlib
import proofs.«123817_j21947282882914_2_alg».proof.Proof.OutDef
import proofs.«123817_j21947282882914_2_alg».proof.Proof.Spec
import proofs.«123817_j21947282882914_2_alg».proof.Proof.AttnAlg
import proofs.«123817_j21947282882914_2_alg».proof.Proof.LibFiniteSums
import proofs.«123817_j21947282882914_2_alg».proof.Proof.LibOnlineSoftmax

/-!
# The tiled attention layer is the attention layer

On real tokens and real projection weights every projection entry is a real number, hence so is every scaled
score; the running softmax over the four key tiles, divided out, is then the softmax-weighted mean of the values,
and so is the reference's softmax with any real shift inside the exponentials. The output projection and its bias
enter both sides in the same way.
-/

noncomputable section

open Idealize.ShloMosaic Idealize.ShloMosaic.ValueIdx Idealize.ShloMosaic.FiniteSums
open scoped BigOperators

namespace Cert.AttnOut

open Cert.Attn Cert.LibOnlineSoftmax Cert.AttnAlg

/-- The word 0x3D000000 is 2⁻⁵ = 1/32. -/
theorem ofBits_scale : Ideal.ofBits .f32 0x3D000000#32 = ((1 / 32 : ℝ) : EReal) := by
  simp [Ideal.ofBits, Ideal.ieee, -EReal.coe_mul]; norm_num

/-- The word 0x3F800000 is 1. -/
theorem ofBits_one : Ideal.ofBits .f32 0x3F800000#32 = (1 : EReal) := by
  simp [Ideal.ofBits, Ideal.ieee, -EReal.coe_mul]; norm_num

/-- Below 2048 the reduction modulo 2048 does nothing: key r of tile j < 4 is key 512 j + r. -/
theorem keyIx_eq_key (j : ℕ) (hj : j < 4) (r : Fin 512) : keyIx j r = key j hj r :=
  Fin.ext (Nat.mod_eq_of_lt (by have := r.isLt; omega))

/-- A projection of real tokens by real weights and a real bias is real: a finite sum of products of reals plus a real. -/
theorem isReal_proj (x : T3.Idx → EReal) (W : T2.Idx → EReal) (b : T1.Idx → EReal)
    (hx : ∀ i, ∃ r : ℝ, x i = (r : EReal)) (hW : ∀ i, ∃ r : ℝ, W i = (r : EReal)) (hb : ∀ i, ∃ r : ℝ, b i = (r : EReal))
    (bi : Fin 4) (c : Fin 2048) (h : Fin 1024) : IsReal (proj x W b bi c h) := by
  unfold proj
  exact (IsReal.sum_univ _ fun d => IsReal.mul (hx _) (hW _)).add (hb _)

/-- A scaled score of real queries against real keys is real. -/
theorem isReal_score (Q K : Fin 4 → Fin 2048 → Fin 1024 → EReal) (hQ : ∀ b c h, IsReal (Q b c h)) (hK : ∀ b c h, IsReal (K b c h))
    (bi : Fin 4) (q k : Fin 2048) : IsReal (score Q K bi q k) := by
  unfold score
  exact (IsReal.sum_univ _ fun h => IsReal.mul (hQ _ _ _) (hK _ _ _)).mul (isReal_coe _)

/-- One entry: the running softmax over four tiles, normalised and projected, is the layer's entry. -/
theorem outE_eq_spec (mx : (Fin 2048 → EReal) → EReal)
    (hmx : ∀ s : Fin 2048 → EReal, (∀ k, ∃ r : ℝ, s k = (r : EReal)) → ∃ r : ℝ, mx s = (r : EReal))
    (x : T3.Idx → EReal) (Wq : T2.Idx → EReal) (bq : T1.Idx → EReal) (Wk : T2.Idx → EReal) (bk : T1.Idx → EReal)
    (Wv : T2.Idx → EReal) (bv : T1.Idx → EReal) (Wo : T2.Idx → EReal) (bo : T1.Idx → EReal)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (Qa Ka Va : T3.Idx → EReal) (Woa : T2.Idx → EReal) (Boa : R1.Idx → EReal)
    (hQ : ∀ b cc h, Qa (ix3 b cc h) = Cert.Attn.proj x Wq bq b cc h) (hK : ∀ b cc h, Ka (ix3 b cc h) = Cert.Attn.proj x Wk bk b cc h)
    (hV : ∀ b cc h, Va (ix3 b cc h) = Cert.Attn.proj x Wv bv b cc h)
    (hWo : Woa = Wo) (hBo : ∀ o : Fin 1024, Boa (ix2 (0 : Fin 1) o) = bo (ix1 o))
    (b : Fin 4) (q : Fin 2048) (o : Fin 1024) :
    outE Qa Ka Va Woa Boa b q o = Cert.Attn.out mx x Wq bq Wk bk Wv bv Wo bo b q o := by
  have hQr : ∀ b c h, IsReal (proj x Wq bq b c h) := isReal_proj x Wq bq hx hWq hbq
  have hKr : ∀ b c h, IsReal (proj x Wk bk b c h) := isReal_proj x Wk bk hx hWk hbk
  have hVr : ∀ b c h, IsReal (proj x Wv bv b c h) := isReal_proj x Wv bv hx hWv hbv
  -- the 2048 scores of this query are real numbers
  obtain ⟨s, hs⟩ := exists_real_family (fun k : Fin 2048 => score (proj x Wq bq) (proj x Wk bk) b q k)
    (fun k => isReal_score _ _ hQr hKr b q k)
  have hs' : ∀ k, score (proj x Wq bq) (proj x Wk bk) b q k = ((s k : ℝ) : EReal) := hs
  -- the reference's shift is a real number
  obtain ⟨M, hM⟩ := hmx (score (proj x Wq bq) (proj x Wk bk) b q) (fun k => ⟨s k, hs' k⟩)
  -- the kernel's scores, tile by tile, are those scores
  have hS : ∀ j (hj : j < 4) (r : Fin 512), SA Qa Ka b q j r = ((s (key j hj r) : ℝ) : EReal) := by
    intro j hj r
    rw [← hs' (key j hj r)]
    unfold SA score
    rw [ofBits_scale, keyIx_eq_key j hj r]
    refine congrArg (fun z : EReal => z * ((1 / 32 : ℝ) : EReal)) ?_
    exact Finset.sum_congr rfl fun d _ => by rw [hQ b q d, hK b (key j hj r) d]
  unfold outE Cert.Attn.out
  rw [hBo o, hWo]
  refine congrArg (fun z : EReal => z + bo (ix1 o)) ?_
  refine Finset.sum_congr rfl fun h _ => ?_
  refine congrArg (fun z : EReal => z * Wo (ix2 h o)) ?_
  -- column h of the values is real
  obtain ⟨v, hv⟩ := exists_real_family (fun k : Fin 2048 => proj x Wv bv b k h) (fun k => hVr b k h)
  have hv' : ∀ k, proj x Wv bv b k h = ((v k : ℝ) : EReal) := hv
  have hVt : ∀ j (hj : j < 4) (r : Fin 512), VA Va b h j r = ((v (key j hj r) : ℝ) : EReal) := by
    intro j hj r
    rw [← hv' (key j hj r)]
    unfold VA
    rw [keyIx_eq_key j hj r]
    exact hV b (key j hj r) h
  rw [ofBits_one, online_real s v _ _ hS hVt, ← softmax_real s v M]
  unfold attn weight
  rw [hM]
  refine Finset.sum_congr rfl fun k _ => ?_
  rw [hs' k, hv' k]
  refine congrArg (fun z : EReal => Ideal.div (Ideal.exp (((s k : ℝ) : EReal) - ((M : ℝ) : EReal))) z * ((v k : ℝ) : EReal)) ?_
  exact Finset.sum_congr rfl fun j _ => by rw [hs' j]

/-- The same for the whole result array. -/
theorem outG_eq_spec (mx : (Fin 2048 → EReal) → EReal)
    (hmx : ∀ s : Fin 2048 → EReal, (∀ k, ∃ r : ℝ, s k = (r : EReal)) → ∃ r : ℝ, mx s = (r : EReal))
    (x : T3.Idx → EReal) (Wq : T2.Idx → EReal) (bq : T1.Idx → EReal) (Wk : T2.Idx → EReal) (bk : T1.Idx → EReal)
    (Wv : T2.Idx → EReal) (bv : T1.Idx → EReal) (Wo : T2.Idx → EReal) (bo : T1.Idx → EReal)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (Qa Ka Va : T3.Idx → EReal) (Woa : T2.Idx → EReal) (Boa : R1.Idx → EReal)
    (hQ : ∀ b cc h, Qa (ix3 b cc h) = Cert.Attn.proj x Wq bq b cc h) (hK : ∀ b cc h, Ka (ix3 b cc h) = Cert.Attn.proj x Wk bk b cc h)
    (hV : ∀ b cc h, Va (ix3 b cc h) = Cert.Attn.proj x Wv bv b cc h)
    (hWo : Woa = Wo) (hBo : ∀ o : Fin 1024, Boa (ix2 (0 : Fin 1) o) = bo (ix1 o)) :
    outG Qa Ka Va Woa Boa = Cert.Attn.outArr mx x Wq bq Wk bk Wv bv Wo bo := by
  funext i
  unfold outG outArr
  exact outE_eq_spec mx hmx x Wq bq Wk bk Wv bv Wo bo hx hWq hbq hWk hbk hWv hbv Qa Ka Va Woa Boa hQ hK hV hWo hBo (i 0) (i 1) (i 2)

end Cert.AttnOut

end
-- ==== Proof.RefIsSpec.lean ====
import proofs.«123817_j21947282882914_2_alg».proof.Proof.Spec
import proofs.«123817_j21947282882914_2_alg».proof.Proof.Gen.ReferenceIdeal.Read
import Idealize.ShloMosaic.PureOps.Ideal.Laws
import Idealize.ShloMosaic.PureOps.Reduce
import Idealize.ShloMosaic.Lib.ValueIdx

/-!
# The reference program computes the attention layer of the specification

The reference's host operations, read one stage at a time at an index: three affine projections, the scores
(a contraction over the width divided by √1024 = 32, i.e. multiplied by 1/32), the row maximum (a fold of max from
−∞ over the 2048 keys, then once more max with −∞), the shifted exponentials and their sum, the quotient, the
weighted mean of the values and the last affine map. Composed, they are the specification's layer with the shift refMax.
-/

noncomputable section

open Idealize.ShloMosaic Idealize.ShloMosaic.TcCoe Idealize.SL.Sem Idealize.ShloMosaic.StableHlo
open Idealize.ShloMosaic.ValueIdx
open scoped BigOperators

namespace Cert.RefSide

open Cert.ReferenceIdeal Cert.ReferenceIdeal.Gen Cert.ReferenceIdeal.Read

/-! ## The shift: the maximum of a row of scores, as the reference computes it -/

/-- The fold of max from −∞ over the 2048 scores of a row, then max with −∞ once more. -/
def refMax (s : Fin 2048 → EReal) : EReal :=
  max ⊥ ((Finset.univ : Finset (Fin 2048)).fold max ⊥ s)

/-- The shift is the supremum of the row. -/
theorem refMax_eq_sup (s : Fin 2048 → EReal) : refMax s = (Finset.univ : Finset (Fin 2048)).sup s := by
  unfold refMax
  rw [max_eq_right bot_le]
  rfl

/-- Every score of the row is at most the shift. -/
theorem le_refMax (s : Fin 2048 → EReal) (k : Fin 2048) : s k ≤ refMax s := by
  rw [refMax_eq_sup]
  exact Finset.le_sup (f := s) (Finset.mem_univ k)

/-- The shift is one of the row's scores. -/
theorem refMax_mem (s : Fin 2048 → EReal) : ∃ k : Fin 2048, refMax s = s k := by
  obtain ⟨i, _, hi⟩ := Finset.exists_mem_eq_sup (Finset.univ : Finset (Fin 2048)) ⟨0, Finset.mem_univ _⟩ s
  exact ⟨i, (refMax_eq_sup s).trans hi⟩

/-- On a row of real scores the shift is real. -/
theorem refMax_real (s : Fin 2048 → EReal) (h : ∀ k, ∃ r : ℝ, s k = (r : EReal)) : ∃ r : ℝ, refMax s = (r : EReal) := by
  obtain ⟨i, hi⟩ := refMax_mem s
  obtain ⟨r, hr⟩ := h i
  exact ⟨r, hi.trans hr⟩

/-! ## The three literals -/

/-- The word 0x44800000 is 1024. -/
theorem ofBits_1024 : Ideal.ofBits .f32 0x44800000#32 = ((1024 : ℝ) : EReal) := by
  simp [Ideal.ofBits, Ideal.ieee, -EReal.coe_mul]; norm_num

/-- The word 0xFF800000 is −∞. -/
theorem ofBits_neg_inf : Ideal.ofBits .f32 0xFF800000#32 = ⊥ := by
  simp [Ideal.ofBits, Ideal.ieee]

/-- √1024 = 32. -/
theorem sqrt_1024 : Ideal.sqrt ((1024 : ℝ) : EReal) = ((32 : ℝ) : EReal) := by
  rw [Ideal.sqrt_coe, if_neg (by norm_num)]
  rw [show (1024 : ℝ) = 32 ^ 2 by norm_num, Real.sqrt_sq (by norm_num)]

/-- Two ways of writing an index from its coordinates are equal coordinate by coordinate. -/
local macro "idx3" : tactic =>
  `(tactic| exact funext fun a => by match a with | ⟨0, _⟩ => rfl | ⟨1, _⟩ => rfl | ⟨2, _⟩ => rfl)
local macro "idx2" : tactic =>
  `(tactic| exact funext fun a => by match a with | ⟨0, _⟩ => rfl | ⟨1, _⟩ => rfl)
local macro "idx1" : tactic =>
  `(tactic| exact funext fun a => by match a with | ⟨0, _⟩ => rfl)

/-! ## The projections -/

/-- The query projection at (bi, c, h). -/
theorem proj_q (x : FVec Ideal S4x2048x1024 .f32) (W : FVec Ideal S1024x1024 .f32) (b : FVec Ideal S1024 .f32)
    (bi : Fin 4) (c : Fin 2048) (h : Fin 1024) :
    val_main_v3 (F := Ideal) x W b (ix3 bi c h) = Cert.Attn.proj x W b bi c h := by
  rw [val_main_v3_apply, val_main_v0_apply, val_main_v2_apply, val_main_v1_apply, Ideal.addf_def]
  unfold Cert.Attn.proj
  refine congrArg₂ (· + ·) (Finset.sum_congr rfl fun k _ => ?_) (congrArg b (by idx1))
  exact congrArg₂ (· * ·) (congrArg x (by idx3)) (congrArg W (by idx2))

/-- The key projection at (bi, c, h). -/
theorem proj_k (x : FVec Ideal S4x2048x1024 .f32) (W : FVec Ideal S1024x1024 .f32) (b : FVec Ideal S1024 .f32)
    (bi : Fin 4) (c : Fin 2048) (h : Fin 1024) :
    val_main_v7 (F := Ideal) x W b (ix3 bi c h) = Cert.Attn.proj x W b bi c h := by
  rw [val_main_v7_apply, val_main_v4_apply, val_main_v6_apply, val_main_v5_apply, Ideal.addf_def]
  unfold Cert.Attn.proj
  refine congrArg₂ (· + ·) (Finset.sum_congr rfl fun k _ => ?_) (congrArg b (by idx1))
  exact congrArg₂ (· * ·) (congrArg x (by idx3)) (congrArg W (by idx2))

/-- The value projection at (bi, c, h). -/
theorem proj_v (x : FVec Ideal S4x2048x1024 .f32) (W : FVec Ideal S1024x1024 .f32) (b : FVec Ideal S1024 .f32)
    (bi : Fin 4) (c : Fin 2048) (h : Fin 1024) :
    val_main_v11 (F := Ideal) x W b (ix3 bi c h) = Cert.Attn.proj x W b bi c h := by
  rw [val_main_v11_apply, val_main_v8_apply, val_main_v10_apply, val_main_v9_apply, Ideal.addf_def]
  unfold Cert.Attn.proj
  refine congrArg₂ (· + ·) (Finset.sum_congr rfl fun k _ => ?_) (congrArg b (by idx1))
  exact congrArg₂ (· * ·) (congrArg x (by idx3)) (congrArg W (by idx2))

/-! ## The scores -/

/-- The scaled score of query q against key k: the contraction over the width, divided by √1024. -/
theorem score_apply (x : FVec Ideal S4x2048x1024 .f32) (Wq : FVec Ideal S1024x1024 .f32) (bq : FVec Ideal S1024 .f32)
    (Wk : FVec Ideal S1024x1024 .f32) (bk : FVec Ideal S1024 .f32) (bi : Fin 4) (q k : Fin 2048) :
    val_main_v15 (F := Ideal) x Wq bq Wk bk (ix3 bi q k)
      = Cert.Attn.score (Cert.Attn.proj x Wq bq) (Cert.Attn.proj x Wk bk) bi q k := by
  rw [val_main_v15_apply, val_main_v12_apply, val_main_v14_apply, val_main_v13_apply, val_main_cst_apply,
    Ideal.hostDivf_def, Ideal.hostUnary_sqrt_def, Ideal.ofBits_def, ofBits_1024, sqrt_1024,
    Ideal.div_coe (by norm_num : (32 : ℝ) ≠ 0)]
  unfold Cert.Attn.score
  refine congrArg (· * _) (Finset.sum_congr rfl fun h _ => ?_)
  rw [show lidx_main_v12 (ix3 bi q k) h = ix3 bi q h from by idx3,
    show ridx_main_v12 (ix3 bi q k) h = ix3 bi k h from by idx3, proj_q, proj_k]

/-! ## The row maximum -/

/-- Key k put back on the reduced axis of the row (bi, q). -/
theorem lift_row (h : S4x2048x2048.Reduces [2] S4x2048) (bi : Fin 4) (q : Fin 2048) (k : Fin (S4x2048x2048.size 2)) :
    h.lift (ix2 bi q) k = ix3 bi q (⟨k.val, k.isLt⟩ : Fin 2048) := by
  funext c; apply Fin.ext
  fin_cases c <;> rfl

/-- Over any array of scores: the max-reduce over the keys from −∞, then max with −∞, at row (bi, q), is refMax of the row. -/
theorem rowMax_fold (y : FVec Ideal S4x2048x2048 .f32) (bi : Fin 4) (q : Fin 2048) :
    FloatOps.maximumf (F := Ideal) (φ := .f32) (FloatOps.ofBits .f32 0xFF800000#32)
        (Host.reduce FloatOps.maximumf y (constant (F := Ideal) S_ .f32 0xFF800000#32) reducesTo_S4x2048x2048_S4x2048_d2 h_S_ (ix2 bi q))
      = refMax (fun k => y (ix3 bi q k)) := by
  have hr : S4x2048x2048.Reduces [2] S4x2048 := by decide
  rw [Host.reduce_eq_fold_single FloatOps.maximumf y _ reducesTo_S4x2048x2048_S4x2048_d2 hr h_S_]
  have hc : (constant (F := Ideal) S_ .f32 0xFF800000#32) (Shape.Idx.first h_S_) = (⊥ : EReal) := ofBits_neg_inf
  rw [hc, Ideal.ofBits_def, ofBits_neg_inf]
  unfold refMax
  have hf : (y ∘ hr.lift (ix2 bi q)) = fun k : Fin 2048 => y (ix3 bi q k) := funext fun k => congrArg y (lift_row hr bi q k)
  exact congrArg (fun f => max ⊥ (Finset.fold max ⊥ f (Finset.univ : Finset (Fin 2048)))) hf

/-- The reference's shift of row (bi, q) is refMax of the row's scores. -/
theorem max_apply (x : FVec Ideal S4x2048x1024 .f32) (Wq : FVec Ideal S1024x1024 .f32) (bq : FVec Ideal S1024 .f32)
    (Wk : FVec Ideal S1024x1024 .f32) (bk : FVec Ideal S1024 .f32) (bi : Fin 4) (q : Fin 2048) :
    val_main_v18 (F := Ideal) x Wq bq Wk bk (ix2 bi q)
      = refMax (fun k => val_main_v15 (F := Ideal) x Wq bq Wk bk (ix3 bi q k)) := by
  rw [val_main_v18_apply, val_main_v17_apply, val_main_cst_1_apply]
  unfold val_main_v16
  exact rowMax_fold (val_main_v15 (F := Ideal) x Wq bq Wk bk) bi q

/-! ## The softmax weights -/

/-- The shifted exponential of the score of query q against key j. -/
theorem exp_apply (x : FVec Ideal S4x2048x1024 .f32) (Wq : FVec Ideal S1024x1024 .f32) (bq : FVec Ideal S1024 .f32)
    (Wk : FVec Ideal S1024x1024 .f32) (bk : FVec Ideal S1024 .f32) (bi : Fin 4) (q j : Fin 2048) :
    val_main_v22 (F := Ideal) x Wq bq Wk bk (ix3 bi q j)
      = Ideal.exp (val_main_v15 (F := Ideal) x Wq bq Wk bk (ix3 bi q j)
          - refMax (fun k => val_main_v15 (F := Ideal) x Wq bq Wk bk (ix3 bi q k))) := by
  rw [val_main_v22_apply, val_main_v21_apply, val_main_v20_apply, val_main_v19_apply,
    show idx_main_v19 (idx_main_v20 (ix3 bi q j)) = ix2 bi q from by idx2, max_apply]
  rfl

/-- The weight of key k for query q: its shifted exponential over the sum of the row's shifted exponentials. -/
theorem weight_apply (x : FVec Ideal S4x2048x1024 .f32) (Wq : FVec Ideal S1024x1024 .f32) (bq : FVec Ideal S1024 .f32)
    (Wk : FVec Ideal S1024x1024 .f32) (bk : FVec Ideal S1024 .f32) (bi : Fin 4) (q k : Fin 2048) :
    val_main_v26 (F := Ideal) x Wq bq Wk bk (ix3 bi q k)
      = Cert.Attn.weight refMax (fun j => val_main_v15 (F := Ideal) x Wq bq Wk bk (ix3 bi q j)) k := by
  rw [val_main_v26_apply, val_main_v25_apply, val_main_v24_apply,
    show idx_main_v24 (idx_main_v25 (ix3 bi q k)) = ix2 bi q from by idx2, val_main_v23_apply, val_main_cst_2_apply,
    exp_apply, Ideal.hostDivf_def, Ideal.ofBits_def, Ideal.ofBits_zero_f32, zero_add]
  unfold Cert.Attn.weight
  refine congrArg (Ideal.div _) (Finset.sum_congr rfl fun j _ => ?_)
  rw [show idx_main_v23 (ix2 bi q) j = ix3 bi q j from by idx3, exp_apply]

/-! ## The weighted mean of the values -/

/-- The attention output at (bi, q, h), before the last projection. -/
theorem attn_apply (x : FVec Ideal S4x2048x1024 .f32) (Wq : FVec Ideal S1024x1024 .f32) (bq : FVec Ideal S1024 .f32)
    (Wk : FVec Ideal S1024x1024 .f32) (bk : FVec Ideal S1024 .f32) (Wv : FVec Ideal S1024x1024 .f32) (bv : FVec Ideal S1024 .f32)
    (bi : Fin 4) (q : Fin 2048) (h : Fin 1024) :
    val_main_v27 (F := Ideal) x Wq bq Wk bk Wv bv (ix3 bi q h)
      = Cert.Attn.attn refMax (Cert.Attn.proj x Wq bq) (Cert.Attn.proj x Wk bk) (Cert.Attn.proj x Wv bv) bi q h := by
  rw [val_main_v27_apply]
  unfold Cert.Attn.attn
  have hs : (fun j => val_main_v15 (F := Ideal) x Wq bq Wk bk (ix3 bi q j))
      = Cert.Attn.score (Cert.Attn.proj x Wq bq) (Cert.Attn.proj x Wk bk) bi q :=
    funext fun j => score_apply x Wq bq Wk bk bi q j
  refine Finset.sum_congr rfl fun k _ => ?_
  rw [show lidx_main_v27 (ix3 bi q h) k = ix3 bi q k from by idx3,
    show ridx_main_v27 (ix3 bi q h) k = ix3 bi k h from by idx3, weight_apply, hs, proj_v]

/-! ## The output projection -/

/-- The layer's output at (bi, q, o). -/
theorem out_apply (x : FVec Ideal S4x2048x1024 .f32) (Wq : FVec Ideal S1024x1024 .f32) (bq : FVec Ideal S1024 .f32)
    (Wk : FVec Ideal S1024x1024 .f32) (bk : FVec Ideal S1024 .f32) (Wv : FVec Ideal S1024x1024 .f32) (bv : FVec Ideal S1024 .f32)
    (Wo : FVec Ideal S1024x1024 .f32) (bo : FVec Ideal S1024 .f32) (bi : Fin 4) (q : Fin 2048) (o : Fin 1024) :
    val_main_v31 (F := Ideal) x Wq bq Wk bk Wv bv Wo bo (ix3 bi q o)
      = Cert.Attn.out refMax x Wq bq Wk bk Wv bv Wo bo bi q o := by
  rw [val_main_v31_apply, val_main_v28_apply, val_main_v30_apply, val_main_v29_apply, Ideal.addf_def]
  unfold Cert.Attn.out
  refine congrArg₂ (· + ·) (Finset.sum_congr rfl fun h _ => ?_) (congrArg bo (by idx1))
  rw [show lidx_main_v28 (ix3 bi q o) h = ix3 bi q h from by idx3,
    show ridx_main_v28 (ix3 bi q o) h = ix2 h o from by idx2, attn_apply]

/-- The reference's result, as a function of the nine argument arrays, is the specification's layer with the shift refMax. -/
theorem ref_eq_spec (x : FVec Ideal S4x2048x1024 .f32) (Wq : FVec Ideal S1024x1024 .f32) (bq : FVec Ideal S1024 .f32)
    (Wk : FVec Ideal S1024x1024 .f32) (bk : FVec Ideal S1024 .f32) (Wv : FVec Ideal S1024x1024 .f32) (bv : FVec Ideal S1024 .f32)
    (Wo : FVec Ideal S1024x1024 .f32) (bo : FVec Ideal S1024 .f32) :
    val_main_v31 (F := Ideal) x Wq bq Wk bk Wv bv Wo bo = Cert.Attn.outArr refMax x Wq bq Wk bk Wv bv Wo bo := by
  funext i
  obtain ⟨a, b, c, rfl⟩ : ∃ (a : Fin 4) (b : Fin 2048) (c : Fin 1024), i = ix3 a b c := ⟨i 0, i 1, i 2, eq_ix3 i⟩
  exact out_apply x Wq bq Wk bk Wv bv Wo bo a b c

end Cert.RefSide

end
-- ==== Proof.RefFrame.lean ====
import proofs.«123817_j21947282882914_2_alg».proof.Defs
import proofs.«123817_j21947282882914_2_alg».proof.Proof.Gen.ReferenceIdeal
import proofs.«123817_j21947282882914_2_alg».proof.Proof.Gen.Pre_finite_inputs
import proofs.«123817_j21947282882914_2_alg».proof.Proof.Gen.ReferenceIdeal.Run

/-!
# The reference's frame

The reference is a straight line of host operations: every weakly fair execution terminates with each result at the
operations' composed term and the argument arrays unchanged. Dropping what it says of the result leaves the frame.
-/

noncomputable section

open Idealize.ShloMosaic Idealize.ShloMosaic.TcCoe Idealize.SL.Sem

namespace Cert.RefSide

/-- Under any precondition the reference terminates without a fault and leaves its nine argument arrays unchanged. -/
theorem frame_ref : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.lean ====
/-
  Scaled dot-product self-attention with an output projection, computed by two tiled kernels, against the plain
  jnp formula: the kernel program, its idealization and the reference each terminate and leave their nine argument
  arrays unchanged, and at the extended reals the two idealized programs end with the same result array.

  The decomposition. Both programs are shown to end holding ONE function of the nine argument arrays, the layer of
  Proof/Spec.lean with the reference's own shift inside the exponentials (the row maximum):
  * the reference, a straight line of host operations, is read one operation at a time at an index (three affine
    projections, scores divided by √1024 = 32, the row maximum, shifted exponentials, their sum, the quotient, the
    weighted mean of the values, the last affine map);
  * the kernel program is two regions between host reshapes. The first region's sixteen row blocks tile each of
    the three projection arrays, every stored entry being a plain sum over the 1024 input features plus a bias. The
    second region visits, for each batch and each block of 1024 queries, four tiles of 512 keys, carrying a running
    maximum, a running sum of shifted exponentials and a running weighted sum of the values; after the fourth tile
    it stores the weighted sums divided by the plain sum, through the output projection. Rescaling the running
    sums whenever the maximum moves leaves the final quotient equal to the softmax's, for ANY real shift: this is
    where the finiteness of the inputs is used, and the only place.
  The frames of the two kernel programs are the launch theorems of the two regions chained through the host
  operations; the idealization rewrote nothing, so there is nothing to preserve.
-/
import proofs.«123817_j21947282882914_2_alg».proof.Defs
import proofs.«123817_j21947282882914_2_alg».proof.Proof.Gen.Kernel
import proofs.«123817_j21947282882914_2_alg».proof.Proof.Gen.KernelIdeal
import proofs.«123817_j21947282882914_2_alg».proof.Proof.Gen.ReferenceIdeal
import proofs.«123817_j21947282882914_2_alg».proof.Proof.Gen.Pre_finite_inputs
import proofs.«123817_j21947282882914_2_alg».proof.Proof.Gen.ReferenceIdeal.Read
import proofs.«123817_j21947282882914_2_alg».proof.Proof.KRun
import proofs.«123817_j21947282882914_2_alg».proof.Proof.KIRun
import proofs.«123817_j21947282882914_2_alg».proof.Proof.KIVal1
import proofs.«123817_j21947282882914_2_alg».proof.Proof.KIChain
import proofs.«123817_j21947282882914_2_alg».proof.Proof.KIFinite
import proofs.«123817_j21947282882914_2_alg».proof.Proof.OutSpec
import proofs.«123817_j21947282882914_2_alg».proof.Proof.RefIsSpec
import proofs.«123817_j21947282882914_2_alg».proof.Proof.RefFrame

noncomputable section

namespace Cert.Proof

open Idealize.ShloMosaic Idealize.ShloMosaic.TcCoe Idealize.SL.Sem

/-- The word-level kernel program terminates and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- On finite inputs the array the attention region leaves in the result buffer is the layer of the nine arguments:
    the region's tiled form of the layer, fed the three projections the first region and the reshapes produce,
    equals the plain form for any shift that is real on real scores. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Hand.dat1 (F := Ideal) (Cert.KernelIdeal.Hand.V3 m ρ) c).arrAt 5 Cert.KernelIdeal.cfg1.N
      = Cert.Attn.outArr Cert.RefSide.refMax (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨h0, h1, h2, h3, h4, h5, h6, -, -⟩ := Cert.KernelIdeal.Val.finite_args m hpre c
  rw [Cert.KernelIdeal.Val.final1_5 (Cert.KernelIdeal.Hand.V3 m ρ) c]
  exact Cert.AttnOut.outG_eq_spec Cert.RefSide.refMax Cert.RefSide.refMax_real _ _ _ _ _ _ _ _ _ h0 h1 h2 h3 h4 h5 h6 _ _ _ _ _
    (Cert.KernelIdeal.Val.q_eq m ρ c) (Cert.KernelIdeal.Val.k_eq m ρ c) (Cert.KernelIdeal.Val.v_eq m ρ c)
    (Cert.KernelIdeal.Val.wo_eq m ρ c) (Cert.KernelIdeal.Val.bo_eq m ρ c)

/-- From memories agreeing on the arguments both idealized programs end with the layer of the arguments in their
    result arrays. -/
theorem algebraic : Cert.algebraic_KernelIdeal_ReferenceIdeal := by
  intro m ρ m' ρ' hpre hagree
  refine ⟨fun c => Cert.Attn.outArr Cert.RefSide.refMax (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (kernel_value m ρ hpre c), (h c).2⟩)
      (Cert.KernelIdeal.Hand.result_run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v31_eq, Cert.RefSide.ref_eq_spec, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, Cert.RefSide.frame_ref, trivial, algebraic⟩

end Cert.Proof

end
